-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096 .f32) (main_arg3 : FVec F S4096x4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S8192x1 : Shape := ⟨2, ![8192, 1]⟩
abbrev S512x512 : Shape := ⟨2, ![512, 512]⟩
abbrev S1024x512 : Shape := ⟨2, ![1024, 512]⟩
abbrev S1x1024 : Shape := ⟨2, ![1, 1024]⟩
abbrev S512x1 : Shape := ⟨2, ![512, 1]⟩
abbrev S512x1024 : Shape := ⟨2, ![512, 1024]⟩
abbrev S512 : Shape := ⟨1, ![512]⟩

abbrev nBuf : Space → Nat
  | .hbm => 13
  | .vmem => 31
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S8192x1, .f32⟩
  | .hbm, ⟨11, _⟩ => ⟨S8192x1, .f32⟩
  | .hbm, ⟨12, _⟩ => ⟨S8192x4096, .f32⟩
  | .local _ .vmem, ⟨0, _⟩ => ⟨S512x512, .f32⟩
  | .local _ .vmem, ⟨1, _⟩ => ⟨S512x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x512, .f32⟩
  | .local _ .vmem, ⟨7, _⟩ => ⟨S1024x512, .f32⟩
  | .local _ .vmem, ⟨8, _⟩ => ⟨S1x1024, .f32⟩
  | .local _ .vmem, ⟨9, _⟩ => ⟨S1x1024, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1024, .f32⟩
  | .local _ .vmem, ⟨15, _⟩ => ⟨S512x1024, .f32⟩
  | .local _ .vmem, ⟨16, _⟩ => ⟨S512x1, .f32⟩
  | .local _ .vmem, ⟨17, _⟩ => ⟨S512x1, .f32⟩
  | .local _ .vmem, ⟨18, _⟩ => ⟨S512x512, .f32⟩
  | .local _ .vmem, ⟨19, _⟩ => ⟨S512x512, .f32⟩
  | .local _ .vmem, ⟨20, _⟩ => ⟨S1024x512, .f32⟩
  | .local _ .vmem, ⟨21, _⟩ => ⟨S1024x512, .f32⟩
  | .local _ .vmem, ⟨22, _⟩ => ⟨S1x1024, .f32⟩
  | .local _ .vmem, ⟨23, _⟩ => ⟨S1x1024, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨3, ![16, 4, 8], ![false, false, false]⟩

def k0_cond4 (i : grid0.Coords) : BitVec 1 :=
  let arg1 : BitVec 32 := BitVec.ofNat 32 (i 1).val
  let c3_i32 : BitVec 32 := 3#32
  let v29 : BitVec 1 := Scalar.cmpi .eq arg1 c3_i32
  let arg2 : BitVec 32 := BitVec.ofNat 32 (i 2).val
  let c7_i32_19 : BitVec 32 := 7#32
  let v30 : BitVec 1 := Scalar.cmpi .eq arg2 c7_i32_19
  let v31 : BitVec 1 := Scalar.andi v29 v30
  let v32 : BitVec 32 := Scalar.extui v31
  let c0_i32_20 : BitVec 32 := 0#32
  let v33 : BitVec 1 := Scalar.cmpi .ne v32 c0_i32_20
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev grid1 : Pipeline.Grid := ⟨3, ![16, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .f32 = 32 ∨ (Rect.block (s := S8192x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .f32 = 32 ∨ (Rect.block (s := S4096x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x4096.size a
  hwx1_0 : ∀ i : grid1.Coords, EltTy.bits .f32 = 32 ∨ (Rect.block (s := S8192x4096) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .f32 = 32 ∨ (Rect.block (s := S4096x4096) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S8192x1.size a
  hwx1_3 : ∀ i : grid1.Coords, EltTy.bits .f32 = 32 ∨ (Rect.block (s := S8192x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S8192x4096.size a
  hwx1_5 : ∀ i : grid1.Coords, EltTy.bits .f32 = 32 ∨ (Rect.block (s := S8192x4096) S512x1024.size (cc1_transform_5 i) (hinb1_5 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond4 i == 1#1) | 6 => fun i => !(k0_cond4 i == 1#1) | ⟨_ + 7, h⟩ => absurd h (Nat.not_lt.2 (Nat.le_add_left _ _))

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S4096x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S4096x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S8192x4096, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.BK0Shared.lean ====
import proofs.«156116_j68702296867130_1_alg».proof.Proof.Gen.Kernel.Launch
import proofs.«156116_j68702296867130_1_alg».proof.Proof.Gen.Kernel.Skeleton
import proofs.«156116_j68702296867130_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # The first region (the key/value statistics kernel): what its five control cases share

The grid is (16, 4, 8) = (i, j, kk), and point number n stands for i * 32 + j * 8 + kk.  The kernel
keeps four scratch buffers between points: two 512 × 1024 accumulators (the key and value
projections of the current row block, summed over kk) and two 512 × 1 columns (the running
statistics of the row block, summed over j).  Four conditions on the coordinates decide what a
point does: j = 0 ∧ kk = 0 clears the two columns, kk = 0 clears the two accumulators, kk = 7 folds
the finished accumulators into the columns, and j = 3 ∧ kk = 7 copies the columns to the two
outputs.  Everything here is stated at a parameter V: the buffer contents when the region is
entered. -/

-- membership in a rectangle of these extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is
    not fetched its index has not moved), for any proof data whose array is V's and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (where it is
    not fetched its index has not moved), for any proof data whose array is V's and whose body leaves the block
    in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (where it is
    not fetched its index has not moved), for any proof data whose array is V's and whose body leaves the block
    in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (where it is
    not fetched its index has not moved), for any proof data whose array is V's and whose body leaves the block
    in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (where it is
    not fetched its index has not moved), for any proof data whose array is V's and whose body leaves the block
    in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The four conditions on the coordinates -/

/-- j = 0 ∧ kk = 0: the point starts a row block. -/
abbrev cond0_0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points ≡ 0 (mod 32). -/
theorem hcond0_0 : ∀ t : Fin cfg0.N, cond0_0 (grid0.coords t) ↔ t.val % 32 = 0 :=
  (by decide +kernel : ∀ t : Fin grid0.N, cond0_0 (grid0.coords t) ↔ t.val % 32 = 0)

/-- kk = 0: the point starts a sum over kk. -/
abbrev cond0_1 (i : grid0.Coords) : Prop := (Scalar.cmpi .ne (Scalar.extui (Scalar.cmpi .eq (BitVec.ofNat 32 (i 2).val) 0#32)) 0#32) = 1#1
/-- It holds at the points ≡ 0 (mod 8). -/
theorem hcond0_1 : ∀ t : Fin cfg0.N, cond0_1 (grid0.coords t) ↔ t.val % 8 = 0 :=
  (by decide +kernel : ∀ t : Fin grid0.N, cond0_1 (grid0.coords t) ↔ t.val % 8 = 0)

/-- kk = 7: the point ends a sum over kk. -/
abbrev cond0_2 (i : grid0.Coords) : Prop := (Scalar.cmpi .ne (Scalar.extui (Scalar.cmpi .eq (BitVec.ofNat 32 (i 2).val) 7#32)) 0#32) = 1#1
/-- It holds at the points ≡ 7 (mod 8). -/
theorem hcond0_2 : ∀ t : Fin cfg0.N, cond0_2 (grid0.coords t) ↔ t.val % 8 = 7 :=
  (by decide +kernel : ∀ t : Fin grid0.N, cond0_2 (grid0.coords t) ↔ t.val % 8 = 7)

/-- j = 3 ∧ kk = 7: the point ends a row block. -/
abbrev cond0_3 (i : grid0.Coords) : Prop := k0_cond4 i = 1#1
/-- It holds at the points ≡ 31 (mod 32). -/
theorem hcond0_3 : ∀ t : Fin cfg0.N, cond0_3 (grid0.coords t) ↔ t.val % 32 = 31 :=
  (by decide +kernel : ∀ t : Fin grid0.N, cond0_3 (grid0.coords t) ↔ t.val % 32 = 31)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Away from the end of a row block output 5 is idle: the point stores nothing into it, -/
theorem idleAt0_5 : ∀ t : Fin cfg0.N, ¬cond0_3 (grid0.coords t) → cfg0.idle 5 (grid0.coords t) = true :=
  (by decide +kernel : ∀ t : Fin grid0.N, ¬cond0_3 (grid0.coords t) → idle0 5 (grid0.coords t) = true)
/-- and its block is not written back there. -/
theorem noFlush0_5 : ∀ t : Fin cfg0.N, ¬cond0_3 (grid0.coords t) → (cfg0.win 5).flush t = false :=
  (by decide +kernel : ∀ t : Fin grid0.N, ¬cond0_3 (grid0.coords t) → win0_5.flush t = false)
/-- At the end of a row block output 5 is live: the point stores into it. -/
theorem liveAt0_5 : ∀ t : Fin cfg0.N, cond0_3 (grid0.coords t) → cfg0.idle 5 (grid0.coords t) = false :=
  (by decide +kernel : ∀ t : Fin grid0.N, cond0_3 (grid0.coords t) → idle0 5 (grid0.coords t) = false)
/-- Away from the end of a row block output 6 is idle: the point stores nothing into it, -/
theorem idleAt0_6 : ∀ t : Fin cfg0.N, ¬cond0_3 (grid0.coords t) → cfg0.idle 6 (grid0.coords t) = true :=
  (by decide +kernel : ∀ t : Fin grid0.N, ¬cond0_3 (grid0.coords t) → idle0 6 (grid0.coords t) = true)
/-- and its block is not written back there. -/
theorem noFlush0_6 : ∀ t : Fin cfg0.N, ¬cond0_3 (grid0.coords t) → (cfg0.win 6).flush t = false :=
  (by decide +kernel : ∀ t : Fin grid0.N, ¬cond0_3 (grid0.coords t) → win0_6.flush t = false)
/-- At the end of a row block output 6 is live: the point stores into it. -/
theorem liveAt0_6 : ∀ t : Fin cfg0.N, cond0_3 (grid0.coords t) → cfg0.idle 6 (grid0.coords t) = false :=
  (by decide +kernel : ∀ t : Fin grid0.N, cond0_3 (grid0.coords t) → idle0 6 (grid0.coords t) = false)

/-! ## The memrefs the body is called with -/

/-- One staging buffer of output window 5, through which its contents are stated (the choice does not matter). -/
abbrev VO0_5 : View sig .tc .vmem S512x1 .f32 := (Memref.whole cc0_stg5_0 : Memref sig .tc .vmem S512x1 .f32).view
/-- One staging buffer of output window 6, through which its contents are stated (the choice does not matter). -/
abbrev VO0_6 : View sig .tc .vmem S512x1 .f32 := (Memref.whole cc0_stg6_0 : Memref sig .tc .vmem S512x1 .f32).view
/-- Each window's current staging memref at point t, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The four scratch operands: whole scoped buffers of the kernel's own, carried between points. -/
abbrev scM0_0 : Memref sig .tc .vmem S512x1024 .f32 := Memref.whole cc0_scratch0
abbrev scM0_1 : Memref sig .tc .vmem S512x1024 .f32 := Memref.whole cc0_scratch1
abbrev scM0_2 : Memref sig .tc .vmem S512x1 .f32 := Memref.whole cc0_scratch2
abbrev scM0_3 : Memref sig .tc .vmem S512x1 .f32 := Memref.whole cc0_scratch3
/-- The same as views: what a scratch buffer holds is stated through its view. -/
abbrev VS0_0 : View sig .tc .vmem S512x1024 .f32 := scM0_0.view
abbrev VS0_1 : View sig .tc .vmem S512x1024 .f32 := scM0_1.view
abbrev VS0_2 : View sig .tc .vmem S512x1 .f32 := scM0_2.view
abbrev VS0_3 : View sig .tc .vmem S512x1 .f32 := scM0_3.view

/-- The core's other scoped buffers (the second kernel's staging and scratch buffers), each whole at some contents:
    this region never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the launch hands the region, with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ rest0 (F := F) c) ∗ (∃ r, prngReg c r)) := by
  unfold Pipeline.ΦA rest0; rw [scopedRest0_eq]; simp only [scM0_0, scM0_1, scM0_2, scM0_3, owns_whole]; try rfl

end Cert.Kernel.R0

end
-- ==== Proof.BK0RunA.lean ====
import proofs.«156116_j68702296867130_1_alg».proof.Proof.BK0Shared

/-! # The statistics kernel's body run whole, in case A

j = 0 ∧ kk = 0 holds, kk = 0 holds, kk = 7 fails, j = 3 ∧ kk = 7 fails: the first point of a row block: all four scratch buffers are cleared before they are read, so they may hold anything on entry. -/

-- membership in a rectangle of these extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each buffer it stores into, as pieces (last first), in case A, with the proof
    that on whole memrefs — the inputs' at their blocks, a buffer the case does not store into at contents handed
    back untouched, a buffer it stores into before reading at anything, a carried scratch it reads at what the point
    before left — the body runs to the continuation holding the inputs' as they were and each stored buffer with its
    pieces written.  The pieces are the witness the run finds. -/
noncomputable def kernelRun0_A (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) :
    Σ' (LS0 : List (View.Piece (Elt F) S512x1024 .f32)), Σ' (LS1 : List (View.Piece (Elt F) S512x1024 .f32)), Σ' (LS2 : List (View.Piece (Elt F) S512x1 .f32)), { LS3 : List (View.Piece (Elt F) S512x1 .f32) //
      ∀ (xi5 : Vec F S512x1 .f32) (xi6 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__kv_stats_kernel i arg3 harg3 arg4 harg4 arg5 harg5 arg6 harg6 arg7 harg7 arg8 harg8 arg9 harg9 arg10 harg10 arg11 harg11 arg12 harg12 arg13 harg13) K } := by
  refine ⟨?_, ?_, ?_, ?_, fun xi5 xi6 E K => ?run⟩
  case run =>
    simp only [cc0__kv_stats_kernel_eq_skeleton]; unfold cc0__kv_stats_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    iexists _; iexact H13

end Cert.Kernel.R0

end
-- ==== Proof.BK0RunB.lean ====
import proofs.«156116_j68702296867130_1_alg».proof.Proof.BK0Shared

/-! # The statistics kernel's body run whole, in case B

j = 0 ∧ kk = 0 fails, kk = 0 holds, kk = 7 fails, j = 3 ∧ kk = 7 fails: the first point of a later sum over kk: the two accumulators are cleared before they are read; the two statistics columns are not touched. -/

-- membership in a rectangle of these extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each buffer it stores into, as pieces (last first), in case B, with the proof
    that on whole memrefs — the inputs' at their blocks, a buffer the case does not store into at contents handed
    back untouched, a buffer it stores into before reading at anything, a carried scratch it reads at what the point
    before left — the body runs to the continuation holding the inputs' as they were and each stored buffer with its
    pieces written.  The pieces are the witness the run finds. -/
noncomputable def kernelRun0_B (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) :
    Σ' (LS0 : List (View.Piece (Elt F) S512x1024 .f32)), { LS1 : List (View.Piece (Elt F) S512x1024 .f32) //
      ∀ (xi5 : Vec F S512x1 .f32) (xi6 : Vec F S512x1 .f32) (xs2 : Vec F S512x1 .f32) (xs3 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d) ∗ (∃ d, owns (c : Thread nD τ) arg11 fullShare d) ∗ owns (c : Thread nD τ) arg12 fullShare xs2 ∗ owns (c : Thread nD τ) arg13 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ owns (c : Thread nD τ) arg12 fullShare xs2 ∗ owns (c : Thread nD τ) arg13 fullShare xs3) -∗ K ⟨⟩))
          ⊢ wp frame (wpE (defs₀ (F := F)) Variants.none c none) E (cc0__kv_stats_kernel i arg3 harg3 arg4 harg4 arg5 harg5 arg6 harg6 arg7 harg7 arg8 harg8 arg9 harg9 arg10 harg10 arg11 harg11 arg12 harg12 arg13 harg13) K } := by
  refine ⟨?_, ?_, fun xi5 xi6 xs2 xs3 E K => ?run⟩
  case run =>
    simp only [cc0__kv_stats_kernel_eq_skeleton]; unfold cc0__kv_stats_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]
    · iexists _; isplitr; · ipureintro; exact harg12.read_unread _
      iexact H12
    iexists _; isplitr; · ipureintro; exact harg13.read_unread _
    iexact H13

end Cert.Kernel.R0

end
-- ==== Proof.BK0RunC.lean ====
import proofs.«156116_j68702296867130_1_alg».proof.Proof.BK0Shared

/-! # The statistics kernel's body run whole, in case C

j = 0 ∧ kk = 0 fails, kk = 0 fails, kk = 7 fails, j = 3 ∧ kk = 7 fails: a point inside a sum over kk: the two accumulators take one more product each; the two statistics columns are not touched. -/

-- membership in a rectangle of these extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each buffer it stores into, as pieces (last first), in case C, with the proof
    that on whole memrefs — the inputs' at their blocks, a buffer the case does not store into at contents handed
    back untouched, a buffer it stores into before reading at anything, a carried scratch it reads at what the point
    before left — the body runs to the continuation holding the inputs' as they were and each stored buffer with its
    pieces written.  The pieces are the witness the run finds. -/
noncomputable def kernelRun0_C (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) :
    Σ' (LS0 : List (View.Piece (Elt F) S512x1024 .f32)), { LS1 : List (View.Piece (Elt F) S512x1024 .f32) //
      ∀ (xi5 : Vec F S512x1 .f32) (xi6 : Vec F S512x1 .f32) (xs2 : Vec F S512x1 .f32) (xs3 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ owns (c : Thread nD τ) arg12 fullShare xs2 ∗ owns (c : Thread nD τ) arg13 fullShare xs3) -∗ K ⟨⟩))
          ⊢ wp frame (wpE (defs₀ (F := F)) Variants.none c none) E (cc0__kv_stats_kernel i arg3 harg3 arg4 harg4 arg5 harg5 arg6 harg6 arg7 harg7 arg8 harg8 arg9 harg9 arg10 harg10 arg11 harg11 arg12 harg12 arg13 harg13) K } := by
  refine ⟨?_, ?_, fun xi5 xi6 xs2 xs3 E K => ?run⟩
  case run =>
    simp only [cc0__kv_stats_kernel_eq_skeleton]; unfold cc0__kv_stats_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]
    · iexists _; isplitr; · ipureintro; exact harg12.read_unread _
      iexact H12
    iexists _; isplitr; · ipureintro; exact harg13.read_unread _
    iexact H13

end Cert.Kernel.R0

end
-- ==== Proof.BK0RunD.lean ====
import proofs.«156116_j68702296867130_1_alg».proof.Proof.BK0Shared

/-! # The statistics kernel's body run whole, in case D

j = 0 ∧ kk = 0 fails, kk = 0 fails, kk = 7 holds, j = 3 ∧ kk = 7 fails: the last point of a sum over kk that does not end the row block: the accumulators take their last product and are folded into the two statistics columns. -/

-- membership in a rectangle of these extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each buffer it stores into, as pieces (last first), in case D, with the proof
    that on whole memrefs — the inputs' at their blocks, a buffer the case does not store into at contents handed
    back untouched, a buffer it stores into before reading at anything, a carried scratch it reads at what the point
    before left — the body runs to the continuation holding the inputs' as they were and each stored buffer with its
    pieces written.  The pieces are the witness the run finds. -/
noncomputable def kernelRun0_D (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) :
    Σ' (LS0 : List (View.Piece (Elt F) S512x1024 .f32)), Σ' (LS1 : List (View.Piece (Elt F) S512x1024 .f32)), Σ' (LS2 : List (View.Piece (Elt F) S512x1 .f32)), { LS3 : List (View.Piece (Elt F) S512x1 .f32) //
      ∀ (xi5 : Vec F S512x1 .f32) (xi6 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__kv_stats_kernel i arg3 harg3 arg4 harg4 arg5 harg5 arg6 harg6 arg7 harg7 arg8 harg8 arg9 harg9 arg10 harg10 arg11 harg11 arg12 harg12 arg13 harg13) K } := by
  refine ⟨?_, ?_, ?_, ?_, fun xi5 xi6 E K => ?run⟩
  case run =>
    simp only [cc0__kv_stats_kernel_eq_skeleton]; unfold cc0__kv_stats_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    iexists _; iexact H13

end Cert.Kernel.R0

end
-- ==== Proof.BK0RunE.lean ====
import proofs.«156116_j68702296867130_1_alg».proof.Proof.BK0Shared

/-! # The statistics kernel's body run whole, in case E

j = 0 ∧ kk = 0 fails, kk = 0 fails, kk = 7 holds, j = 3 ∧ kk = 7 holds: the last point of a row block: as the case before, and then the two statistics columns are copied into the two outputs. -/

-- membership in a rectangle of these extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each buffer it stores into, as pieces (last first), in case E, with the proof
    that on whole memrefs — the inputs' at their blocks, a buffer the case does not store into at contents handed
    back untouched, a buffer it stores into before reading at anything, a carried scratch it reads at what the point
    before left — the body runs to the continuation holding the inputs' as they were and each stored buffer with its
    pieces written.  The pieces are the witness the run finds. -/
noncomputable def kernelRun0_E (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) :
    Σ' (L5 : List (View.Piece (Elt F) S512x1 .f32)), Σ' (L6 : List (View.Piece (Elt F) S512x1 .f32)), Σ' (LS0 : List (View.Piece (Elt F) S512x1024 .f32)), Σ' (LS1 : List (View.Piece (Elt F) S512x1024 .f32)), Σ' (LS2 : List (View.Piece (Elt F) S512x1 .f32)), { LS3 : List (View.Piece (Elt F) S512x1 .f32) //
      ∀  (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__kv_stats_kernel i arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun  E K => ?run⟩
  case run =>
    simp only [cc0__kv_stats_kernel_eq_skeleton]; unfold cc0__kv_stats_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11; obtain rfl := harg12.eq_unread hf12; obtain rfl := harg13.eq_unread hf13
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.Kernel.R0

end
-- ==== Proof.BK0Frame.lean ====
import proofs.«156116_j68702296867130_1_alg».proof.Proof.BK0RunA
import proofs.«156116_j68702296867130_1_alg».proof.Proof.BK0RunB
import proofs.«156116_j68702296867130_1_alg».proof.Proof.BK0RunC
import proofs.«156116_j68702296867130_1_alg».proof.Proof.BK0RunD
import proofs.«156116_j68702296867130_1_alg».proof.Proof.BK0RunE

/-! # The first region's frame half: what its buffers hold point by point, and the body obligation

After each grid point the two outputs' staging buffers and the four carried scratch buffers hold a
tuple of contents, defined by recursion on the point's number: the point's control case, run at
the point's input blocks, over what the point before left in the scratch buffers it reads.  The
region's invariant before a point is the launch's scoped rest with the four scratch buffers at
what the point before left; the body obligation is then the case's run, case by case. -/

-- membership in a rectangle of these extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## Arithmetic of the point number's residues -/

theorem mod8_zero_of_mod32_zero {n : ℕ} (h : n % 32 = 0) : n % 8 = 0 := by omega
theorem mod8_ne_seven_of_zero {n : ℕ} (h : n % 8 = 0) : ¬n % 8 = 7 := by omega
theorem mod32_ne_last_of_mod8_zero {n : ℕ} (h : n % 8 = 0) : ¬n % 32 = 31 := by omega
theorem mod32_ne_zero_of_mod8_ne_zero {n : ℕ} (h : ¬n % 8 = 0) : ¬n % 32 = 0 := by omega
theorem mod32_ne_last_of_mod8_ne_seven {n : ℕ} (h : ¬n % 8 = 7) : ¬n % 32 = 31 := by omega
theorem mod8_ne_zero_of_seven {n : ℕ} (h : n % 8 = 7) : ¬n % 8 = 0 := by omega
theorem mod8_seven_of_mod32_last {n : ℕ} (h : n % 32 = 31) : n % 8 = 7 := by omega

/-! ## What each case leaves in each buffer it stores into -/

/-- Case A's pieces for scratch buffer 0 are whole-buffer stores, so they cover it. -/
theorem scover0_A_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (y : S512x1024.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).1 S512x1024.size (by sl_kernel_rfl) y

/-- What case A leaves in scratch buffer 0: its pieces read back. -/
def sout0_A_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) : Vec F S512x1024 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).1)

/-- Case A's pieces for scratch buffer 1 are whole-buffer stores, so they cover it. -/
theorem scover0_A_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (y : S512x1024.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.1 S512x1024.size (by sl_kernel_rfl) y

/-- What case A leaves in scratch buffer 1: its pieces read back. -/
def sout0_A_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) : Vec F S512x1024 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.1)

/-- Case A's pieces for scratch buffer 2 are whole-buffer stores, so they cover it. -/
theorem scover0_A_2 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (y : S512x1.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.2.1 S512x1.size (by sl_kernel_rfl) y

/-- What case A leaves in scratch buffer 2: its pieces read back. -/
def sout0_A_2 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) : Vec F S512x1 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.2.1)

/-- Case A's pieces for scratch buffer 3 are whole-buffer stores, so they cover it. -/
theorem scover0_A_3 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (y : S512x1.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.2.2.1 S512x1.size (by sl_kernel_rfl) y

/-- What case A leaves in scratch buffer 3: its pieces read back. -/
def sout0_A_3 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) : Vec F S512x1 .f32 :=
  VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.2.2.1)

/-- Case B's pieces for scratch buffer 0 are whole-buffer stores, so they cover it. -/
theorem scover0_B_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (y : S512x1024.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4).1 S512x1024.size (by sl_kernel_rfl) y

/-- What case B leaves in scratch buffer 0: its pieces read back. -/
def sout0_B_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) : Vec F S512x1024 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4).1)

/-- Case B's pieces for scratch buffer 1 are whole-buffer stores, so they cover it. -/
theorem scover0_B_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (y : S512x1024.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4).2.1 S512x1024.size (by sl_kernel_rfl) y

/-- What case B leaves in scratch buffer 1: its pieces read back. -/
def sout0_B_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) : Vec F S512x1024 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4).2.1)

/-- Case C's pieces for scratch buffer 0 are whole-buffer stores, so they cover it. -/
theorem scover0_C_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (y : S512x1024.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1).1 S512x1024.size (by sl_kernel_rfl) y

/-- What case C leaves in scratch buffer 0: its pieces read back. -/
def sout0_C_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) : Vec F S512x1024 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1).1)

/-- Case C's pieces for scratch buffer 1 are whole-buffer stores, so they cover it. -/
theorem scover0_C_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (y : S512x1024.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1).2.1 S512x1024.size (by sl_kernel_rfl) y

/-- What case C leaves in scratch buffer 1: its pieces read back. -/
def sout0_C_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) : Vec F S512x1024 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1).2.1)

/-- Case D's pieces for scratch buffer 0 are whole-buffer stores, so they cover it. -/
theorem scover0_D_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1024.Idx) :
    ∃ pc ∈ (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).1 S512x1024.size (by sl_kernel_rfl) y

/-- What case D leaves in scratch buffer 0: its pieces read back. -/
def sout0_D_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1024 .f32 :=
  VS0_0.read (Elt F) (VS0_0.writes (Elt F) VS0_0.junk (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).1)

/-- Case D's pieces for scratch buffer 1 are whole-buffer stores, so they cover it. -/
theorem scover0_D_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1024.Idx) :
    ∃ pc ∈ (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.1 S512x1024.size (by sl_kernel_rfl) y

/-- What case D leaves in scratch buffer 1: its pieces read back. -/
def sout0_D_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1024 .f32 :=
  VS0_1.read (Elt F) (VS0_1.writes (Elt F) VS0_1.junk (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.1)

/-- Case D's pieces for scratch buffer 2 are whole-buffer stores, so they cover it. -/
theorem scover0_D_2 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1.Idx) :
    ∃ pc ∈ (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.1 S512x1.size (by sl_kernel_rfl) y

/-- What case D leaves in scratch buffer 2: its pieces read back. -/
def sout0_D_2 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1 .f32 :=
  VS0_2.read (Elt F) (VS0_2.writes (Elt F) VS0_2.junk (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.1)

/-- Case D's pieces for scratch buffer 3 are whole-buffer stores, so they cover it. -/
theorem scover0_D_3 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1.Idx) :
    ∃ pc ∈ (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.1 S512x1.size (by sl_kernel_rfl) y

/-- What case D leaves in scratch buffer 3: its pieces read back. -/
def sout0_D_3 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1 .f32 :=
  VS0_3.read (Elt F) (VS0_3.writes (Elt F) VS0_3.junk (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.1)

/-- Case E's pieces for output 5's staging buffer are whole-buffer stores, so they cover it. -/
theorem cover0_E_5 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1.Idx) :
    ∃ pc ∈ (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).1 S512x1.size (by sl_kernel_rfl) y

/-- What case E leaves in output 5's staging buffer: its pieces read back. -/
def out0_E_5 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1 .f32 :=
  VO0_5.read (Elt F) (VO0_5.writes (Elt F) VO0_5.junk (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).1)

/-- Case E's pieces for output 6's staging buffer are whole-buffer stores, so they cover it. -/
theorem cover0_E_6 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1.Idx) :
    ∃ pc ∈ (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.1 S512x1.size (by sl_kernel_rfl) y

/-- What case E leaves in output 6's staging buffer: its pieces read back. -/
def out0_E_6 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1 .f32 :=
  VO0_6.read (Elt F) (VO0_6.writes (Elt F) VO0_6.junk (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.1)

/-- Case E's pieces for scratch buffer 0 are whole-buffer stores, so they cover it. -/
theorem scover0_E_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1024.Idx) :
    ∃ pc ∈ (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.1 S512x1024.size (by sl_kernel_rfl) y

/-- What case E leaves in scratch buffer 0: its pieces read back. -/
def sout0_E_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1024 .f32 :=
  VS0_0.read (Elt F) (VS0_0.writes (Elt F) VS0_0.junk (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.1)

/-- Case E's pieces for scratch buffer 1 are whole-buffer stores, so they cover it. -/
theorem scover0_E_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1024.Idx) :
    ∃ pc ∈ (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.1 S512x1024.size (by sl_kernel_rfl) y

/-- What case E leaves in scratch buffer 1: its pieces read back. -/
def sout0_E_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1024 .f32 :=
  VS0_1.read (Elt F) (VS0_1.writes (Elt F) VS0_1.junk (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.1)

/-- Case E's pieces for scratch buffer 2 are whole-buffer stores, so they cover it. -/
theorem scover0_E_2 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1.Idx) :
    ∃ pc ∈ (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.2.1 S512x1.size (by sl_kernel_rfl) y

/-- What case E leaves in scratch buffer 2: its pieces read back. -/
def sout0_E_2 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1 .f32 :=
  VS0_2.read (Elt F) (VS0_2.writes (Elt F) VS0_2.junk (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.2.1)

/-- Case E's pieces for scratch buffer 3 are whole-buffer stores, so they cover it. -/
theorem scover0_E_3 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1.Idx) :
    ∃ pc ∈ (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.2.2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.2.2.1 S512x1.size (by sl_kernel_rfl) y

/-- What case E leaves in scratch buffer 3: its pieces read back. -/
def sout0_E_3 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1 .f32 :=
  VS0_3.read (Elt F) (VS0_3.writes (Elt F) VS0_3.junk (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.2.2.1)

/-- A placeholder for an output's staging buffer at a point that stores nothing into it: nothing consults it, since
    there the block is neither written back nor read at the next point. -/
def idle0_5 : Vec F S512x1 .f32 := VO0_5.read (Elt F) VO0_5.junk
def idle0_6 : Vec F S512x1 .f32 := VO0_6.read (Elt F) VO0_6.junk

/-! ## What the buffers hold after each point -/

/-- The contents after a point: the two outputs' staging buffers, then the four scratch buffers. -/
abbrev St0 (F : FTy → Type) : Type := (Vec F S512x1 .f32 × Vec F S512x1 .f32) × (Vec F S512x1024 .f32 × Vec F S512x1024 .f32 × Vec F S512x1 .f32 × Vec F S512x1 .f32)

/-- The accumulation.  What the outputs' staging buffers and the four carried scratch buffers hold after the body at
    position n: the case the residues of n select, run at the point's memrefs and input blocks, a scratch buffer the
    case reads at what position n - 1 left in it, a scratch buffer the case does not touch still at what position
    n - 1 left in it. -/
def outsAt0 (c : Dev nD) : (n : ℕ) → n < cfg0.N → St0 F
  | 0, hn =>
        ((idle0_5, idle0_6),
          (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (mod8_zero_of_mod32_zero (Nat.zero_mod _))) (fun h => (mod8_ne_seven_of_zero (mod8_zero_of_mod32_zero (Nat.zero_mod _))) ((hcond0_2 ⟨0, hn⟩).mp h)) (fun h => (mod32_ne_last_of_mod8_zero (mod8_zero_of_mod32_zero (Nat.zero_mod _))) ((hcond0_3 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
           sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (mod8_zero_of_mod32_zero (Nat.zero_mod _))) (fun h => (mod8_ne_seven_of_zero (mod8_zero_of_mod32_zero (Nat.zero_mod _))) ((hcond0_2 ⟨0, hn⟩).mp h)) (fun h => (mod32_ne_last_of_mod8_zero (mod8_zero_of_mod32_zero (Nat.zero_mod _))) ((hcond0_3 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
           sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (mod8_zero_of_mod32_zero (Nat.zero_mod _))) (fun h => (mod8_ne_seven_of_zero (mod8_zero_of_mod32_zero (Nat.zero_mod _))) ((hcond0_2 ⟨0, hn⟩).mp h)) (fun h => (mod32_ne_last_of_mod8_zero (mod8_zero_of_mod32_zero (Nat.zero_mod _))) ((hcond0_3 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
           sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (mod8_zero_of_mod32_zero (Nat.zero_mod _))) (fun h => (mod8_ne_seven_of_zero (mod8_zero_of_mod32_zero (Nat.zero_mod _))) ((hcond0_2 ⟨0, hn⟩).mp h)) (fun h => (mod32_ne_last_of_mod8_zero (mod8_zero_of_mod32_zero (Nat.zero_mod _))) ((hcond0_3 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩)))
  | n + 1, hn =>
    if h0 : (n + 1) % 32 = 0 then
        ((idle0_5, idle0_6),
          (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr (mod8_zero_of_mod32_zero h0)) (fun h => (mod8_ne_seven_of_zero (mod8_zero_of_mod32_zero h0)) ((hcond0_2 ⟨n + 1, hn⟩).mp h)) (fun h => (mod32_ne_last_of_mod8_zero (mod8_zero_of_mod32_zero h0)) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
           sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr (mod8_zero_of_mod32_zero h0)) (fun h => (mod8_ne_seven_of_zero (mod8_zero_of_mod32_zero h0)) ((hcond0_2 ⟨n + 1, hn⟩).mp h)) (fun h => (mod32_ne_last_of_mod8_zero (mod8_zero_of_mod32_zero h0)) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
           sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr (mod8_zero_of_mod32_zero h0)) (fun h => (mod8_ne_seven_of_zero (mod8_zero_of_mod32_zero h0)) ((hcond0_2 ⟨n + 1, hn⟩).mp h)) (fun h => (mod32_ne_last_of_mod8_zero (mod8_zero_of_mod32_zero h0)) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
           sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr (mod8_zero_of_mod32_zero h0)) (fun h => (mod8_ne_seven_of_zero (mod8_zero_of_mod32_zero h0)) ((hcond0_2 ⟨n + 1, hn⟩).mp h)) (fun h => (mod32_ne_last_of_mod8_zero (mod8_zero_of_mod32_zero h0)) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)))
    else if h1 : (n + 1) % 8 = 0 then
        ((idle0_5, idle0_6),
          (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => (mod8_ne_seven_of_zero h1) ((hcond0_2 ⟨n + 1, hn⟩).mp h)) (fun h => (mod32_ne_last_of_mod8_zero h1) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
           sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => (mod8_ne_seven_of_zero h1) ((hcond0_2 ⟨n + 1, hn⟩).mp h)) (fun h => (mod32_ne_last_of_mod8_zero h1) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
           (outsAt0 c n (Nat.lt_of_succ_lt hn)).2.2.2.1,
           (outsAt0 c n (Nat.lt_of_succ_lt hn)).2.2.2.2))
    else if h2 : (n + 1) % 8 = 7 then
      if h3 : (n + 1) % 32 = 31 then
        ((out0_E_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 ⟨n + 1, hn⟩).mp h)) (fun h => (mod8_ne_zero_of_seven (mod8_seven_of_mod32_last h3)) ((hcond0_1 ⟨n + 1, hn⟩).mp h)) ((hcond0_2 ⟨n + 1, hn⟩).mpr (mod8_seven_of_mod32_last h3)) ((hcond0_3 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_E_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 ⟨n + 1, hn⟩).mp h)) (fun h => (mod8_ne_zero_of_seven (mod8_seven_of_mod32_last h3)) ((hcond0_1 ⟨n + 1, hn⟩).mp h)) ((hcond0_2 ⟨n + 1, hn⟩).mpr (mod8_seven_of_mod32_last h3)) ((hcond0_3 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2),
          (sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 ⟨n + 1, hn⟩).mp h)) (fun h => (mod8_ne_zero_of_seven (mod8_seven_of_mod32_last h3)) ((hcond0_1 ⟨n + 1, hn⟩).mp h)) ((hcond0_2 ⟨n + 1, hn⟩).mpr (mod8_seven_of_mod32_last h3)) ((hcond0_3 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
           sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 ⟨n + 1, hn⟩).mp h)) (fun h => (mod8_ne_zero_of_seven (mod8_seven_of_mod32_last h3)) ((hcond0_1 ⟨n + 1, hn⟩).mp h)) ((hcond0_2 ⟨n + 1, hn⟩).mpr (mod8_seven_of_mod32_last h3)) ((hcond0_3 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
           sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 ⟨n + 1, hn⟩).mp h)) (fun h => (mod8_ne_zero_of_seven (mod8_seven_of_mod32_last h3)) ((hcond0_1 ⟨n + 1, hn⟩).mp h)) ((hcond0_2 ⟨n + 1, hn⟩).mpr (mod8_seven_of_mod32_last h3)) ((hcond0_3 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
           sout0_E_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 ⟨n + 1, hn⟩).mp h)) (fun h => (mod8_ne_zero_of_seven (mod8_seven_of_mod32_last h3)) ((hcond0_1 ⟨n + 1, hn⟩).mp h)) ((hcond0_2 ⟨n + 1, hn⟩).mpr (mod8_seven_of_mod32_last h3)) ((hcond0_3 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2))
      else
        ((idle0_5, idle0_6),
          (sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 ⟨n + 1, hn⟩).mp h)) (fun h => (mod8_ne_zero_of_seven h2) ((hcond0_1 ⟨n + 1, hn⟩).mp h)) ((hcond0_2 ⟨n + 1, hn⟩).mpr h2) (fun h => h3 ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
           sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 ⟨n + 1, hn⟩).mp h)) (fun h => (mod8_ne_zero_of_seven h2) ((hcond0_1 ⟨n + 1, hn⟩).mp h)) ((hcond0_2 ⟨n + 1, hn⟩).mpr h2) (fun h => h3 ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
           sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 ⟨n + 1, hn⟩).mp h)) (fun h => (mod8_ne_zero_of_seven h2) ((hcond0_1 ⟨n + 1, hn⟩).mp h)) ((hcond0_2 ⟨n + 1, hn⟩).mpr h2) (fun h => h3 ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
           sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 ⟨n + 1, hn⟩).mp h)) (fun h => (mod8_ne_zero_of_seven h2) ((hcond0_1 ⟨n + 1, hn⟩).mp h)) ((hcond0_2 ⟨n + 1, hn⟩).mpr h2) (fun h => h3 ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2))
    else
        ((idle0_5, idle0_6),
          (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero h1) ((hcond0_0 ⟨n + 1, hn⟩).mp h)) (fun h => h1 ((hcond0_1 ⟨n + 1, hn⟩).mp h)) (fun h => h2 ((hcond0_2 ⟨n + 1, hn⟩).mp h)) (fun h => (mod32_ne_last_of_mod8_ne_seven h2) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1,
           sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero h1) ((hcond0_0 ⟨n + 1, hn⟩).mp h)) (fun h => h1 ((hcond0_1 ⟨n + 1, hn⟩).mp h)) (fun h => h2 ((hcond0_2 ⟨n + 1, hn⟩).mp h)) (fun h => (mod32_ne_last_of_mod8_ne_seven h2) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1,
           (outsAt0 c n (Nat.lt_of_succ_lt hn)).2.2.2.1,
           (outsAt0 c n (Nat.lt_of_succ_lt hn)).2.2.2.2))

/-- The contents after a point of case A. -/
theorem outsAt0_A (c : Dev nD) (t : Fin cfg0.N) (h0 : t.val % 32 = 0) :
    outsAt0 V c t.val t.isLt =
        ((idle0_5, idle0_6),
          (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr (mod8_zero_of_mod32_zero h0)) (fun h => (mod8_ne_seven_of_zero (mod8_zero_of_mod32_zero h0)) ((hcond0_2 t).mp h)) (fun h => (mod32_ne_last_of_mod8_zero (mod8_zero_of_mod32_zero h0)) ((hcond0_3 t).mp h)) (iblk0 V c 0 t) (iblk0 V c 1 t) (iblk0 V c 2 t) (iblk0 V c 3 t) (iblk0 V c 4 t),
           sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr (mod8_zero_of_mod32_zero h0)) (fun h => (mod8_ne_seven_of_zero (mod8_zero_of_mod32_zero h0)) ((hcond0_2 t).mp h)) (fun h => (mod32_ne_last_of_mod8_zero (mod8_zero_of_mod32_zero h0)) ((hcond0_3 t).mp h)) (iblk0 V c 0 t) (iblk0 V c 1 t) (iblk0 V c 2 t) (iblk0 V c 3 t) (iblk0 V c 4 t),
           sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr (mod8_zero_of_mod32_zero h0)) (fun h => (mod8_ne_seven_of_zero (mod8_zero_of_mod32_zero h0)) ((hcond0_2 t).mp h)) (fun h => (mod32_ne_last_of_mod8_zero (mod8_zero_of_mod32_zero h0)) ((hcond0_3 t).mp h)) (iblk0 V c 0 t) (iblk0 V c 1 t) (iblk0 V c 2 t) (iblk0 V c 3 t) (iblk0 V c 4 t),
           sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr (mod8_zero_of_mod32_zero h0)) (fun h => (mod8_ne_seven_of_zero (mod8_zero_of_mod32_zero h0)) ((hcond0_2 t).mp h)) (fun h => (mod32_ne_last_of_mod8_zero (mod8_zero_of_mod32_zero h0)) ((hcond0_3 t).mp h)) (iblk0 V c 0 t) (iblk0 V c 1 t) (iblk0 V c 2 t) (iblk0 V c 3 t) (iblk0 V c 4 t))) := by
  obtain ⟨n, hn⟩ := t
  cases n with
  | zero => exact rfl
  | succ n => exact (dif_pos h0).trans rfl

/-- The contents after a point of case B, over what the point before left. -/
theorem outsAt0_B (c : Dev nD) (t : Fin cfg0.N) (h0 : ¬t.val % 32 = 0) (h1 : t.val % 8 = 0) :
    outsAt0 V c t.val t.isLt =
        ((idle0_5, idle0_6),
          (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => (mod8_ne_seven_of_zero h1) ((hcond0_2 t).mp h)) (fun h => (mod32_ne_last_of_mod8_zero h1) ((hcond0_3 t).mp h)) (iblk0 V c 0 t) (iblk0 V c 1 t) (iblk0 V c 2 t) (iblk0 V c 3 t) (iblk0 V c 4 t),
           sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => (mod8_ne_seven_of_zero h1) ((hcond0_2 t).mp h)) (fun h => (mod32_ne_last_of_mod8_zero h1) ((hcond0_3 t).mp h)) (iblk0 V c 0 t) (iblk0 V c 1 t) (iblk0 V c 2 t) (iblk0 V c 3 t) (iblk0 V c 4 t),
           (outsAt0 V c (t.val - 1) (Nat.lt_of_le_of_lt (Nat.sub_le _ _) t.isLt)).2.2.2.1,
           (outsAt0 V c (t.val - 1) (Nat.lt_of_le_of_lt (Nat.sub_le _ _) t.isLt)).2.2.2.2)) := by
  obtain ⟨n, hn⟩ := t
  cases n with
  | zero => exact (by exfalso; revert h0; show ¬¬(0 % 32 = 0); decide)
  | succ n => exact (dif_neg h0).trans ((dif_pos h1).trans rfl)

/-- The contents after a point of case C, over what the point before left. -/
theorem outsAt0_C (c : Dev nD) (t : Fin cfg0.N) (h1 : ¬t.val % 8 = 0) (h2 : ¬t.val % 8 = 7) :
    outsAt0 V c t.val t.isLt =
        ((idle0_5, idle0_6),
          (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero h1) ((hcond0_0 t).mp h)) (fun h => h1 ((hcond0_1 t).mp h)) (fun h => h2 ((hcond0_2 t).mp h)) (fun h => (mod32_ne_last_of_mod8_ne_seven h2) ((hcond0_3 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1,
           sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero h1) ((hcond0_0 t).mp h)) (fun h => h1 ((hcond0_1 t).mp h)) (fun h => h2 ((hcond0_2 t).mp h)) (fun h => (mod32_ne_last_of_mod8_ne_seven h2) ((hcond0_3 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1,
           (outsAt0 V c (t.val - 1) (Nat.lt_of_le_of_lt (Nat.sub_le _ _) t.isLt)).2.2.2.1,
           (outsAt0 V c (t.val - 1) (Nat.lt_of_le_of_lt (Nat.sub_le _ _) t.isLt)).2.2.2.2)) := by
  obtain ⟨n, hn⟩ := t
  cases n with
  | zero => exact (by exfalso; revert h1; show ¬¬(0 % 8 = 0); decide)
  | succ n => exact (dif_neg (mod32_ne_zero_of_mod8_ne_zero h1)).trans ((dif_neg h1).trans ((dif_neg h2).trans rfl))

/-- The contents after a point of case D, over what the point before left. -/
theorem outsAt0_D (c : Dev nD) (t : Fin cfg0.N) (h2 : t.val % 8 = 7) (h3 : ¬t.val % 32 = 31) :
    outsAt0 V c t.val t.isLt =
        ((idle0_5, idle0_6),
          (sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 t).mp h)) (fun h => (mod8_ne_zero_of_seven h2) ((hcond0_1 t).mp h)) ((hcond0_2 t).mpr h2) (fun h => h3 ((hcond0_3 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
           sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 t).mp h)) (fun h => (mod8_ne_zero_of_seven h2) ((hcond0_1 t).mp h)) ((hcond0_2 t).mpr h2) (fun h => h3 ((hcond0_3 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
           sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 t).mp h)) (fun h => (mod8_ne_zero_of_seven h2) ((hcond0_1 t).mp h)) ((hcond0_2 t).mpr h2) (fun h => h3 ((hcond0_3 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
           sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 t).mp h)) (fun h => (mod8_ne_zero_of_seven h2) ((hcond0_1 t).mp h)) ((hcond0_2 t).mpr h2) (fun h => h3 ((hcond0_3 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2)) := by
  obtain ⟨n, hn⟩ := t
  cases n with
  | zero => exact (by exfalso; revert h2; show ¬(0 % 8 = 7); decide)
  | succ n => exact (dif_neg (mod32_ne_zero_of_mod8_ne_zero (mod8_ne_zero_of_seven h2))).trans ((dif_neg (mod8_ne_zero_of_seven h2)).trans ((dif_pos h2).trans ((dif_neg h3).trans rfl)))

/-- The contents after a point of case E, over what the point before left. -/
theorem outsAt0_E (c : Dev nD) (t : Fin cfg0.N) (h3 : t.val % 32 = 31) :
    outsAt0 V c t.val t.isLt =
        ((out0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 t).mp h)) (fun h => (mod8_ne_zero_of_seven (mod8_seven_of_mod32_last h3)) ((hcond0_1 t).mp h)) ((hcond0_2 t).mpr (mod8_seven_of_mod32_last h3)) ((hcond0_3 t).mpr h3) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 t).mp h)) (fun h => (mod8_ne_zero_of_seven (mod8_seven_of_mod32_last h3)) ((hcond0_1 t).mp h)) ((hcond0_2 t).mpr (mod8_seven_of_mod32_last h3)) ((hcond0_3 t).mpr h3) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2),
          (sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 t).mp h)) (fun h => (mod8_ne_zero_of_seven (mod8_seven_of_mod32_last h3)) ((hcond0_1 t).mp h)) ((hcond0_2 t).mpr (mod8_seven_of_mod32_last h3)) ((hcond0_3 t).mpr h3) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
           sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 t).mp h)) (fun h => (mod8_ne_zero_of_seven (mod8_seven_of_mod32_last h3)) ((hcond0_1 t).mp h)) ((hcond0_2 t).mpr (mod8_seven_of_mod32_last h3)) ((hcond0_3 t).mpr h3) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
           sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 t).mp h)) (fun h => (mod8_ne_zero_of_seven (mod8_seven_of_mod32_last h3)) ((hcond0_1 t).mp h)) ((hcond0_2 t).mpr (mod8_seven_of_mod32_last h3)) ((hcond0_3 t).mpr h3) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
           sout0_E_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 t).mp h)) (fun h => (mod8_ne_zero_of_seven (mod8_seven_of_mod32_last h3)) ((hcond0_1 t).mp h)) ((hcond0_2 t).mpr (mod8_seven_of_mod32_last h3)) ((hcond0_3 t).mpr h3) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2)) := by
  obtain ⟨n, hn⟩ := t
  cases n with
  | zero => exact (by exfalso; revert h3; show ¬(0 % 32 = 31); decide)
  | succ n => exact (dif_neg (mod32_ne_zero_of_mod8_ne_zero (mod8_ne_zero_of_seven (mod8_seven_of_mod32_last h3)))).trans ((dif_neg (mod8_ne_zero_of_seven (mod8_seven_of_mod32_last h3))).trans ((dif_pos (mod8_seven_of_mod32_last h3)).trans ((dif_pos h3).trans rfl)))

/-! ## The region's invariant -/

/-- The invariant before position n: before the first point what the launch hands the region (every scratch buffer at
    anything); afterwards the same with the four carried scratch buffers at what the point before left in them. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2.1 ∗ owns (c : Thread nD τ) scM0_3 fullShare (outsAt0 V c n hn).2.2.2.2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point n (before point n + 1): the carried scratch buffers at that point's contents. -/
theorem PhiS0_succ (c : Dev nD) (n : ℕ) (hn : n < cfg0.N) :
    PhiS0 V c (n + 1) hn = iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2.1 ∗ owns (c : Thread nD τ) scM0_3 fullShare (outsAt0 V c n hn).2.2.2.2 ∗ rest0 (F := F) c) ∗ (∃ r, prngReg c r)) := rfl

/-- Before a point that is not the first: the carried scratch buffers at what the point before left. -/
theorem PhiS0_pos (c : Dev nD) (n : ℕ) (h : n ≤ cfg0.N) (hz : n ≠ 0) :
    PhiS0 V c n h = iprop(iprop(owns (c : Thread nD τ) scM0_0 fullShare (outsAt0 V c (n - 1) (by omega)).2.1 ∗ owns (c : Thread nD τ) scM0_1 fullShare (outsAt0 V c (n - 1) (by omega)).2.2.1 ∗ owns (c : Thread nD τ) scM0_2 fullShare (outsAt0 V c (n - 1) (by omega)).2.2.2.1 ∗ owns (c : Thread nD τ) scM0_3 fullShare (outsAt0 V c (n - 1) (by omega)).2.2.2.2 ∗ rest0 (F := F) c) ∗ (∃ r, prngReg c r)) := by
  cases n with
  | zero => exact absurd rfl hz
  | succ n => rfl

/-! ## The pipeline's proof data -/

/-- The proof data of the first pipeline on core c: the arrays as the region finds them; after the body at point t each
    input's buffer at its block and the outputs' at the accumulation's components; the invariant above; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1.1
    | ⟨6, _⟩ => (outsAt0 V c t.val t.isLt).1.2
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1.1 := by dsimp only [dat0]
theorem after0_6 (c : Dev nD) (t : Fin cfg0.N) : (dat0 V c).after 6 t = (outsAt0 V c t.val t.isLt).1.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 16000000 in
/-- The body at any point.  The inputs' memrefs hold their blocks; the residues of the point's number say which case it
    is in; the invariant hands the body the scratch buffers at what the point before left (at anything at the very
    first point) and takes each back at this point's contents — a buffer the case stores into whole by the cover of
    its pieces, a buffer it does not touch as it was; an output the case does not store into goes back as it came;
    the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 512 := lt_of_lt_of_eq t.isLt (show cfg0.N = 512 from N_0)
  by_cases h0 : t.val % 32 = 0
  · -- the first point of a row block
    have hc0 : cond0_0 (grid0.coords t) := (hcond0_0 t).mpr h0
    have hc1 : cond0_1 (grid0.coords t) := (hcond0_1 t).mpr (mod8_zero_of_mod32_zero h0)
    have hc2 : ¬cond0_2 (grid0.coords t) := fun h => (mod8_ne_seven_of_zero (mod8_zero_of_mod32_zero h0)) ((hcond0_2 t).mp h)
    have hc3 : ¬cond0_3 (grid0.coords t) := fun h => (mod32_ne_last_of_mod8_zero (mod8_zero_of_mod32_zero h0)) ((hcond0_3 t).mp h)
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [Dat.leavesExact_idle (dat0 V c) 5 t (idleAt0_5 t hc3) (noFlush0_5 t hc3)]
    rw [Dat.leavesExact_idle (dat0 V c) 6 t (idleAt0_6 t hc3) (noFlush0_6 t hc3)]
    rw [outsAt0_A V c t h0]
    unfold sout0_A_0 sout0_A_1 sout0_A_2 sout0_A_3; (try dsimp only)
    by_cases hz : t.val = 0
    · rw [PhiS0_castSucc V c t, PhiS0_zero V c _ _ hz, PhiA0_eq]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ hc0 hc1 hc2 hc3 (iblk0 V c 0 t) (iblk0 V c 1 t) (iblk0 V c 2 t) (iblk0 V c 3 t) (iblk0 V c 4 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%e10, HS0⟩, ⟨%e11, HS1⟩, ⟨%e12, HS2⟩, ⟨%e13, HS3⟩⟩
      isplitl [HS0 HS1 HS2 HS3 HR Hg]
      · isplitl [HS0 HS1 HS2 HS3 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [PhiS0_castSucc V c t, PhiS0_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ hc0 hc1 hc2 hc3 (iblk0 V c 0 t) (iblk0 V c 1 t) (iblk0 V c 2 t) (iblk0 V c 3 t) (iblk0 V c 4 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%e10, HS0⟩, ⟨%e11, HS1⟩, ⟨%e12, HS2⟩, ⟨%e13, HS3⟩⟩
      isplitl [HS0 HS1 HS2 HS3 HR Hg]
      · isplitl [HS0 HS1 HS2 HS3 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · by_cases h1 : t.val % 8 = 0
    · -- the first point of a later sum over kk
      have hc0 : ¬cond0_0 (grid0.coords t) := fun h => h0 ((hcond0_0 t).mp h)
      have hc1 : cond0_1 (grid0.coords t) := (hcond0_1 t).mpr h1
      have hc2 : ¬cond0_2 (grid0.coords t) := fun h => (mod8_ne_seven_of_zero h1) ((hcond0_2 t).mp h)
      have hc3 : ¬cond0_3 (grid0.coords t) := fun h => (mod32_ne_last_of_mod8_zero h1) ((hcond0_3 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t hc3) (noFlush0_5 t hc3)]
      rw [Dat.leavesExact_idle (dat0 V c) 6 t (idleAt0_6 t hc3) (noFlush0_6 t hc3)]
      rw [outsAt0_B V c t h0 h1]
      unfold sout0_B_0 sout0_B_1; (try dsimp only)
      have hz : t.val ≠ 0 := fun h => h0 (by rw [h])
      rw [PhiS0_castSucc V c t, PhiS0_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ hc0 hc1 hc2 hc3 (iblk0 V c 0 t) (iblk0 V c 1 t) (iblk0 V c 2 t) (iblk0 V c 3 t) (iblk0 V c 4 t)).2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexact HS2
      isplitl [HS3]; · iexact HS3
      iintro ⟨H0, H1, H2, H3, H4, H5, H6, ⟨%e10, HS0⟩, ⟨%e11, HS1⟩, HS2, HS3⟩
      isplitl [HS0 HS1 HS2 HS3 HR Hg]
      · isplitl [HS0 HS1 HS2 HS3 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _)
          isplitl [HS2]
          · iexact HS2
          isplitl [HS3]
          · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · by_cases h2 : t.val % 8 = 7
      · by_cases h3 : t.val % 32 = 31
        · -- the last point of a row block
          have hc0 : ¬cond0_0 (grid0.coords t) := fun h => (mod32_ne_zero_of_mod8_ne_zero (mod8_ne_zero_of_seven (mod8_seven_of_mod32_last h3))) ((hcond0_0 t).mp h)
          have hc1 : ¬cond0_1 (grid0.coords t) := fun h => (mod8_ne_zero_of_seven (mod8_seven_of_mod32_last h3)) ((hcond0_1 t).mp h)
          have hc2 : cond0_2 (grid0.coords t) := (hcond0_2 t).mpr (mod8_seven_of_mod32_last h3)
          have hc3 : cond0_3 (grid0.coords t) := (hcond0_3 t).mpr h3
          rw [show (dat0 V c).leavesExact 0 t = owns (c : Thread nD τ) (ms0_0 t) fullShare ((dat0 V c).after 0 t) from by
            unfold Dat.leavesExact; rw [liveAt0_0 t], after0_0]
          rw [show (dat0 V c).leavesExact 1 t = owns (c : Thread nD τ) (ms0_1 t) fullShare ((dat0 V c).after 1 t) from by
            unfold Dat.leavesExact; rw [liveAt0_1 t], after0_1]
          rw [show (dat0 V c).leavesExact 2 t = owns (c : Thread nD τ) (ms0_2 t) fullShare ((dat0 V c).after 2 t) from by
            unfold Dat.leavesExact; rw [liveAt0_2 t], after0_2]
          rw [show (dat0 V c).leavesExact 3 t = owns (c : Thread nD τ) (ms0_3 t) fullShare ((dat0 V c).after 3 t) from by
            unfold Dat.leavesExact; rw [liveAt0_3 t], after0_3]
          rw [show (dat0 V c).leavesExact 4 t = owns (c : Thread nD τ) (ms0_4 t) fullShare ((dat0 V c).after 4 t) from by
            unfold Dat.leavesExact; rw [liveAt0_4 t], after0_4]
          rw [show (dat0 V c).leavesExact 5 t = owns (c : Thread nD τ) (ms0_5 t) fullShare ((dat0 V c).after 5 t) from by
            unfold Dat.leavesExact; rw [liveAt0_5 t hc3], after0_5]
          rw [show (dat0 V c).leavesExact 6 t = owns (c : Thread nD τ) (ms0_6 t) fullShare ((dat0 V c).after 6 t) from by
            unfold Dat.leavesExact; rw [liveAt0_6 t hc3], after0_6]
          rw [outsAt0_E V c t h3]
          unfold out0_E_5 out0_E_6 sout0_E_0 sout0_E_1 sout0_E_2 sout0_E_3; (try dsimp only)
          have hz : t.val ≠ 0 := fun h => h1 (by rw [h])
          rw [PhiS0_castSucc V c t, PhiS0_pos V c _ _ hz]
          iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_E c (grid0.coords t) _ _ _ _ _ _ _ _ _ _ _ _ _ _ _ _ _ _ _ _ _ _ hc0 hc1 hc2 hc3 (iblk0 V c 0 t) (iblk0 V c 1 t) (iblk0 V c 2 t) (iblk0 V c 3 t) (iblk0 V c 4 t) _ _ _ _).2.2.2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [HS0]; · iexact HS0
          isplitl [HS1]; · iexact HS1
          isplitl [HS2]; · iexact HS2
          isplitl [HS3]; · iexact HS3
          iintro ⟨H0, H1, H2, H3, H4, ⟨%e8, H5⟩, ⟨%e9, H6⟩, ⟨%e10, HS0⟩, ⟨%e11, HS1⟩, ⟨%e12, HS2⟩, ⟨%e13, HS3⟩⟩
          isplitl [HS0 HS1 HS2 HS3 HR Hg]
          · isplitl [HS0 HS1 HS2 HS3 HR]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_E_1 c _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_E_2 c _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_E_3 c _ _ _ _ _ _ _ _ _ _ _ _ _ _ _ _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_E_5 c _ _ _ _ _ _ _ _ _ _ _ _ _ _ _ _ _ _ _ _ _ _ _ _ _ _ _ _ _ _ _ _ _ _ _ _)
          unfold owns; iexists _; isplitr
          swap; · iexact H6
          ipureintro; exact View.read_writes_of_cover _ _ _ _ _ (cover0_E_6 c _ _ _ _ _ _ _ _ _ _ _ _ _ _ _ _ _ _ _ _ _ _ _ _ _ _ _ _ _ _ _ _ _ _ _ _)
        · -- the last point of a sum over kk inside a row block
          have hc0 : ¬cond0_0 (grid0.coords t) := fun h => (mod32_ne_zero_of_mod8_ne_zero (mod8_ne_zero_of_seven h2)) ((hcond0_0 t).mp h)
          have hc1 : ¬cond0_1 (grid0.coords t) := fun h => (mod8_ne_zero_of_seven h2) ((hcond0_1 t).mp h)
          have hc2 : cond0_2 (grid0.coords t) := (hcond0_2 t).mpr h2
          have hc3 : ¬cond0_3 (grid0.coords t) := fun h => h3 ((hcond0_3 t).mp h)
          rw [show (dat0 V c).leavesExact 0 t = owns (c : Thread nD τ) (ms0_0 t) fullShare ((dat0 V c).after 0 t) from by
            unfold Dat.leavesExact; rw [liveAt0_0 t], after0_0]
          rw [show (dat0 V c).leavesExact 1 t = owns (c : Thread nD τ) (ms0_1 t) fullShare ((dat0 V c).after 1 t) from by
            unfold Dat.leavesExact; rw [liveAt0_1 t], after0_1]
          rw [show (dat0 V c).leavesExact 2 t = owns (c : Thread nD τ) (ms0_2 t) fullShare ((dat0 V c).after 2 t) from by
            unfold Dat.leavesExact; rw [liveAt0_2 t], after0_2]
          rw [show (dat0 V c).leavesExact 3 t = owns (c : Thread nD τ) (ms0_3 t) fullShare ((dat0 V c).after 3 t) from by
            unfold Dat.leavesExact; rw [liveAt0_3 t], after0_3]
          rw [show (dat0 V c).leavesExact 4 t = owns (c : Thread nD τ) (ms0_4 t) fullShare ((dat0 V c).after 4 t) from by
            unfold Dat.leavesExact; rw [liveAt0_4 t], after0_4]
          rw [Dat.leavesExact_idle (dat0 V c) 5 t (idleAt0_5 t hc3) (noFlush0_5 t hc3)]
          rw [Dat.leavesExact_idle (dat0 V c) 6 t (idleAt0_6 t hc3) (noFlush0_6 t hc3)]
          rw [outsAt0_D V c t h2 h3]
          unfold sout0_D_0 sout0_D_1 sout0_D_2 sout0_D_3; (try dsimp only)
          have hz : t.val ≠ 0 := fun h => h1 (by rw [h])
          rw [PhiS0_castSucc V c t, PhiS0_pos V c _ _ hz]
          iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_D c (grid0.coords t) _ _ _ _ _ _ _ _ _ _ _ _ _ _ _ _ _ _ _ _ _ _ hc0 hc1 hc2 hc3 (iblk0 V c 0 t) (iblk0 V c 1 t) (iblk0 V c 2 t) (iblk0 V c 3 t) (iblk0 V c 4 t) _ _ _ _).2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexact HS0
          isplitl [HS1]; · iexact HS1
          isplitl [HS2]; · iexact HS2
          isplitl [HS3]; · iexact HS3
          iintro ⟨H0, H1, H2, H3, H4, H5, H6, ⟨%e10, HS0⟩, ⟨%e11, HS1⟩, ⟨%e12, HS2⟩, ⟨%e13, HS3⟩⟩
          isplitl [HS0 HS1 HS2 HS3 HR Hg]
          · isplitl [HS0 HS1 HS2 HS3 HR]
            · isplitl [HS0]
              · unfold owns; iexists _; isplitr
                swap; · iexact HS0
                ipureintro; exact View.read_writes_of_cover _ _ _ _ _ (scover0_D_0 c _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_D_1 c _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_D_2 c _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_D_3 c _ _ _ _ _ _ _ _ _ _ _ _ _ _ _ _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexists _; iexact H5
          iexists _; iexact H6
      · -- a point inside a sum over kk
        have hc0 : ¬cond0_0 (grid0.coords t) := fun h => (mod32_ne_zero_of_mod8_ne_zero h1) ((hcond0_0 t).mp h)
        have hc1 : ¬cond0_1 (grid0.coords t) := fun h => h1 ((hcond0_1 t).mp h)
        have hc2 : ¬cond0_2 (grid0.coords t) := fun h => h2 ((hcond0_2 t).mp h)
        have hc3 : ¬cond0_3 (grid0.coords t) := fun h => (mod32_ne_last_of_mod8_ne_seven h2) ((hcond0_3 t).mp h)
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [show (dat0 V c).leavesExact 3 t = owns (c : Thread nD τ) (ms0_3 t) fullShare ((dat0 V c).after 3 t) from by
          unfold Dat.leavesExact; rw [liveAt0_3 t], after0_3]
        rw [show (dat0 V c).leavesExact 4 t = owns (c : Thread nD τ) (ms0_4 t) fullShare ((dat0 V c).after 4 t) from by
          unfold Dat.leavesExact; rw [liveAt0_4 t], after0_4]
        rw [Dat.leavesExact_idle (dat0 V c) 5 t (idleAt0_5 t hc3) (noFlush0_5 t hc3)]
        rw [Dat.leavesExact_idle (dat0 V c) 6 t (idleAt0_6 t hc3) (noFlush0_6 t hc3)]
        rw [outsAt0_C V c t h1 h2]
        unfold sout0_C_0 sout0_C_1; (try dsimp only)
        have hz : t.val ≠ 0 := fun h => h1 (by rw [h])
        rw [PhiS0_castSucc V c t, PhiS0_pos V c _ _ hz]
        iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ _ _ hc0 hc1 hc2 hc3 (iblk0 V c 0 t) (iblk0 V c 1 t) (iblk0 V c 2 t) (iblk0 V c 3 t) (iblk0 V c 4 t) _ _).2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, H4, H5, H6, ⟨%e10, HS0⟩, ⟨%e11, HS1⟩, HS2, HS3⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _)
            isplitl [HS2]
            · iexact HS2
            isplitl [HS3]
            · iexact HS3
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the scratch buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, HR⟩, Hg⟩
  isplitl [HS0 HS1 HS2 HS3 HR]
  · isplitl [HS0]; · iexists _; iexact HS0
    isplitl [HS1]; · iexists _; iexact HS1
    isplitl [HS2]; · iexists _; iexact HS2
    isplitl [HS3]; · iexists _; iexact HS3
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 512 := N_0; omega)

end Cert.Kernel.R0

end
-- ==== Proof.BK1Shared.lean ====
/- Region 1 (the second kernel: q = x·Wqᵀ accumulated over the eight contraction blocks, then the gain-normalised
   output q·kv / (1 + |q|·ksum) stored at the last block): what its three control cases share. A window's block at
   a grid point; that an input's staging buffer holds its block at every point; the two branch conditions on the
   innermost grid coordinate in closed form (first block: the point's number ≡ 0 mod 8; last block: ≡ 7 mod 8);
   where the output window is idle; the staging memrefs and the one scratch accumulator. -/
import proofs.«156116_j68702296867130_1_alg».proof.Proof.Gen.Kernel.Launch
import proofs.«156116_j68702296867130_1_alg».proof.Proof.Gen.Kernel.Skeleton
import proofs.«156116_j68702296867130_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional: the innermost coordinate is 0 (the accumulator is reset). -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional: the innermost coordinate is 7 (the output block is computed and stored). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the last-block conditional fails the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- Where it holds the output window is live. -/
theorem liveAt1_5 : ∀ t : Fin cfg1.N, cond1_1 (grid1.coords t) → cfg1.idle 5 (grid1.coords t) = false := by decide +kernel

/-! ## The staging memrefs and the scratch accumulator -/

abbrev VO1_5 : View sig .tc .vmem S512x1024 .f32 := (Memref.whole cc1_stg5_0 : Memref sig .tc .vmem S512x1024 .f32).view
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)
/-- The scratch accumulator: a whole scoped buffer of the kernel's own. -/
abbrev scM1_0 : Memref sig .tc .vmem S512x1024 .f32 := Memref.whole cc1_scratch0
abbrev VS1_0 : View sig .tc .vmem S512x1024 .f32 := scM1_0.view

end Cert.Kernel.R1

end
-- ==== Proof.BK1RunA.lean ====
/- Region 1, case A: the first contraction block (the accumulator is reset, then the first product added; no output). The body's triple on whole staging memrefs: the inputs
   are handed back as they were, the scratch accumulator with the stores' pieces written, the idle output's buffer untouched. The pieces are found by running the body symbolically. -/
import proofs.«156116_j68702296867130_1_alg».proof.Proof.BK1Shared

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case A (first block, not last block). -/
noncomputable def kernelRun1_A (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : cond1_0 i) (hc1 : ¬cond1_1 i)
    (x0 : Vec F S512x512 .f32) (x1 : Vec F S1024x512 .f32) (x2 : Vec F S1x1024 .f32) (x3 : Vec F S512x1 .f32) (x4 : Vec F S512x1 .f32) :
    Σ' (L5 : List (View.Piece (Elt F) S512x1024 .f32)), { LS0 : List (View.Piece (Elt F) S512x1024 .f32) //
      ∀ (xi5 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__final_kernel i arg3 harg3 arg4 harg4 arg5 harg5 arg6 harg6 arg7 harg7 arg8 harg8 arg9 harg9) K } := by
  refine ⟨[], ?_, fun xi5 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.R1

end
-- ==== Proof.BK1RunB.lean ====
/- Region 1, case B: a middle contraction block (one more product added to the accumulator; no output). The body's triple on whole staging memrefs: the inputs
   are handed back as they were, the scratch accumulator with the stores' pieces written, the idle output's buffer untouched. The pieces are found by running the body symbolically. -/
import proofs.«156116_j68702296867130_1_alg».proof.Proof.BK1Shared

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case B (not first block, not last block). -/
noncomputable def kernelRun1_B (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : ¬cond1_1 i)
    (x0 : Vec F S512x512 .f32) (x1 : Vec F S1024x512 .f32) (x2 : Vec F S1x1024 .f32) (x3 : Vec F S512x1 .f32) (x4 : Vec F S512x1 .f32) (xs0 : Vec F S512x1024 .f32) :
    Σ' (L5 : List (View.Piece (Elt F) S512x1024 .f32)), { LS0 : List (View.Piece (Elt F) S512x1024 .f32) //
      ∀ (xi5 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__final_kernel i arg3 harg3 arg4 harg4 arg5 harg5 arg6 harg6 arg7 harg7 arg8 harg8 arg9 harg9) K } := by
  refine ⟨[], ?_, fun xi5 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.R1

end
-- ==== Proof.BK1RunC.lean ====
/- Region 1, case C: the last contraction block (the last product added, then the output block computed from the accumulator, the bias row and the two row statistics, and stored). The body's triple on whole staging memrefs: the inputs
   are handed back as they were, the scratch accumulator with the stores' pieces written, the output's buffer with its piece written. The pieces are found by running the body symbolically. -/
import proofs.«156116_j68702296867130_1_alg».proof.Proof.BK1Shared

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case C (not first block, last block). -/
noncomputable def kernelRun1_C (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : cond1_1 i)
    (x0 : Vec F S512x512 .f32) (x1 : Vec F S1024x512 .f32) (x2 : Vec F S1x1024 .f32) (x3 : Vec F S512x1 .f32) (x4 : Vec F S512x1 .f32) (xs0 : Vec F S512x1024 .f32) :
    Σ' (L5 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__final_kernel i arg3 harg3 arg4 harg4 arg5 harg5 arg6 harg6 arg7 harg7 arg8 harg8 arg9 harg9) K } := by
  refine ⟨?_, ?_, fun E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.R1

end
-- ==== Proof.BK1Frame.lean ====
/- Region 1: what its buffers hold point by point, and the body obligation. After the body at a grid point the
   scratch accumulator holds the sum of the contraction blocks' products met so far in the current row-and-column tile
   (reset at the first block), and at the last block the output's staging buffer holds the gain-normalised tile; the
   region invariant carries the accumulator from each point to the next. -/
import proofs.«156116_j68702296867130_1_alg».proof.Proof.BK1RunA
import proofs.«156116_j68702296867130_1_alg».proof.Proof.BK1RunB
import proofs.«156116_j68702296867130_1_alg».proof.Proof.BK1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scoped rest, with the scratch accumulator split off -/

/-- The core's scoped buffers other than this kernel's staging buffers and its scratch accumulator (the first kernel's
    staging and scratch buffers), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

theorem PhiA1_split (c : Dev nD) :
    (Pipeline.ΦA spec1 c : sProp 𝕄) ⊢ iprop((rest1 (F := F) c ∗ (∃ d, owns (c : Thread nD τ) scM1_0 fullShare d)) ∗ (∃ r, prngReg c r)) := by
  unfold Pipeline.ΦA rest1; rw [scopedRest1_eq]; simp only [scM1_0, owns_whole]
  iintro ⟨⟨R0, R1, R2, R3, R4, R5, R6, R7, R8, R9, R10, R11, R12, R13, R14, R15, R16, R17, HS⟩, Hg⟩
  isplitr [Hg]
  · isplitr [HS]
    ·
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      iexact R17
    · iexact HS
  · iexact Hg

theorem PhiA1_join (c : Dev nD) :
    iprop((rest1 (F := F) c ∗ (∃ d, owns (c : Thread nD τ) scM1_0 fullShare d)) ∗ (∃ r, prngReg c r)) ⊢ (Pipeline.ΦA spec1 c : sProp 𝕄) := by
  unfold Pipeline.ΦA rest1; rw [scopedRest1_eq]; simp only [scM1_0, owns_whole]
  iintro ⟨⟨⟨R0, R1, R2, R3, R4, R5, R6, R7, R8, R9, R10, R11, R12, R13, R14, R15, R16, R17⟩, HS⟩, Hg⟩
  isplitr [Hg]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    iexact HS
  · iexact Hg

/-! ## What each case leaves -/

/-- At a point where the output window is idle its staging buffer is neither written back nor read later: a placeholder. -/
def idle1_5 : Vec F S512x1024 .f32 := VO1_5.read (Elt F) VO1_5.junk

/-- Case A's stores into the scratch accumulator cover it. -/
theorem scover1_A_0 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : cond1_0 i) (hc1 : ¬cond1_1 i)
    (x0 : Vec F S512x512 .f32) (x1 : Vec F S1024x512 .f32) (x2 : Vec F S1x1024 .f32) (x3 : Vec F S512x1 .f32) (x4 : Vec F S512x1 .f32) (y : S512x1024.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S512x1024.size (by sl_kernel_rfl) y

/-- What case A leaves in the scratch accumulator: its pieces read back. -/
def sout1_A_0 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : cond1_0 i) (hc1 : ¬cond1_1 i)
    (x0 : Vec F S512x512 .f32) (x1 : Vec F S1024x512 .f32) (x2 : Vec F S1x1024 .f32) (x3 : Vec F S512x1 .f32) (x4 : Vec F S512x1 .f32) : Vec F S512x1024 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- Case B's stores into the scratch accumulator cover it. -/
theorem scover1_B_0 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : ¬cond1_1 i)
    (x0 : Vec F S512x512 .f32) (x1 : Vec F S1024x512 .f32) (x2 : Vec F S1x1024 .f32) (x3 : Vec F S512x1 .f32) (x4 : Vec F S512x1 .f32) (xs0 : Vec F S512x1024 .f32) (y : S512x1024.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S512x1024.size (by sl_kernel_rfl) y

/-- What case B leaves in the scratch accumulator: its pieces read back. -/
def sout1_B_0 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : ¬cond1_1 i)
    (x0 : Vec F S512x512 .f32) (x1 : Vec F S1024x512 .f32) (x2 : Vec F S1x1024 .f32) (x3 : Vec F S512x1 .f32) (x4 : Vec F S512x1 .f32) (xs0 : Vec F S512x1024 .f32) : Vec F S512x1024 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- Case C's stores into the scratch accumulator cover it. -/
theorem scover1_C_0 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : cond1_1 i)
    (x0 : Vec F S512x512 .f32) (x1 : Vec F S1024x512 .f32) (x2 : Vec F S1x1024 .f32) (x3 : Vec F S512x1 .f32) (x4 : Vec F S512x1 .f32) (xs0 : Vec F S512x1024 .f32) (y : S512x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S512x1024.size (by sl_kernel_rfl) y

/-- What case C leaves in the scratch accumulator: its pieces read back. -/
def sout1_C_0 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : cond1_1 i)
    (x0 : Vec F S512x512 .f32) (x1 : Vec F S1024x512 .f32) (x2 : Vec F S1x1024 .f32) (x3 : Vec F S512x1 .f32) (x4 : Vec F S512x1 .f32) (xs0 : Vec F S512x1024 .f32) : Vec F S512x1024 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-- Case C's store into the output's staging buffer covers it. -/
theorem cover1_C_5 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : cond1_1 i)
    (x0 : Vec F S512x512 .f32) (x1 : Vec F S1024x512 .f32) (x2 : Vec F S1x1024 .f32) (x3 : Vec F S512x1 .f32) (x4 : Vec F S512x1 .f32) (xs0 : Vec F S512x1024 .f32) (y : S512x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S512x1024.size (by sl_kernel_rfl) y

/-- What case C leaves in the output's staging buffer: its piece read back. -/
def out1_C_5 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : cond1_1 i)
    (x0 : Vec F S512x512 .f32) (x1 : Vec F S1024x512 .f32) (x2 : Vec F S1x1024 .f32) (x3 : Vec F S512x1 .f32) (x4 : Vec F S512x1 .f32) (xs0 : Vec F S512x1024 .f32) : Vec F S512x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-! ## What the buffers hold after each point -/

/-- After the body at position `n`: the output's staging buffer, then the scratch accumulator. The case is read off
    the position (≡ 0 mod 8: the first block; ≡ 7: the last; else a middle one); a later block starts from what the
    point before left in the accumulator. -/
def outsAt1 (c : Dev nD) : (n : ℕ) → n < cfg1.N → Vec F S512x1024 .f32 × Vec F S512x1024 .f32
  | 0, hn => (idle1_5, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (idle1_5, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (idle1_5, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (idle1_5, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (idle1_5, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point every scoped buffer at anything; afterwards the scratch accumulator at what
    the point before left, the other scoped buffers at anything, the generator register at some state. -/
def PhiS1 (c : Dev nD) : (n : ℕ) → n ≤ cfg1.N → sProp 𝕄
  | 0, _ => Pipeline.ΦA spec1 c
  | n + 1, hn => iprop((rest1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((rest1 (F := F) c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop((rest1 (F := F) c ∗ owns (c : Thread nD τ) scM1_0 fullShare ((outsAt1 V c (n - 1) (by omega)).2)) ∗ (∃ r, prngReg c r)) := by
  cases n with
  | zero => exact absurd rfl hz
  | succ n => rfl

/-! ## The proof data -/

/-- The arrays as the region finds them; after the body each input's buffer at its block, the output's and the
    accumulator at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' staging buffers hold their blocks; the point's number mod 8 says which case it
    is in; the invariant hands the body the accumulator at what the point before left (at anything at the first
    point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩, ⟨%d5, H5⟩⟩
        ihave HΦ' := (PhiA1_split (F := F) c) $$ HΦ
        icases HΦ' with ⟨⟨Hrest, HS0⟩, Hg⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg Hrest]
        · isplitl [HS0 Hrest]
          · isplitl [Hrest]; · iexact Hrest
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨Hrest, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg Hrest]
        · isplitl [HS0 Hrest]
          · isplitl [Hrest]; · iexact Hrest
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      have hz : t.val ≠ 0 := fun hz => h0 (by rw [hz])
      rw [PhiS1_castSucc V c t, PhiS1_pos V c _ _ hz]
      iintro ⟨⟨⟨Hrest, HS0⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg Hrest]
      · isplitl [HS0 Hrest]
        · isplitl [Hrest]; · iexact Hrest
          unfold owns; iexists _; isplitr
          swap; · iexact HS0
          ipureintro; exact View.read_writes_of_cover _ _ _ _ _ (scover1_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      have hz : t.val ≠ 0 := fun hz => h0 (by rw [hz])
      rw [PhiS1_castSucc V c t, PhiS1_pos V c _ _ hz]
      iintro ⟨⟨⟨Hrest, HS0⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg Hrest]
      · isplitl [HS0 Hrest]
        · isplitl [Hrest]; · iexact Hrest
          unfold owns; iexists _; isplitr
          swap; · iexact HS0
          ipureintro; exact View.read_writes_of_cover _ _ _ _ _ (scover1_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_join (F := F) c)
  iintro ⟨⟨Hrest, HS0⟩, Hg⟩
  isplitr [Hg]
  · isplitl [Hrest]; · iexact Hrest
    iexists _; iexact HS0
  · iexact Hg

theorem hout1 (c : Dev nD) : (dat1 V c).Φ (Fin.last cfg1.N) ⊢ Pipeline.ΦA spec1 c :=
  Phi_out1 V c _ (by rw [Fin.val_last]; have : cfg1.N = 512 := N_1; omega)

end Cert.Kernel.R1

end
-- ==== Proof.BRun.lean ====
/- The whole run of the kernel's program, at any float instance: @main is three reshapes of the bias vectors on the
   host, then the first kernel region (the row statistics kv and ksum), then the second (the output). Between two items
   a core holds every unscoped buffer at known contents: the launch memory; after the reshapes; after region 0 with its
   arrays at what its write-backs leave; after region 1 likewise. Every weakly fair execution terminates and ends with
   every unscoped buffer at the last of these contents — from which both the frame claim (no item writes an argument)
   and the value of the result array are read. -/
import proofs.«156116_j68702296867130_1_alg».proof.Proof.BK0Frame
import proofs.«156116_j68702296867130_1_alg».proof.Proof.BK1Frame
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host reshapes (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At region 1's exit. -/
def W3 (c : Dev nD) : Valuation τ sig (Elt F) :=
  Pipeline.withArrays spec1 c (W2 m ρ c) fun w => (R1.dat1 (V2 m ρ) c).arrAt w cfg1.N
theorem W3_arr (c : Dev nD) (w : Fin cfg1.W) :
    W3 m ρ c (Proc.devRef .tc (Pipeline.arrRef spec1 w)) = (R1.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((R1.dat1 (V2 m ρ) c).arrAt_in 0 rfl _).trans (R1.A_eq1 (V2 m ρ) c 0))
    _ = W1 m ρ c (Proc.devRef .tc main_arg0) := (W2_arr m ρ c 0).trans (((R0.dat0 (V1 m ρ) c).arrAt_in 0 rfl _).trans (R0.A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 1).trans (((R1.dat1 (V2 m ρ) c).arrAt_in 1 rfl _).trans (R1.A_eq1 (V2 m ρ) c 1))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 1).trans (((R0.dat0 (V1 m ρ) c).arrAt_in 1 rfl _).trans (R0.A_eq0 (V1 m ρ) c 1))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 3).trans (((R0.dat0 (V1 m ρ) c).arrAt_in 3 rfl _).trans (R0.A_eq0 (V1 m ρ) c 3))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the boundary's contents, left with the
    region's arrays at what its write-backs leave and every other buffer as entered; the generator register goes into
    the region invariant and comes back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.hin0 (V1 m ρ) c)
    unfold Pipeline.ΦA
    iintro ⟨Hp, -, Hr⟩
    isplitl [Hr]; · iexact Hr
    iexact Hp
  hout c := by
    rw [Pipeline.ownSems0_none]
    refine (R0.hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left with the
    region's arrays at what its write-backs leave and every other buffer as entered; the generator register goes into
    the region invariant and comes back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R1.hin1 (V2 m ρ) c)
    unfold Pipeline.ΦA
    iintro ⟨Hp, -, Hr⟩
    isplitl [Hr]; · iexact Hr
    iexact Hp
  hout c := by
    rw [Pipeline.ownSems0_none]
    refine (R1.hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame claim's post: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c)⟩) (run_all m ρ)

/-- The result array ends at what region 1's write-backs leave in its output window's array. -/
theorem run_value : θ_run defs (onTc (τ := τ) (main (F := F))) ⟨m, fun _ => 0, ρ⟩ (fun r => ∀ c : Dev nD,
      r.2.mem ((c.tc : Thread nD τ).loc main_v4) = (R1.dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_v4 (by decide))).trans (W3_arr m ρ c 5),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c)⟩) (run_all m ρ)

end Cert.Kernel.Hand

end
-- ==== Proof.K0Shared.lean ====
import proofs.«156116_j68702296867130_1_alg».proof.Proof.Gen.KernelIdeal.Launch
import proofs.«156116_j68702296867130_1_alg».proof.Proof.Gen.KernelIdeal.Skeleton
import proofs.«156116_j68702296867130_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # The first region (the key/value statistics kernel): what its five control cases share

The grid is (16, 4, 8) = (i, j, kk), and point number n stands for i * 32 + j * 8 + kk.  The kernel
keeps four scratch buffers between points: two 512 × 1024 accumulators (the key and value
projections of the current row block, summed over kk) and two 512 × 1 columns (the running
statistics of the row block, summed over j).  Four conditions on the coordinates decide what a
point does: j = 0 ∧ kk = 0 clears the two columns, kk = 0 clears the two accumulators, kk = 7 folds
the finished accumulators into the columns, and j = 3 ∧ kk = 7 copies the columns to the two
outputs.  Everything here is stated at a parameter V: the buffer contents when the region is
entered. -/

-- membership in a rectangle of these extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is
    not fetched its index has not moved), for any proof data whose array is V's and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (where it is
    not fetched its index has not moved), for any proof data whose array is V's and whose body leaves the block
    in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (where it is
    not fetched its index has not moved), for any proof data whose array is V's and whose body leaves the block
    in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (where it is
    not fetched its index has not moved), for any proof data whose array is V's and whose body leaves the block
    in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (where it is
    not fetched its index has not moved), for any proof data whose array is V's and whose body leaves the block
    in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The four conditions on the coordinates -/

/-- j = 0 ∧ kk = 0: the point starts a row block. -/
abbrev cond0_0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points ≡ 0 (mod 32). -/
theorem hcond0_0 : ∀ t : Fin cfg0.N, cond0_0 (grid0.coords t) ↔ t.val % 32 = 0 :=
  (by decide +kernel : ∀ t : Fin grid0.N, cond0_0 (grid0.coords t) ↔ t.val % 32 = 0)

/-- kk = 0: the point starts a sum over kk. -/
abbrev cond0_1 (i : grid0.Coords) : Prop := (Scalar.cmpi .ne (Scalar.extui (Scalar.cmpi .eq (BitVec.ofNat 32 (i 2).val) 0#32)) 0#32) = 1#1
/-- It holds at the points ≡ 0 (mod 8). -/
theorem hcond0_1 : ∀ t : Fin cfg0.N, cond0_1 (grid0.coords t) ↔ t.val % 8 = 0 :=
  (by decide +kernel : ∀ t : Fin grid0.N, cond0_1 (grid0.coords t) ↔ t.val % 8 = 0)

/-- kk = 7: the point ends a sum over kk. -/
abbrev cond0_2 (i : grid0.Coords) : Prop := (Scalar.cmpi .ne (Scalar.extui (Scalar.cmpi .eq (BitVec.ofNat 32 (i 2).val) 7#32)) 0#32) = 1#1
/-- It holds at the points ≡ 7 (mod 8). -/
theorem hcond0_2 : ∀ t : Fin cfg0.N, cond0_2 (grid0.coords t) ↔ t.val % 8 = 7 :=
  (by decide +kernel : ∀ t : Fin grid0.N, cond0_2 (grid0.coords t) ↔ t.val % 8 = 7)

/-- j = 3 ∧ kk = 7: the point ends a row block. -/
abbrev cond0_3 (i : grid0.Coords) : Prop := k0_cond4 i = 1#1
/-- It holds at the points ≡ 31 (mod 32). -/
theorem hcond0_3 : ∀ t : Fin cfg0.N, cond0_3 (grid0.coords t) ↔ t.val % 32 = 31 :=
  (by decide +kernel : ∀ t : Fin grid0.N, cond0_3 (grid0.coords t) ↔ t.val % 32 = 31)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Away from the end of a row block output 5 is idle: the point stores nothing into it, -/
theorem idleAt0_5 : ∀ t : Fin cfg0.N, ¬cond0_3 (grid0.coords t) → cfg0.idle 5 (grid0.coords t) = true :=
  (by decide +kernel : ∀ t : Fin grid0.N, ¬cond0_3 (grid0.coords t) → idle0 5 (grid0.coords t) = true)
/-- and its block is not written back there. -/
theorem noFlush0_5 : ∀ t : Fin cfg0.N, ¬cond0_3 (grid0.coords t) → (cfg0.win 5).flush t = false :=
  (by decide +kernel : ∀ t : Fin grid0.N, ¬cond0_3 (grid0.coords t) → win0_5.flush t = false)
/-- At the end of a row block output 5 is live: the point stores into it. -/
theorem liveAt0_5 : ∀ t : Fin cfg0.N, cond0_3 (grid0.coords t) → cfg0.idle 5 (grid0.coords t) = false :=
  (by decide +kernel : ∀ t : Fin grid0.N, cond0_3 (grid0.coords t) → idle0 5 (grid0.coords t) = false)
/-- Away from the end of a row block output 6 is idle: the point stores nothing into it, -/
theorem idleAt0_6 : ∀ t : Fin cfg0.N, ¬cond0_3 (grid0.coords t) → cfg0.idle 6 (grid0.coords t) = true :=
  (by decide +kernel : ∀ t : Fin grid0.N, ¬cond0_3 (grid0.coords t) → idle0 6 (grid0.coords t) = true)
/-- and its block is not written back there. -/
theorem noFlush0_6 : ∀ t : Fin cfg0.N, ¬cond0_3 (grid0.coords t) → (cfg0.win 6).flush t = false :=
  (by decide +kernel : ∀ t : Fin grid0.N, ¬cond0_3 (grid0.coords t) → win0_6.flush t = false)
/-- At the end of a row block output 6 is live: the point stores into it. -/
theorem liveAt0_6 : ∀ t : Fin cfg0.N, cond0_3 (grid0.coords t) → cfg0.idle 6 (grid0.coords t) = false :=
  (by decide +kernel : ∀ t : Fin grid0.N, cond0_3 (grid0.coords t) → idle0 6 (grid0.coords t) = false)

/-! ## The memrefs the body is called with -/

/-- One staging buffer of output window 5, through which its contents are stated (the choice does not matter). -/
abbrev VO0_5 : View sig .tc .vmem S512x1 .f32 := (Memref.whole cc0_stg5_0 : Memref sig .tc .vmem S512x1 .f32).view
/-- One staging buffer of output window 6, through which its contents are stated (the choice does not matter). -/
abbrev VO0_6 : View sig .tc .vmem S512x1 .f32 := (Memref.whole cc0_stg6_0 : Memref sig .tc .vmem S512x1 .f32).view
/-- Each window's current staging memref at point t, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The four scratch operands: whole scoped buffers of the kernel's own, carried between points. -/
abbrev scM0_0 : Memref sig .tc .vmem S512x1024 .f32 := Memref.whole cc0_scratch0
abbrev scM0_1 : Memref sig .tc .vmem S512x1024 .f32 := Memref.whole cc0_scratch1
abbrev scM0_2 : Memref sig .tc .vmem S512x1 .f32 := Memref.whole cc0_scratch2
abbrev scM0_3 : Memref sig .tc .vmem S512x1 .f32 := Memref.whole cc0_scratch3
/-- The same as views: what a scratch buffer holds is stated through its view. -/
abbrev VS0_0 : View sig .tc .vmem S512x1024 .f32 := scM0_0.view
abbrev VS0_1 : View sig .tc .vmem S512x1024 .f32 := scM0_1.view
abbrev VS0_2 : View sig .tc .vmem S512x1 .f32 := scM0_2.view
abbrev VS0_3 : View sig .tc .vmem S512x1 .f32 := scM0_3.view

/-- The core's other scoped buffers (the second kernel's staging and scratch buffers), each whole at some contents:
    this region never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the launch hands the region, with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ rest0 (F := F) c) ∗ (∃ r, prngReg c r)) := by
  unfold Pipeline.ΦA rest0; rw [scopedRest0_eq]; simp only [scM0_0, scM0_1, scM0_2, scM0_3, owns_whole]; try rfl

end Cert.KernelIdeal.R0

end
-- ==== Proof.K0RunA.lean ====
import proofs.«156116_j68702296867130_1_alg».proof.Proof.K0Shared

/-! # The statistics kernel's body run whole, in case A

j = 0 ∧ kk = 0 holds, kk = 0 holds, kk = 7 fails, j = 3 ∧ kk = 7 fails: the first point of a row block: all four scratch buffers are cleared before they are read, so they may hold anything on entry. -/

-- membership in a rectangle of these extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each buffer it stores into, as pieces (last first), in case A, with the proof
    that on whole memrefs — the inputs' at their blocks, a buffer the case does not store into at contents handed
    back untouched, a buffer it stores into before reading at anything, a carried scratch it reads at what the point
    before left — the body runs to the continuation holding the inputs' as they were and each stored buffer with its
    pieces written.  The pieces are the witness the run finds. -/
noncomputable def kernelRun0_A (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) :
    Σ' (LS0 : List (View.Piece (Elt F) S512x1024 .f32)), Σ' (LS1 : List (View.Piece (Elt F) S512x1024 .f32)), Σ' (LS2 : List (View.Piece (Elt F) S512x1 .f32)), { LS3 : List (View.Piece (Elt F) S512x1 .f32) //
      ∀ (xi5 : Vec F S512x1 .f32) (xi6 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__kv_stats_kernel i arg3 harg3 arg4 harg4 arg5 harg5 arg6 harg6 arg7 harg7 arg8 harg8 arg9 harg9 arg10 harg10 arg11 harg11 arg12 harg12 arg13 harg13) K } := by
  refine ⟨?_, ?_, ?_, ?_, fun xi5 xi6 E K => ?run⟩
  case run =>
    simp only [cc0__kv_stats_kernel_eq_skeleton]; unfold cc0__kv_stats_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    iexists _; iexact H13

end Cert.KernelIdeal.R0

end
-- ==== Proof.K0RunB.lean ====
import proofs.«156116_j68702296867130_1_alg».proof.Proof.K0Shared

/-! # The statistics kernel's body run whole, in case B

j = 0 ∧ kk = 0 fails, kk = 0 holds, kk = 7 fails, j = 3 ∧ kk = 7 fails: the first point of a later sum over kk: the two accumulators are cleared before they are read; the two statistics columns are not touched. -/

-- membership in a rectangle of these extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each buffer it stores into, as pieces (last first), in case B, with the proof
    that on whole memrefs — the inputs' at their blocks, a buffer the case does not store into at contents handed
    back untouched, a buffer it stores into before reading at anything, a carried scratch it reads at what the point
    before left — the body runs to the continuation holding the inputs' as they were and each stored buffer with its
    pieces written.  The pieces are the witness the run finds. -/
noncomputable def kernelRun0_B (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) :
    Σ' (LS0 : List (View.Piece (Elt F) S512x1024 .f32)), { LS1 : List (View.Piece (Elt F) S512x1024 .f32) //
      ∀ (xi5 : Vec F S512x1 .f32) (xi6 : Vec F S512x1 .f32) (xs2 : Vec F S512x1 .f32) (xs3 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d) ∗ (∃ d, owns (c : Thread nD τ) arg11 fullShare d) ∗ owns (c : Thread nD τ) arg12 fullShare xs2 ∗ owns (c : Thread nD τ) arg13 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ owns (c : Thread nD τ) arg12 fullShare xs2 ∗ owns (c : Thread nD τ) arg13 fullShare xs3) -∗ K ⟨⟩))
          ⊢ wp frame (wpE (defs₀ (F := F)) Variants.none c none) E (cc0__kv_stats_kernel i arg3 harg3 arg4 harg4 arg5 harg5 arg6 harg6 arg7 harg7 arg8 harg8 arg9 harg9 arg10 harg10 arg11 harg11 arg12 harg12 arg13 harg13) K } := by
  refine ⟨?_, ?_, fun xi5 xi6 xs2 xs3 E K => ?run⟩
  case run =>
    simp only [cc0__kv_stats_kernel_eq_skeleton]; unfold cc0__kv_stats_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]
    · iexists _; isplitr; · ipureintro; exact harg12.read_unread _
      iexact H12
    iexists _; isplitr; · ipureintro; exact harg13.read_unread _
    iexact H13

end Cert.KernelIdeal.R0

end
-- ==== Proof.K0RunC.lean ====
import proofs.«156116_j68702296867130_1_alg».proof.Proof.K0Shared

/-! # The statistics kernel's body run whole, in case C

j = 0 ∧ kk = 0 fails, kk = 0 fails, kk = 7 fails, j = 3 ∧ kk = 7 fails: a point inside a sum over kk: the two accumulators take one more product each; the two statistics columns are not touched. -/

-- membership in a rectangle of these extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each buffer it stores into, as pieces (last first), in case C, with the proof
    that on whole memrefs — the inputs' at their blocks, a buffer the case does not store into at contents handed
    back untouched, a buffer it stores into before reading at anything, a carried scratch it reads at what the point
    before left — the body runs to the continuation holding the inputs' as they were and each stored buffer with its
    pieces written.  The pieces are the witness the run finds. -/
noncomputable def kernelRun0_C (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) :
    Σ' (LS0 : List (View.Piece (Elt F) S512x1024 .f32)), { LS1 : List (View.Piece (Elt F) S512x1024 .f32) //
      ∀ (xi5 : Vec F S512x1 .f32) (xi6 : Vec F S512x1 .f32) (xs2 : Vec F S512x1 .f32) (xs3 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ owns (c : Thread nD τ) arg12 fullShare xs2 ∗ owns (c : Thread nD τ) arg13 fullShare xs3) -∗ K ⟨⟩))
          ⊢ wp frame (wpE (defs₀ (F := F)) Variants.none c none) E (cc0__kv_stats_kernel i arg3 harg3 arg4 harg4 arg5 harg5 arg6 harg6 arg7 harg7 arg8 harg8 arg9 harg9 arg10 harg10 arg11 harg11 arg12 harg12 arg13 harg13) K } := by
  refine ⟨?_, ?_, fun xi5 xi6 xs2 xs3 E K => ?run⟩
  case run =>
    simp only [cc0__kv_stats_kernel_eq_skeleton]; unfold cc0__kv_stats_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]
    · iexists _; isplitr; · ipureintro; exact harg12.read_unread _
      iexact H12
    iexists _; isplitr; · ipureintro; exact harg13.read_unread _
    iexact H13

end Cert.KernelIdeal.R0

end
-- ==== Proof.K0RunD.lean ====
import proofs.«156116_j68702296867130_1_alg».proof.Proof.K0Shared

/-! # The statistics kernel's body run whole, in case D

j = 0 ∧ kk = 0 fails, kk = 0 fails, kk = 7 holds, j = 3 ∧ kk = 7 fails: the last point of a sum over kk that does not end the row block: the accumulators take their last product and are folded into the two statistics columns. -/

-- membership in a rectangle of these extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each buffer it stores into, as pieces (last first), in case D, with the proof
    that on whole memrefs — the inputs' at their blocks, a buffer the case does not store into at contents handed
    back untouched, a buffer it stores into before reading at anything, a carried scratch it reads at what the point
    before left — the body runs to the continuation holding the inputs' as they were and each stored buffer with its
    pieces written.  The pieces are the witness the run finds. -/
noncomputable def kernelRun0_D (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) :
    Σ' (LS0 : List (View.Piece (Elt F) S512x1024 .f32)), Σ' (LS1 : List (View.Piece (Elt F) S512x1024 .f32)), Σ' (LS2 : List (View.Piece (Elt F) S512x1 .f32)), { LS3 : List (View.Piece (Elt F) S512x1 .f32) //
      ∀ (xi5 : Vec F S512x1 .f32) (xi6 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__kv_stats_kernel i arg3 harg3 arg4 harg4 arg5 harg5 arg6 harg6 arg7 harg7 arg8 harg8 arg9 harg9 arg10 harg10 arg11 harg11 arg12 harg12 arg13 harg13) K } := by
  refine ⟨?_, ?_, ?_, ?_, fun xi5 xi6 E K => ?run⟩
  case run =>
    simp only [cc0__kv_stats_kernel_eq_skeleton]; unfold cc0__kv_stats_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    iexists _; iexact H13

end Cert.KernelIdeal.R0

end
-- ==== Proof.K0RunE.lean ====
import proofs.«156116_j68702296867130_1_alg».proof.Proof.K0Shared

/-! # The statistics kernel's body run whole, in case E

j = 0 ∧ kk = 0 fails, kk = 0 fails, kk = 7 holds, j = 3 ∧ kk = 7 holds: the last point of a row block: as the case before, and then the two statistics columns are copied into the two outputs. -/

-- membership in a rectangle of these extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each buffer it stores into, as pieces (last first), in case E, with the proof
    that on whole memrefs — the inputs' at their blocks, a buffer the case does not store into at contents handed
    back untouched, a buffer it stores into before reading at anything, a carried scratch it reads at what the point
    before left — the body runs to the continuation holding the inputs' as they were and each stored buffer with its
    pieces written.  The pieces are the witness the run finds. -/
noncomputable def kernelRun0_E (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) :
    Σ' (L5 : List (View.Piece (Elt F) S512x1 .f32)), Σ' (L6 : List (View.Piece (Elt F) S512x1 .f32)), Σ' (LS0 : List (View.Piece (Elt F) S512x1024 .f32)), Σ' (LS1 : List (View.Piece (Elt F) S512x1024 .f32)), Σ' (LS2 : List (View.Piece (Elt F) S512x1 .f32)), { LS3 : List (View.Piece (Elt F) S512x1 .f32) //
      ∀  (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__kv_stats_kernel i arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun  E K => ?run⟩
  case run =>
    simp only [cc0__kv_stats_kernel_eq_skeleton]; unfold cc0__kv_stats_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11; obtain rfl := harg12.eq_unread hf12; obtain rfl := harg13.eq_unread hf13
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.KernelIdeal.R0

end
-- ==== Proof.K0Frame.lean ====
import proofs.«156116_j68702296867130_1_alg».proof.Proof.K0RunA
import proofs.«156116_j68702296867130_1_alg».proof.Proof.K0RunB
import proofs.«156116_j68702296867130_1_alg».proof.Proof.K0RunC
import proofs.«156116_j68702296867130_1_alg».proof.Proof.K0RunD
import proofs.«156116_j68702296867130_1_alg».proof.Proof.K0RunE

/-! # The first region's frame half: what its buffers hold point by point, and the body obligation

After each grid point the two outputs' staging buffers and the four carried scratch buffers hold a
tuple of contents, defined by recursion on the point's number: the point's control case, run at
the point's input blocks, over what the point before left in the scratch buffers it reads.  The
region's invariant before a point is the launch's scoped rest with the four scratch buffers at
what the point before left; the body obligation is then the case's run, case by case. -/

-- membership in a rectangle of these extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## Arithmetic of the point number's residues -/

theorem mod8_zero_of_mod32_zero {n : ℕ} (h : n % 32 = 0) : n % 8 = 0 := by omega
theorem mod8_ne_seven_of_zero {n : ℕ} (h : n % 8 = 0) : ¬n % 8 = 7 := by omega
theorem mod32_ne_last_of_mod8_zero {n : ℕ} (h : n % 8 = 0) : ¬n % 32 = 31 := by omega
theorem mod32_ne_zero_of_mod8_ne_zero {n : ℕ} (h : ¬n % 8 = 0) : ¬n % 32 = 0 := by omega
theorem mod32_ne_last_of_mod8_ne_seven {n : ℕ} (h : ¬n % 8 = 7) : ¬n % 32 = 31 := by omega
theorem mod8_ne_zero_of_seven {n : ℕ} (h : n % 8 = 7) : ¬n % 8 = 0 := by omega
theorem mod8_seven_of_mod32_last {n : ℕ} (h : n % 32 = 31) : n % 8 = 7 := by omega

/-! ## What each case leaves in each buffer it stores into -/

/-- Case A's pieces for scratch buffer 0 are whole-buffer stores, so they cover it. -/
theorem scover0_A_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (y : S512x1024.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).1 S512x1024.size (by sl_kernel_rfl) y

/-- What case A leaves in scratch buffer 0: its pieces read back. -/
def sout0_A_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) : Vec F S512x1024 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).1)

/-- Case A's pieces for scratch buffer 1 are whole-buffer stores, so they cover it. -/
theorem scover0_A_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (y : S512x1024.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.1 S512x1024.size (by sl_kernel_rfl) y

/-- What case A leaves in scratch buffer 1: its pieces read back. -/
def sout0_A_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) : Vec F S512x1024 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.1)

/-- Case A's pieces for scratch buffer 2 are whole-buffer stores, so they cover it. -/
theorem scover0_A_2 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (y : S512x1.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.2.1 S512x1.size (by sl_kernel_rfl) y

/-- What case A leaves in scratch buffer 2: its pieces read back. -/
def sout0_A_2 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) : Vec F S512x1 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.2.1)

/-- Case A's pieces for scratch buffer 3 are whole-buffer stores, so they cover it. -/
theorem scover0_A_3 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (y : S512x1.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.2.2.1 S512x1.size (by sl_kernel_rfl) y

/-- What case A leaves in scratch buffer 3: its pieces read back. -/
def sout0_A_3 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) : Vec F S512x1 .f32 :=
  VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4).2.2.2.1)

/-- Case B's pieces for scratch buffer 0 are whole-buffer stores, so they cover it. -/
theorem scover0_B_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (y : S512x1024.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4).1 S512x1024.size (by sl_kernel_rfl) y

/-- What case B leaves in scratch buffer 0: its pieces read back. -/
def sout0_B_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) : Vec F S512x1024 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4).1)

/-- Case B's pieces for scratch buffer 1 are whole-buffer stores, so they cover it. -/
theorem scover0_B_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (y : S512x1024.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4).2.1 S512x1024.size (by sl_kernel_rfl) y

/-- What case B leaves in scratch buffer 1: its pieces read back. -/
def sout0_B_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) : Vec F S512x1024 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4).2.1)

/-- Case C's pieces for scratch buffer 0 are whole-buffer stores, so they cover it. -/
theorem scover0_C_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (y : S512x1024.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1).1 S512x1024.size (by sl_kernel_rfl) y

/-- What case C leaves in scratch buffer 0: its pieces read back. -/
def sout0_C_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) : Vec F S512x1024 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1).1)

/-- Case C's pieces for scratch buffer 1 are whole-buffer stores, so they cover it. -/
theorem scover0_C_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (y : S512x1024.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1).2.1 S512x1024.size (by sl_kernel_rfl) y

/-- What case C leaves in scratch buffer 1: its pieces read back. -/
def sout0_C_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) : Vec F S512x1024 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1).2.1)

/-- Case D's pieces for scratch buffer 0 are whole-buffer stores, so they cover it. -/
theorem scover0_D_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1024.Idx) :
    ∃ pc ∈ (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).1 S512x1024.size (by sl_kernel_rfl) y

/-- What case D leaves in scratch buffer 0: its pieces read back. -/
def sout0_D_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1024 .f32 :=
  VS0_0.read (Elt F) (VS0_0.writes (Elt F) VS0_0.junk (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).1)

/-- Case D's pieces for scratch buffer 1 are whole-buffer stores, so they cover it. -/
theorem scover0_D_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1024.Idx) :
    ∃ pc ∈ (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.1 S512x1024.size (by sl_kernel_rfl) y

/-- What case D leaves in scratch buffer 1: its pieces read back. -/
def sout0_D_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1024 .f32 :=
  VS0_1.read (Elt F) (VS0_1.writes (Elt F) VS0_1.junk (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.1)

/-- Case D's pieces for scratch buffer 2 are whole-buffer stores, so they cover it. -/
theorem scover0_D_2 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1.Idx) :
    ∃ pc ∈ (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.1 S512x1.size (by sl_kernel_rfl) y

/-- What case D leaves in scratch buffer 2: its pieces read back. -/
def sout0_D_2 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1 .f32 :=
  VS0_2.read (Elt F) (VS0_2.writes (Elt F) VS0_2.junk (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.1)

/-- Case D's pieces for scratch buffer 3 are whole-buffer stores, so they cover it. -/
theorem scover0_D_3 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1.Idx) :
    ∃ pc ∈ (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.1 S512x1.size (by sl_kernel_rfl) y

/-- What case D leaves in scratch buffer 3: its pieces read back. -/
def sout0_D_3 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1 .f32 :=
  VS0_3.read (Elt F) (VS0_3.writes (Elt F) VS0_3.junk (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.1)

/-- Case E's pieces for output 5's staging buffer are whole-buffer stores, so they cover it. -/
theorem cover0_E_5 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1.Idx) :
    ∃ pc ∈ (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).1 S512x1.size (by sl_kernel_rfl) y

/-- What case E leaves in output 5's staging buffer: its pieces read back. -/
def out0_E_5 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1 .f32 :=
  VO0_5.read (Elt F) (VO0_5.writes (Elt F) VO0_5.junk (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).1)

/-- Case E's pieces for output 6's staging buffer are whole-buffer stores, so they cover it. -/
theorem cover0_E_6 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1.Idx) :
    ∃ pc ∈ (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.1 S512x1.size (by sl_kernel_rfl) y

/-- What case E leaves in output 6's staging buffer: its pieces read back. -/
def out0_E_6 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1 .f32 :=
  VO0_6.read (Elt F) (VO0_6.writes (Elt F) VO0_6.junk (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.1)

/-- Case E's pieces for scratch buffer 0 are whole-buffer stores, so they cover it. -/
theorem scover0_E_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1024.Idx) :
    ∃ pc ∈ (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.1 S512x1024.size (by sl_kernel_rfl) y

/-- What case E leaves in scratch buffer 0: its pieces read back. -/
def sout0_E_0 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1024 .f32 :=
  VS0_0.read (Elt F) (VS0_0.writes (Elt F) VS0_0.junk (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.1)

/-- Case E's pieces for scratch buffer 1 are whole-buffer stores, so they cover it. -/
theorem scover0_E_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1024.Idx) :
    ∃ pc ∈ (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.1 S512x1024.size (by sl_kernel_rfl) y

/-- What case E leaves in scratch buffer 1: its pieces read back. -/
def sout0_E_1 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1024 .f32 :=
  VS0_1.read (Elt F) (VS0_1.writes (Elt F) VS0_1.junk (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.1)

/-- Case E's pieces for scratch buffer 2 are whole-buffer stores, so they cover it. -/
theorem scover0_E_2 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1.Idx) :
    ∃ pc ∈ (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.2.1 S512x1.size (by sl_kernel_rfl) y

/-- What case E leaves in scratch buffer 2: its pieces read back. -/
def sout0_E_2 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1 .f32 :=
  VS0_2.read (Elt F) (VS0_2.writes (Elt F) VS0_2.junk (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.2.1)

/-- Case E's pieces for scratch buffer 3 are whole-buffer stores, so they cover it. -/
theorem scover0_E_3 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) (y : S512x1.Idx) :
    ∃ pc ∈ (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.2.2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.2.2.1 S512x1.size (by sl_kernel_rfl) y

/-- What case E leaves in scratch buffer 3: its pieces read back. -/
def sout0_E_3 (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) : Vec F S512x1 .f32 :=
  VS0_3.read (Elt F) (VS0_3.writes (Elt F) VS0_3.junk (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3).2.2.2.2.2.1)

/-- A placeholder for an output's staging buffer at a point that stores nothing into it: nothing consults it, since
    there the block is neither written back nor read at the next point. -/
def idle0_5 : Vec F S512x1 .f32 := VO0_5.read (Elt F) VO0_5.junk
def idle0_6 : Vec F S512x1 .f32 := VO0_6.read (Elt F) VO0_6.junk

/-! ## What the buffers hold after each point -/

/-- The contents after a point: the two outputs' staging buffers, then the four scratch buffers. -/
abbrev St0 (F : FTy → Type) : Type := (Vec F S512x1 .f32 × Vec F S512x1 .f32) × (Vec F S512x1024 .f32 × Vec F S512x1024 .f32 × Vec F S512x1 .f32 × Vec F S512x1 .f32)

/-- The accumulation.  What the outputs' staging buffers and the four carried scratch buffers hold after the body at
    position n: the case the residues of n select, run at the point's memrefs and input blocks, a scratch buffer the
    case reads at what position n - 1 left in it, a scratch buffer the case does not touch still at what position
    n - 1 left in it. -/
def outsAt0 (c : Dev nD) : (n : ℕ) → n < cfg0.N → St0 F
  | 0, hn =>
        ((idle0_5, idle0_6),
          (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (mod8_zero_of_mod32_zero (Nat.zero_mod _))) (fun h => (mod8_ne_seven_of_zero (mod8_zero_of_mod32_zero (Nat.zero_mod _))) ((hcond0_2 ⟨0, hn⟩).mp h)) (fun h => (mod32_ne_last_of_mod8_zero (mod8_zero_of_mod32_zero (Nat.zero_mod _))) ((hcond0_3 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
           sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (mod8_zero_of_mod32_zero (Nat.zero_mod _))) (fun h => (mod8_ne_seven_of_zero (mod8_zero_of_mod32_zero (Nat.zero_mod _))) ((hcond0_2 ⟨0, hn⟩).mp h)) (fun h => (mod32_ne_last_of_mod8_zero (mod8_zero_of_mod32_zero (Nat.zero_mod _))) ((hcond0_3 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
           sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (mod8_zero_of_mod32_zero (Nat.zero_mod _))) (fun h => (mod8_ne_seven_of_zero (mod8_zero_of_mod32_zero (Nat.zero_mod _))) ((hcond0_2 ⟨0, hn⟩).mp h)) (fun h => (mod32_ne_last_of_mod8_zero (mod8_zero_of_mod32_zero (Nat.zero_mod _))) ((hcond0_3 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
           sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (mod8_zero_of_mod32_zero (Nat.zero_mod _))) (fun h => (mod8_ne_seven_of_zero (mod8_zero_of_mod32_zero (Nat.zero_mod _))) ((hcond0_2 ⟨0, hn⟩).mp h)) (fun h => (mod32_ne_last_of_mod8_zero (mod8_zero_of_mod32_zero (Nat.zero_mod _))) ((hcond0_3 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩)))
  | n + 1, hn =>
    if h0 : (n + 1) % 32 = 0 then
        ((idle0_5, idle0_6),
          (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr (mod8_zero_of_mod32_zero h0)) (fun h => (mod8_ne_seven_of_zero (mod8_zero_of_mod32_zero h0)) ((hcond0_2 ⟨n + 1, hn⟩).mp h)) (fun h => (mod32_ne_last_of_mod8_zero (mod8_zero_of_mod32_zero h0)) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
           sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr (mod8_zero_of_mod32_zero h0)) (fun h => (mod8_ne_seven_of_zero (mod8_zero_of_mod32_zero h0)) ((hcond0_2 ⟨n + 1, hn⟩).mp h)) (fun h => (mod32_ne_last_of_mod8_zero (mod8_zero_of_mod32_zero h0)) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
           sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr (mod8_zero_of_mod32_zero h0)) (fun h => (mod8_ne_seven_of_zero (mod8_zero_of_mod32_zero h0)) ((hcond0_2 ⟨n + 1, hn⟩).mp h)) (fun h => (mod32_ne_last_of_mod8_zero (mod8_zero_of_mod32_zero h0)) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
           sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr (mod8_zero_of_mod32_zero h0)) (fun h => (mod8_ne_seven_of_zero (mod8_zero_of_mod32_zero h0)) ((hcond0_2 ⟨n + 1, hn⟩).mp h)) (fun h => (mod32_ne_last_of_mod8_zero (mod8_zero_of_mod32_zero h0)) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)))
    else if h1 : (n + 1) % 8 = 0 then
        ((idle0_5, idle0_6),
          (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => (mod8_ne_seven_of_zero h1) ((hcond0_2 ⟨n + 1, hn⟩).mp h)) (fun h => (mod32_ne_last_of_mod8_zero h1) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
           sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => (mod8_ne_seven_of_zero h1) ((hcond0_2 ⟨n + 1, hn⟩).mp h)) (fun h => (mod32_ne_last_of_mod8_zero h1) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
           (outsAt0 c n (Nat.lt_of_succ_lt hn)).2.2.2.1,
           (outsAt0 c n (Nat.lt_of_succ_lt hn)).2.2.2.2))
    else if h2 : (n + 1) % 8 = 7 then
      if h3 : (n + 1) % 32 = 31 then
        ((out0_E_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 ⟨n + 1, hn⟩).mp h)) (fun h => (mod8_ne_zero_of_seven (mod8_seven_of_mod32_last h3)) ((hcond0_1 ⟨n + 1, hn⟩).mp h)) ((hcond0_2 ⟨n + 1, hn⟩).mpr (mod8_seven_of_mod32_last h3)) ((hcond0_3 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_E_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 ⟨n + 1, hn⟩).mp h)) (fun h => (mod8_ne_zero_of_seven (mod8_seven_of_mod32_last h3)) ((hcond0_1 ⟨n + 1, hn⟩).mp h)) ((hcond0_2 ⟨n + 1, hn⟩).mpr (mod8_seven_of_mod32_last h3)) ((hcond0_3 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2),
          (sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 ⟨n + 1, hn⟩).mp h)) (fun h => (mod8_ne_zero_of_seven (mod8_seven_of_mod32_last h3)) ((hcond0_1 ⟨n + 1, hn⟩).mp h)) ((hcond0_2 ⟨n + 1, hn⟩).mpr (mod8_seven_of_mod32_last h3)) ((hcond0_3 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
           sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 ⟨n + 1, hn⟩).mp h)) (fun h => (mod8_ne_zero_of_seven (mod8_seven_of_mod32_last h3)) ((hcond0_1 ⟨n + 1, hn⟩).mp h)) ((hcond0_2 ⟨n + 1, hn⟩).mpr (mod8_seven_of_mod32_last h3)) ((hcond0_3 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
           sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 ⟨n + 1, hn⟩).mp h)) (fun h => (mod8_ne_zero_of_seven (mod8_seven_of_mod32_last h3)) ((hcond0_1 ⟨n + 1, hn⟩).mp h)) ((hcond0_2 ⟨n + 1, hn⟩).mpr (mod8_seven_of_mod32_last h3)) ((hcond0_3 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
           sout0_E_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 ⟨n + 1, hn⟩).mp h)) (fun h => (mod8_ne_zero_of_seven (mod8_seven_of_mod32_last h3)) ((hcond0_1 ⟨n + 1, hn⟩).mp h)) ((hcond0_2 ⟨n + 1, hn⟩).mpr (mod8_seven_of_mod32_last h3)) ((hcond0_3 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2))
      else
        ((idle0_5, idle0_6),
          (sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 ⟨n + 1, hn⟩).mp h)) (fun h => (mod8_ne_zero_of_seven h2) ((hcond0_1 ⟨n + 1, hn⟩).mp h)) ((hcond0_2 ⟨n + 1, hn⟩).mpr h2) (fun h => h3 ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
           sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 ⟨n + 1, hn⟩).mp h)) (fun h => (mod8_ne_zero_of_seven h2) ((hcond0_1 ⟨n + 1, hn⟩).mp h)) ((hcond0_2 ⟨n + 1, hn⟩).mpr h2) (fun h => h3 ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
           sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 ⟨n + 1, hn⟩).mp h)) (fun h => (mod8_ne_zero_of_seven h2) ((hcond0_1 ⟨n + 1, hn⟩).mp h)) ((hcond0_2 ⟨n + 1, hn⟩).mpr h2) (fun h => h3 ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
           sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 ⟨n + 1, hn⟩).mp h)) (fun h => (mod8_ne_zero_of_seven h2) ((hcond0_1 ⟨n + 1, hn⟩).mp h)) ((hcond0_2 ⟨n + 1, hn⟩).mpr h2) (fun h => h3 ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2))
    else
        ((idle0_5, idle0_6),
          (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero h1) ((hcond0_0 ⟨n + 1, hn⟩).mp h)) (fun h => h1 ((hcond0_1 ⟨n + 1, hn⟩).mp h)) (fun h => h2 ((hcond0_2 ⟨n + 1, hn⟩).mp h)) (fun h => (mod32_ne_last_of_mod8_ne_seven h2) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1,
           sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => (mod32_ne_zero_of_mod8_ne_zero h1) ((hcond0_0 ⟨n + 1, hn⟩).mp h)) (fun h => h1 ((hcond0_1 ⟨n + 1, hn⟩).mp h)) (fun h => h2 ((hcond0_2 ⟨n + 1, hn⟩).mp h)) (fun h => (mod32_ne_last_of_mod8_ne_seven h2) ((hcond0_3 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1,
           (outsAt0 c n (Nat.lt_of_succ_lt hn)).2.2.2.1,
           (outsAt0 c n (Nat.lt_of_succ_lt hn)).2.2.2.2))

/-- The contents after a point of case A. -/
theorem outsAt0_A (c : Dev nD) (t : Fin cfg0.N) (h0 : t.val % 32 = 0) :
    outsAt0 V c t.val t.isLt =
        ((idle0_5, idle0_6),
          (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr (mod8_zero_of_mod32_zero h0)) (fun h => (mod8_ne_seven_of_zero (mod8_zero_of_mod32_zero h0)) ((hcond0_2 t).mp h)) (fun h => (mod32_ne_last_of_mod8_zero (mod8_zero_of_mod32_zero h0)) ((hcond0_3 t).mp h)) (iblk0 V c 0 t) (iblk0 V c 1 t) (iblk0 V c 2 t) (iblk0 V c 3 t) (iblk0 V c 4 t),
           sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr (mod8_zero_of_mod32_zero h0)) (fun h => (mod8_ne_seven_of_zero (mod8_zero_of_mod32_zero h0)) ((hcond0_2 t).mp h)) (fun h => (mod32_ne_last_of_mod8_zero (mod8_zero_of_mod32_zero h0)) ((hcond0_3 t).mp h)) (iblk0 V c 0 t) (iblk0 V c 1 t) (iblk0 V c 2 t) (iblk0 V c 3 t) (iblk0 V c 4 t),
           sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr (mod8_zero_of_mod32_zero h0)) (fun h => (mod8_ne_seven_of_zero (mod8_zero_of_mod32_zero h0)) ((hcond0_2 t).mp h)) (fun h => (mod32_ne_last_of_mod8_zero (mod8_zero_of_mod32_zero h0)) ((hcond0_3 t).mp h)) (iblk0 V c 0 t) (iblk0 V c 1 t) (iblk0 V c 2 t) (iblk0 V c 3 t) (iblk0 V c 4 t),
           sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr (mod8_zero_of_mod32_zero h0)) (fun h => (mod8_ne_seven_of_zero (mod8_zero_of_mod32_zero h0)) ((hcond0_2 t).mp h)) (fun h => (mod32_ne_last_of_mod8_zero (mod8_zero_of_mod32_zero h0)) ((hcond0_3 t).mp h)) (iblk0 V c 0 t) (iblk0 V c 1 t) (iblk0 V c 2 t) (iblk0 V c 3 t) (iblk0 V c 4 t))) := by
  obtain ⟨n, hn⟩ := t
  cases n with
  | zero => exact rfl
  | succ n => exact (dif_pos h0).trans rfl

/-- The contents after a point of case B, over what the point before left. -/
theorem outsAt0_B (c : Dev nD) (t : Fin cfg0.N) (h0 : ¬t.val % 32 = 0) (h1 : t.val % 8 = 0) :
    outsAt0 V c t.val t.isLt =
        ((idle0_5, idle0_6),
          (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => (mod8_ne_seven_of_zero h1) ((hcond0_2 t).mp h)) (fun h => (mod32_ne_last_of_mod8_zero h1) ((hcond0_3 t).mp h)) (iblk0 V c 0 t) (iblk0 V c 1 t) (iblk0 V c 2 t) (iblk0 V c 3 t) (iblk0 V c 4 t),
           sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => (mod8_ne_seven_of_zero h1) ((hcond0_2 t).mp h)) (fun h => (mod32_ne_last_of_mod8_zero h1) ((hcond0_3 t).mp h)) (iblk0 V c 0 t) (iblk0 V c 1 t) (iblk0 V c 2 t) (iblk0 V c 3 t) (iblk0 V c 4 t),
           (outsAt0 V c (t.val - 1) (Nat.lt_of_le_of_lt (Nat.sub_le _ _) t.isLt)).2.2.2.1,
           (outsAt0 V c (t.val - 1) (Nat.lt_of_le_of_lt (Nat.sub_le _ _) t.isLt)).2.2.2.2)) := by
  obtain ⟨n, hn⟩ := t
  cases n with
  | zero => exact (by exfalso; revert h0; show ¬¬(0 % 32 = 0); decide)
  | succ n => exact (dif_neg h0).trans ((dif_pos h1).trans rfl)

/-- The contents after a point of case C, over what the point before left. -/
theorem outsAt0_C (c : Dev nD) (t : Fin cfg0.N) (h1 : ¬t.val % 8 = 0) (h2 : ¬t.val % 8 = 7) :
    outsAt0 V c t.val t.isLt =
        ((idle0_5, idle0_6),
          (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero h1) ((hcond0_0 t).mp h)) (fun h => h1 ((hcond0_1 t).mp h)) (fun h => h2 ((hcond0_2 t).mp h)) (fun h => (mod32_ne_last_of_mod8_ne_seven h2) ((hcond0_3 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1,
           sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero h1) ((hcond0_0 t).mp h)) (fun h => h1 ((hcond0_1 t).mp h)) (fun h => h2 ((hcond0_2 t).mp h)) (fun h => (mod32_ne_last_of_mod8_ne_seven h2) ((hcond0_3 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1,
           (outsAt0 V c (t.val - 1) (Nat.lt_of_le_of_lt (Nat.sub_le _ _) t.isLt)).2.2.2.1,
           (outsAt0 V c (t.val - 1) (Nat.lt_of_le_of_lt (Nat.sub_le _ _) t.isLt)).2.2.2.2)) := by
  obtain ⟨n, hn⟩ := t
  cases n with
  | zero => exact (by exfalso; revert h1; show ¬¬(0 % 8 = 0); decide)
  | succ n => exact (dif_neg (mod32_ne_zero_of_mod8_ne_zero h1)).trans ((dif_neg h1).trans ((dif_neg h2).trans rfl))

/-- The contents after a point of case D, over what the point before left. -/
theorem outsAt0_D (c : Dev nD) (t : Fin cfg0.N) (h2 : t.val % 8 = 7) (h3 : ¬t.val % 32 = 31) :
    outsAt0 V c t.val t.isLt =
        ((idle0_5, idle0_6),
          (sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 t).mp h)) (fun h => (mod8_ne_zero_of_seven h2) ((hcond0_1 t).mp h)) ((hcond0_2 t).mpr h2) (fun h => h3 ((hcond0_3 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
           sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 t).mp h)) (fun h => (mod8_ne_zero_of_seven h2) ((hcond0_1 t).mp h)) ((hcond0_2 t).mpr h2) (fun h => h3 ((hcond0_3 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
           sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 t).mp h)) (fun h => (mod8_ne_zero_of_seven h2) ((hcond0_1 t).mp h)) ((hcond0_2 t).mpr h2) (fun h => h3 ((hcond0_3 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
           sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven h2)) ((hcond0_0 t).mp h)) (fun h => (mod8_ne_zero_of_seven h2) ((hcond0_1 t).mp h)) ((hcond0_2 t).mpr h2) (fun h => h3 ((hcond0_3 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2)) := by
  obtain ⟨n, hn⟩ := t
  cases n with
  | zero => exact (by exfalso; revert h2; show ¬(0 % 8 = 7); decide)
  | succ n => exact (dif_neg (mod32_ne_zero_of_mod8_ne_zero (mod8_ne_zero_of_seven h2))).trans ((dif_neg (mod8_ne_zero_of_seven h2)).trans ((dif_pos h2).trans ((dif_neg h3).trans rfl)))

/-- The contents after a point of case E, over what the point before left. -/
theorem outsAt0_E (c : Dev nD) (t : Fin cfg0.N) (h3 : t.val % 32 = 31) :
    outsAt0 V c t.val t.isLt =
        ((out0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 t).mp h)) (fun h => (mod8_ne_zero_of_seven (mod8_seven_of_mod32_last h3)) ((hcond0_1 t).mp h)) ((hcond0_2 t).mpr (mod8_seven_of_mod32_last h3)) ((hcond0_3 t).mpr h3) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 t).mp h)) (fun h => (mod8_ne_zero_of_seven (mod8_seven_of_mod32_last h3)) ((hcond0_1 t).mp h)) ((hcond0_2 t).mpr (mod8_seven_of_mod32_last h3)) ((hcond0_3 t).mpr h3) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2),
          (sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 t).mp h)) (fun h => (mod8_ne_zero_of_seven (mod8_seven_of_mod32_last h3)) ((hcond0_1 t).mp h)) ((hcond0_2 t).mpr (mod8_seven_of_mod32_last h3)) ((hcond0_3 t).mpr h3) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
           sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 t).mp h)) (fun h => (mod8_ne_zero_of_seven (mod8_seven_of_mod32_last h3)) ((hcond0_1 t).mp h)) ((hcond0_2 t).mpr (mod8_seven_of_mod32_last h3)) ((hcond0_3 t).mpr h3) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
           sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 t).mp h)) (fun h => (mod8_ne_zero_of_seven (mod8_seven_of_mod32_last h3)) ((hcond0_1 t).mp h)) ((hcond0_2 t).mpr (mod8_seven_of_mod32_last h3)) ((hcond0_3 t).mpr h3) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
           sout0_E_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => (mod32_ne_zero_of_mod8_ne_zero (mod8_ne_zero_of_seven (mod8_seven_of_mod32_last h3))) ((hcond0_0 t).mp h)) (fun h => (mod8_ne_zero_of_seven (mod8_seven_of_mod32_last h3)) ((hcond0_1 t).mp h)) ((hcond0_2 t).mpr (mod8_seven_of_mod32_last h3)) ((hcond0_3 t).mpr h3) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2)) := by
  obtain ⟨n, hn⟩ := t
  cases n with
  | zero => exact (by exfalso; revert h3; show ¬(0 % 32 = 31); decide)
  | succ n => exact (dif_neg (mod32_ne_zero_of_mod8_ne_zero (mod8_ne_zero_of_seven (mod8_seven_of_mod32_last h3)))).trans ((dif_neg (mod8_ne_zero_of_seven (mod8_seven_of_mod32_last h3))).trans ((dif_pos (mod8_seven_of_mod32_last h3)).trans ((dif_pos h3).trans rfl)))

/-! ## The region's invariant -/

/-- The invariant before position n: before the first point what the launch hands the region (every scratch buffer at
    anything); afterwards the same with the four carried scratch buffers at what the point before left in them. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2.1 ∗ owns (c : Thread nD τ) scM0_3 fullShare (outsAt0 V c n hn).2.2.2.2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point n (before point n + 1): the carried scratch buffers at that point's contents. -/
theorem PhiS0_succ (c : Dev nD) (n : ℕ) (hn : n < cfg0.N) :
    PhiS0 V c (n + 1) hn = iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2.1 ∗ owns (c : Thread nD τ) scM0_3 fullShare (outsAt0 V c n hn).2.2.2.2 ∗ rest0 (F := F) c) ∗ (∃ r, prngReg c r)) := rfl

/-- Before a point that is not the first: the carried scratch buffers at what the point before left. -/
theorem PhiS0_pos (c : Dev nD) (n : ℕ) (h : n ≤ cfg0.N) (hz : n ≠ 0) :
    PhiS0 V c n h = iprop(iprop(owns (c : Thread nD τ) scM0_0 fullShare (outsAt0 V c (n - 1) (by omega)).2.1 ∗ owns (c : Thread nD τ) scM0_1 fullShare (outsAt0 V c (n - 1) (by omega)).2.2.1 ∗ owns (c : Thread nD τ) scM0_2 fullShare (outsAt0 V c (n - 1) (by omega)).2.2.2.1 ∗ owns (c : Thread nD τ) scM0_3 fullShare (outsAt0 V c (n - 1) (by omega)).2.2.2.2 ∗ rest0 (F := F) c) ∗ (∃ r, prngReg c r)) := by
  cases n with
  | zero => exact absurd rfl hz
  | succ n => rfl

/-! ## The pipeline's proof data -/

/-- The proof data of the first pipeline on core c: the arrays as the region finds them; after the body at point t each
    input's buffer at its block and the outputs' at the accumulation's components; the invariant above; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1.1
    | ⟨6, _⟩ => (outsAt0 V c t.val t.isLt).1.2
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1.1 := by dsimp only [dat0]
theorem after0_6 (c : Dev nD) (t : Fin cfg0.N) : (dat0 V c).after 6 t = (outsAt0 V c t.val t.isLt).1.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 16000000 in
/-- The body at any point.  The inputs' memrefs hold their blocks; the residues of the point's number say which case it
    is in; the invariant hands the body the scratch buffers at what the point before left (at anything at the very
    first point) and takes each back at this point's contents — a buffer the case stores into whole by the cover of
    its pieces, a buffer it does not touch as it was; an output the case does not store into goes back as it came;
    the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 512 := lt_of_lt_of_eq t.isLt (show cfg0.N = 512 from N_0)
  by_cases h0 : t.val % 32 = 0
  · -- the first point of a row block
    have hc0 : cond0_0 (grid0.coords t) := (hcond0_0 t).mpr h0
    have hc1 : cond0_1 (grid0.coords t) := (hcond0_1 t).mpr (mod8_zero_of_mod32_zero h0)
    have hc2 : ¬cond0_2 (grid0.coords t) := fun h => (mod8_ne_seven_of_zero (mod8_zero_of_mod32_zero h0)) ((hcond0_2 t).mp h)
    have hc3 : ¬cond0_3 (grid0.coords t) := fun h => (mod32_ne_last_of_mod8_zero (mod8_zero_of_mod32_zero h0)) ((hcond0_3 t).mp h)
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [Dat.leavesExact_idle (dat0 V c) 5 t (idleAt0_5 t hc3) (noFlush0_5 t hc3)]
    rw [Dat.leavesExact_idle (dat0 V c) 6 t (idleAt0_6 t hc3) (noFlush0_6 t hc3)]
    rw [outsAt0_A V c t h0]
    unfold sout0_A_0 sout0_A_1 sout0_A_2 sout0_A_3; (try dsimp only)
    by_cases hz : t.val = 0
    · rw [PhiS0_castSucc V c t, PhiS0_zero V c _ _ hz, PhiA0_eq]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ hc0 hc1 hc2 hc3 (iblk0 V c 0 t) (iblk0 V c 1 t) (iblk0 V c 2 t) (iblk0 V c 3 t) (iblk0 V c 4 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%e10, HS0⟩, ⟨%e11, HS1⟩, ⟨%e12, HS2⟩, ⟨%e13, HS3⟩⟩
      isplitl [HS0 HS1 HS2 HS3 HR Hg]
      · isplitl [HS0 HS1 HS2 HS3 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [PhiS0_castSucc V c t, PhiS0_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ hc0 hc1 hc2 hc3 (iblk0 V c 0 t) (iblk0 V c 1 t) (iblk0 V c 2 t) (iblk0 V c 3 t) (iblk0 V c 4 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%e10, HS0⟩, ⟨%e11, HS1⟩, ⟨%e12, HS2⟩, ⟨%e13, HS3⟩⟩
      isplitl [HS0 HS1 HS2 HS3 HR Hg]
      · isplitl [HS0 HS1 HS2 HS3 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · by_cases h1 : t.val % 8 = 0
    · -- the first point of a later sum over kk
      have hc0 : ¬cond0_0 (grid0.coords t) := fun h => h0 ((hcond0_0 t).mp h)
      have hc1 : cond0_1 (grid0.coords t) := (hcond0_1 t).mpr h1
      have hc2 : ¬cond0_2 (grid0.coords t) := fun h => (mod8_ne_seven_of_zero h1) ((hcond0_2 t).mp h)
      have hc3 : ¬cond0_3 (grid0.coords t) := fun h => (mod32_ne_last_of_mod8_zero h1) ((hcond0_3 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t hc3) (noFlush0_5 t hc3)]
      rw [Dat.leavesExact_idle (dat0 V c) 6 t (idleAt0_6 t hc3) (noFlush0_6 t hc3)]
      rw [outsAt0_B V c t h0 h1]
      unfold sout0_B_0 sout0_B_1; (try dsimp only)
      have hz : t.val ≠ 0 := fun h => h0 (by rw [h])
      rw [PhiS0_castSucc V c t, PhiS0_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ hc0 hc1 hc2 hc3 (iblk0 V c 0 t) (iblk0 V c 1 t) (iblk0 V c 2 t) (iblk0 V c 3 t) (iblk0 V c 4 t)).2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexact HS2
      isplitl [HS3]; · iexact HS3
      iintro ⟨H0, H1, H2, H3, H4, H5, H6, ⟨%e10, HS0⟩, ⟨%e11, HS1⟩, HS2, HS3⟩
      isplitl [HS0 HS1 HS2 HS3 HR Hg]
      · isplitl [HS0 HS1 HS2 HS3 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _)
          isplitl [HS2]
          · iexact HS2
          isplitl [HS3]
          · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · by_cases h2 : t.val % 8 = 7
      · by_cases h3 : t.val % 32 = 31
        · -- the last point of a row block
          have hc0 : ¬cond0_0 (grid0.coords t) := fun h => (mod32_ne_zero_of_mod8_ne_zero (mod8_ne_zero_of_seven (mod8_seven_of_mod32_last h3))) ((hcond0_0 t).mp h)
          have hc1 : ¬cond0_1 (grid0.coords t) := fun h => (mod8_ne_zero_of_seven (mod8_seven_of_mod32_last h3)) ((hcond0_1 t).mp h)
          have hc2 : cond0_2 (grid0.coords t) := (hcond0_2 t).mpr (mod8_seven_of_mod32_last h3)
          have hc3 : cond0_3 (grid0.coords t) := (hcond0_3 t).mpr h3
          rw [show (dat0 V c).leavesExact 0 t = owns (c : Thread nD τ) (ms0_0 t) fullShare ((dat0 V c).after 0 t) from by
            unfold Dat.leavesExact; rw [liveAt0_0 t], after0_0]
          rw [show (dat0 V c).leavesExact 1 t = owns (c : Thread nD τ) (ms0_1 t) fullShare ((dat0 V c).after 1 t) from by
            unfold Dat.leavesExact; rw [liveAt0_1 t], after0_1]
          rw [show (dat0 V c).leavesExact 2 t = owns (c : Thread nD τ) (ms0_2 t) fullShare ((dat0 V c).after 2 t) from by
            unfold Dat.leavesExact; rw [liveAt0_2 t], after0_2]
          rw [show (dat0 V c).leavesExact 3 t = owns (c : Thread nD τ) (ms0_3 t) fullShare ((dat0 V c).after 3 t) from by
            unfold Dat.leavesExact; rw [liveAt0_3 t], after0_3]
          rw [show (dat0 V c).leavesExact 4 t = owns (c : Thread nD τ) (ms0_4 t) fullShare ((dat0 V c).after 4 t) from by
            unfold Dat.leavesExact; rw [liveAt0_4 t], after0_4]
          rw [show (dat0 V c).leavesExact 5 t = owns (c : Thread nD τ) (ms0_5 t) fullShare ((dat0 V c).after 5 t) from by
            unfold Dat.leavesExact; rw [liveAt0_5 t hc3], after0_5]
          rw [show (dat0 V c).leavesExact 6 t = owns (c : Thread nD τ) (ms0_6 t) fullShare ((dat0 V c).after 6 t) from by
            unfold Dat.leavesExact; rw [liveAt0_6 t hc3], after0_6]
          rw [outsAt0_E V c t h3]
          unfold out0_E_5 out0_E_6 sout0_E_0 sout0_E_1 sout0_E_2 sout0_E_3; (try dsimp only)
          have hz : t.val ≠ 0 := fun h => h1 (by rw [h])
          rw [PhiS0_castSucc V c t, PhiS0_pos V c _ _ hz]
          iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_E c (grid0.coords t) _ _ _ _ _ _ _ _ _ _ _ _ _ _ _ _ _ _ _ _ _ _ hc0 hc1 hc2 hc3 (iblk0 V c 0 t) (iblk0 V c 1 t) (iblk0 V c 2 t) (iblk0 V c 3 t) (iblk0 V c 4 t) _ _ _ _).2.2.2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [HS0]; · iexact HS0
          isplitl [HS1]; · iexact HS1
          isplitl [HS2]; · iexact HS2
          isplitl [HS3]; · iexact HS3
          iintro ⟨H0, H1, H2, H3, H4, ⟨%e8, H5⟩, ⟨%e9, H6⟩, ⟨%e10, HS0⟩, ⟨%e11, HS1⟩, ⟨%e12, HS2⟩, ⟨%e13, HS3⟩⟩
          isplitl [HS0 HS1 HS2 HS3 HR Hg]
          · isplitl [HS0 HS1 HS2 HS3 HR]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_E_1 c _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_E_2 c _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_E_3 c _ _ _ _ _ _ _ _ _ _ _ _ _ _ _ _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_E_5 c _ _ _ _ _ _ _ _ _ _ _ _ _ _ _ _ _ _ _ _ _ _ _ _ _ _ _ _ _ _ _ _ _ _ _ _)
          unfold owns; iexists _; isplitr
          swap; · iexact H6
          ipureintro; exact View.read_writes_of_cover _ _ _ _ _ (cover0_E_6 c _ _ _ _ _ _ _ _ _ _ _ _ _ _ _ _ _ _ _ _ _ _ _ _ _ _ _ _ _ _ _ _ _ _ _ _)
        · -- the last point of a sum over kk inside a row block
          have hc0 : ¬cond0_0 (grid0.coords t) := fun h => (mod32_ne_zero_of_mod8_ne_zero (mod8_ne_zero_of_seven h2)) ((hcond0_0 t).mp h)
          have hc1 : ¬cond0_1 (grid0.coords t) := fun h => (mod8_ne_zero_of_seven h2) ((hcond0_1 t).mp h)
          have hc2 : cond0_2 (grid0.coords t) := (hcond0_2 t).mpr h2
          have hc3 : ¬cond0_3 (grid0.coords t) := fun h => h3 ((hcond0_3 t).mp h)
          rw [show (dat0 V c).leavesExact 0 t = owns (c : Thread nD τ) (ms0_0 t) fullShare ((dat0 V c).after 0 t) from by
            unfold Dat.leavesExact; rw [liveAt0_0 t], after0_0]
          rw [show (dat0 V c).leavesExact 1 t = owns (c : Thread nD τ) (ms0_1 t) fullShare ((dat0 V c).after 1 t) from by
            unfold Dat.leavesExact; rw [liveAt0_1 t], after0_1]
          rw [show (dat0 V c).leavesExact 2 t = owns (c : Thread nD τ) (ms0_2 t) fullShare ((dat0 V c).after 2 t) from by
            unfold Dat.leavesExact; rw [liveAt0_2 t], after0_2]
          rw [show (dat0 V c).leavesExact 3 t = owns (c : Thread nD τ) (ms0_3 t) fullShare ((dat0 V c).after 3 t) from by
            unfold Dat.leavesExact; rw [liveAt0_3 t], after0_3]
          rw [show (dat0 V c).leavesExact 4 t = owns (c : Thread nD τ) (ms0_4 t) fullShare ((dat0 V c).after 4 t) from by
            unfold Dat.leavesExact; rw [liveAt0_4 t], after0_4]
          rw [Dat.leavesExact_idle (dat0 V c) 5 t (idleAt0_5 t hc3) (noFlush0_5 t hc3)]
          rw [Dat.leavesExact_idle (dat0 V c) 6 t (idleAt0_6 t hc3) (noFlush0_6 t hc3)]
          rw [outsAt0_D V c t h2 h3]
          unfold sout0_D_0 sout0_D_1 sout0_D_2 sout0_D_3; (try dsimp only)
          have hz : t.val ≠ 0 := fun h => h1 (by rw [h])
          rw [PhiS0_castSucc V c t, PhiS0_pos V c _ _ hz]
          iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_D c (grid0.coords t) _ _ _ _ _ _ _ _ _ _ _ _ _ _ _ _ _ _ _ _ _ _ hc0 hc1 hc2 hc3 (iblk0 V c 0 t) (iblk0 V c 1 t) (iblk0 V c 2 t) (iblk0 V c 3 t) (iblk0 V c 4 t) _ _ _ _).2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexact HS0
          isplitl [HS1]; · iexact HS1
          isplitl [HS2]; · iexact HS2
          isplitl [HS3]; · iexact HS3
          iintro ⟨H0, H1, H2, H3, H4, H5, H6, ⟨%e10, HS0⟩, ⟨%e11, HS1⟩, ⟨%e12, HS2⟩, ⟨%e13, HS3⟩⟩
          isplitl [HS0 HS1 HS2 HS3 HR Hg]
          · isplitl [HS0 HS1 HS2 HS3 HR]
            · isplitl [HS0]
              · unfold owns; iexists _; isplitr
                swap; · iexact HS0
                ipureintro; exact View.read_writes_of_cover _ _ _ _ _ (scover0_D_0 c _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_D_1 c _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_D_2 c _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_D_3 c _ _ _ _ _ _ _ _ _ _ _ _ _ _ _ _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexists _; iexact H5
          iexists _; iexact H6
      · -- a point inside a sum over kk
        have hc0 : ¬cond0_0 (grid0.coords t) := fun h => (mod32_ne_zero_of_mod8_ne_zero h1) ((hcond0_0 t).mp h)
        have hc1 : ¬cond0_1 (grid0.coords t) := fun h => h1 ((hcond0_1 t).mp h)
        have hc2 : ¬cond0_2 (grid0.coords t) := fun h => h2 ((hcond0_2 t).mp h)
        have hc3 : ¬cond0_3 (grid0.coords t) := fun h => (mod32_ne_last_of_mod8_ne_seven h2) ((hcond0_3 t).mp h)
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [show (dat0 V c).leavesExact 3 t = owns (c : Thread nD τ) (ms0_3 t) fullShare ((dat0 V c).after 3 t) from by
          unfold Dat.leavesExact; rw [liveAt0_3 t], after0_3]
        rw [show (dat0 V c).leavesExact 4 t = owns (c : Thread nD τ) (ms0_4 t) fullShare ((dat0 V c).after 4 t) from by
          unfold Dat.leavesExact; rw [liveAt0_4 t], after0_4]
        rw [Dat.leavesExact_idle (dat0 V c) 5 t (idleAt0_5 t hc3) (noFlush0_5 t hc3)]
        rw [Dat.leavesExact_idle (dat0 V c) 6 t (idleAt0_6 t hc3) (noFlush0_6 t hc3)]
        rw [outsAt0_C V c t h1 h2]
        unfold sout0_C_0 sout0_C_1; (try dsimp only)
        have hz : t.val ≠ 0 := fun h => h1 (by rw [h])
        rw [PhiS0_castSucc V c t, PhiS0_pos V c _ _ hz]
        iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ _ _ hc0 hc1 hc2 hc3 (iblk0 V c 0 t) (iblk0 V c 1 t) (iblk0 V c 2 t) (iblk0 V c 3 t) (iblk0 V c 4 t) _ _).2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, H4, H5, H6, ⟨%e10, HS0⟩, ⟨%e11, HS1⟩, HS2, HS3⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _)
            isplitl [HS2]
            · iexact HS2
            isplitl [HS3]
            · iexact HS3
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the scratch buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, HR⟩, Hg⟩
  isplitl [HS0 HS1 HS2 HS3 HR]
  · isplitl [HS0]; · iexists _; iexact HS0
    isplitl [HS1]; · iexists _; iexact HS1
    isplitl [HS2]; · iexists _; iexact HS2
    isplitl [HS3]; · iexists _; iexact HS3
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 512 := N_0; omega)

end Cert.KernelIdeal.R0

end
-- ==== Proof.K1Shared.lean ====
/- Region 1 (the second kernel: q = x·Wqᵀ accumulated over the eight contraction blocks, then the gain-normalised
   output q·kv / (1 + |q|·ksum) stored at the last block): what its three control cases share. A window's block at
   a grid point; that an input's staging buffer holds its block at every point; the two branch conditions on the
   innermost grid coordinate in closed form (first block: the point's number ≡ 0 mod 8; last block: ≡ 7 mod 8);
   where the output window is idle; the staging memrefs and the one scratch accumulator. -/
import proofs.«156116_j68702296867130_1_alg».proof.Proof.Gen.KernelIdeal.Launch
import proofs.«156116_j68702296867130_1_alg».proof.Proof.Gen.KernelIdeal.Skeleton
import proofs.«156116_j68702296867130_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional: the innermost coordinate is 0 (the accumulator is reset). -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional: the innermost coordinate is 7 (the output block is computed and stored). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the last-block conditional fails the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- Where it holds the output window is live. -/
theorem liveAt1_5 : ∀ t : Fin cfg1.N, cond1_1 (grid1.coords t) → cfg1.idle 5 (grid1.coords t) = false := by decide +kernel

/-! ## The staging memrefs and the scratch accumulator -/

abbrev VO1_5 : View sig .tc .vmem S512x1024 .f32 := (Memref.whole cc1_stg5_0 : Memref sig .tc .vmem S512x1024 .f32).view
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)
/-- The scratch accumulator: a whole scoped buffer of the kernel's own. -/
abbrev scM1_0 : Memref sig .tc .vmem S512x1024 .f32 := Memref.whole cc1_scratch0
abbrev VS1_0 : View sig .tc .vmem S512x1024 .f32 := scM1_0.view

end Cert.KernelIdeal.R1

end
-- ==== Proof.K1RunA.lean ====
/- Region 1, case A: the first contraction block (the accumulator is reset, then the first product added; no output). The body's triple on whole staging memrefs: the inputs
   are handed back as they were, the scratch accumulator with the stores' pieces written, the idle output's buffer untouched. The pieces are found by running the body symbolically. -/
import proofs.«156116_j68702296867130_1_alg».proof.Proof.K1Shared

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case A (first block, not last block). -/
noncomputable def kernelRun1_A (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : cond1_0 i) (hc1 : ¬cond1_1 i)
    (x0 : Vec F S512x512 .f32) (x1 : Vec F S1024x512 .f32) (x2 : Vec F S1x1024 .f32) (x3 : Vec F S512x1 .f32) (x4 : Vec F S512x1 .f32) :
    Σ' (L5 : List (View.Piece (Elt F) S512x1024 .f32)), { LS0 : List (View.Piece (Elt F) S512x1024 .f32) //
      ∀ (xi5 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__final_kernel i arg3 harg3 arg4 harg4 arg5 harg5 arg6 harg6 arg7 harg7 arg8 harg8 arg9 harg9) K } := by
  refine ⟨[], ?_, fun xi5 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.R1

end
-- ==== Proof.K1RunB.lean ====
/- Region 1, case B: a middle contraction block (one more product added to the accumulator; no output). The body's triple on whole staging memrefs: the inputs
   are handed back as they were, the scratch accumulator with the stores' pieces written, the idle output's buffer untouched. The pieces are found by running the body symbolically. -/
import proofs.«156116_j68702296867130_1_alg».proof.Proof.K1Shared

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case B (not first block, not last block). -/
noncomputable def kernelRun1_B (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : ¬cond1_1 i)
    (x0 : Vec F S512x512 .f32) (x1 : Vec F S1024x512 .f32) (x2 : Vec F S1x1024 .f32) (x3 : Vec F S512x1 .f32) (x4 : Vec F S512x1 .f32) (xs0 : Vec F S512x1024 .f32) :
    Σ' (L5 : List (View.Piece (Elt F) S512x1024 .f32)), { LS0 : List (View.Piece (Elt F) S512x1024 .f32) //
      ∀ (xi5 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__final_kernel i arg3 harg3 arg4 harg4 arg5 harg5 arg6 harg6 arg7 harg7 arg8 harg8 arg9 harg9) K } := by
  refine ⟨[], ?_, fun xi5 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.R1

end
-- ==== Proof.K1RunC.lean ====
/- Region 1, case C: the last contraction block (the last product added, then the output block computed from the accumulator, the bias row and the two row statistics, and stored). The body's triple on whole staging memrefs: the inputs
   are handed back as they were, the scratch accumulator with the stores' pieces written, the output's buffer with its piece written. The pieces are found by running the body symbolically. -/
import proofs.«156116_j68702296867130_1_alg».proof.Proof.K1Shared

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case C (not first block, last block). -/
noncomputable def kernelRun1_C (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : cond1_1 i)
    (x0 : Vec F S512x512 .f32) (x1 : Vec F S1024x512 .f32) (x2 : Vec F S1x1024 .f32) (x3 : Vec F S512x1 .f32) (x4 : Vec F S512x1 .f32) (xs0 : Vec F S512x1024 .f32) :
    Σ' (L5 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__final_kernel i arg3 harg3 arg4 harg4 arg5 harg5 arg6 harg6 arg7 harg7 arg8 harg8 arg9 harg9) K } := by
  refine ⟨?_, ?_, fun E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.R1

end
-- ==== Proof.K1Frame.lean ====
/- Region 1: what its buffers hold point by point, and the body obligation. After the body at a grid point the
   scratch accumulator holds the sum of the contraction blocks' products met so far in the current row-and-column tile
   (reset at the first block), and at the last block the output's staging buffer holds the gain-normalised tile; the
   region invariant carries the accumulator from each point to the next. -/
import proofs.«156116_j68702296867130_1_alg».proof.Proof.K1RunA
import proofs.«156116_j68702296867130_1_alg».proof.Proof.K1RunB
import proofs.«156116_j68702296867130_1_alg».proof.Proof.K1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scoped rest, with the scratch accumulator split off -/

/-- The core's scoped buffers other than this kernel's staging buffers and its scratch accumulator (the first kernel's
    staging and scratch buffers), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

theorem PhiA1_split (c : Dev nD) :
    (Pipeline.ΦA spec1 c : sProp 𝕄) ⊢ iprop((rest1 (F := F) c ∗ (∃ d, owns (c : Thread nD τ) scM1_0 fullShare d)) ∗ (∃ r, prngReg c r)) := by
  unfold Pipeline.ΦA rest1; rw [scopedRest1_eq]; simp only [scM1_0, owns_whole]
  iintro ⟨⟨R0, R1, R2, R3, R4, R5, R6, R7, R8, R9, R10, R11, R12, R13, R14, R15, R16, R17, HS⟩, Hg⟩
  isplitr [Hg]
  · isplitr [HS]
    ·
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      iexact R17
    · iexact HS
  · iexact Hg

theorem PhiA1_join (c : Dev nD) :
    iprop((rest1 (F := F) c ∗ (∃ d, owns (c : Thread nD τ) scM1_0 fullShare d)) ∗ (∃ r, prngReg c r)) ⊢ (Pipeline.ΦA spec1 c : sProp 𝕄) := by
  unfold Pipeline.ΦA rest1; rw [scopedRest1_eq]; simp only [scM1_0, owns_whole]
  iintro ⟨⟨⟨R0, R1, R2, R3, R4, R5, R6, R7, R8, R9, R10, R11, R12, R13, R14, R15, R16, R17⟩, HS⟩, Hg⟩
  isplitr [Hg]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    iexact HS
  · iexact Hg

/-! ## What each case leaves -/

/-- At a point where the output window is idle its staging buffer is neither written back nor read later: a placeholder. -/
def idle1_5 : Vec F S512x1024 .f32 := VO1_5.read (Elt F) VO1_5.junk

/-- Case A's stores into the scratch accumulator cover it. -/
theorem scover1_A_0 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : cond1_0 i) (hc1 : ¬cond1_1 i)
    (x0 : Vec F S512x512 .f32) (x1 : Vec F S1024x512 .f32) (x2 : Vec F S1x1024 .f32) (x3 : Vec F S512x1 .f32) (x4 : Vec F S512x1 .f32) (y : S512x1024.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S512x1024.size (by sl_kernel_rfl) y

/-- What case A leaves in the scratch accumulator: its pieces read back. -/
def sout1_A_0 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : cond1_0 i) (hc1 : ¬cond1_1 i)
    (x0 : Vec F S512x512 .f32) (x1 : Vec F S1024x512 .f32) (x2 : Vec F S1x1024 .f32) (x3 : Vec F S512x1 .f32) (x4 : Vec F S512x1 .f32) : Vec F S512x1024 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- Case B's stores into the scratch accumulator cover it. -/
theorem scover1_B_0 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : ¬cond1_1 i)
    (x0 : Vec F S512x512 .f32) (x1 : Vec F S1024x512 .f32) (x2 : Vec F S1x1024 .f32) (x3 : Vec F S512x1 .f32) (x4 : Vec F S512x1 .f32) (xs0 : Vec F S512x1024 .f32) (y : S512x1024.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S512x1024.size (by sl_kernel_rfl) y

/-- What case B leaves in the scratch accumulator: its pieces read back. -/
def sout1_B_0 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : ¬cond1_1 i)
    (x0 : Vec F S512x512 .f32) (x1 : Vec F S1024x512 .f32) (x2 : Vec F S1x1024 .f32) (x3 : Vec F S512x1 .f32) (x4 : Vec F S512x1 .f32) (xs0 : Vec F S512x1024 .f32) : Vec F S512x1024 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- Case C's stores into the scratch accumulator cover it. -/
theorem scover1_C_0 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : cond1_1 i)
    (x0 : Vec F S512x512 .f32) (x1 : Vec F S1024x512 .f32) (x2 : Vec F S1x1024 .f32) (x3 : Vec F S512x1 .f32) (x4 : Vec F S512x1 .f32) (xs0 : Vec F S512x1024 .f32) (y : S512x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S512x1024.size (by sl_kernel_rfl) y

/-- What case C leaves in the scratch accumulator: its pieces read back. -/
def sout1_C_0 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : cond1_1 i)
    (x0 : Vec F S512x512 .f32) (x1 : Vec F S1024x512 .f32) (x2 : Vec F S1x1024 .f32) (x3 : Vec F S512x1 .f32) (x4 : Vec F S512x1 .f32) (xs0 : Vec F S512x1024 .f32) : Vec F S512x1024 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-- Case C's store into the output's staging buffer covers it. -/
theorem cover1_C_5 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : cond1_1 i)
    (x0 : Vec F S512x512 .f32) (x1 : Vec F S1024x512 .f32) (x2 : Vec F S1x1024 .f32) (x3 : Vec F S512x1 .f32) (x4 : Vec F S512x1 .f32) (xs0 : Vec F S512x1024 .f32) (y : S512x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S512x1024.size (by sl_kernel_rfl) y

/-- What case C leaves in the output's staging buffer: its piece read back. -/
def out1_C_5 (c : Dev nD) (i : grid1.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : cond1_1 i)
    (x0 : Vec F S512x512 .f32) (x1 : Vec F S1024x512 .f32) (x2 : Vec F S1x1024 .f32) (x3 : Vec F S512x1 .f32) (x4 : Vec F S512x1 .f32) (xs0 : Vec F S512x1024 .f32) : Vec F S512x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-! ## What the buffers hold after each point -/

/-- After the body at position `n`: the output's staging buffer, then the scratch accumulator. The case is read off
    the position (≡ 0 mod 8: the first block; ≡ 7: the last; else a middle one); a later block starts from what the
    point before left in the accumulator. -/
def outsAt1 (c : Dev nD) : (n : ℕ) → n < cfg1.N → Vec F S512x1024 .f32 × Vec F S512x1024 .f32
  | 0, hn => (idle1_5, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (idle1_5, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (idle1_5, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (idle1_5, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (idle1_5, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point every scoped buffer at anything; afterwards the scratch accumulator at what
    the point before left, the other scoped buffers at anything, the generator register at some state. -/
def PhiS1 (c : Dev nD) : (n : ℕ) → n ≤ cfg1.N → sProp 𝕄
  | 0, _ => Pipeline.ΦA spec1 c
  | n + 1, hn => iprop((rest1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((rest1 (F := F) c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop((rest1 (F := F) c ∗ owns (c : Thread nD τ) scM1_0 fullShare ((outsAt1 V c (n - 1) (by omega)).2)) ∗ (∃ r, prngReg c r)) := by
  cases n with
  | zero => exact absurd rfl hz
  | succ n => rfl

/-! ## The proof data -/

/-- The arrays as the region finds them; after the body each input's buffer at its block, the output's and the
    accumulator at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' staging buffers hold their blocks; the point's number mod 8 says which case it
    is in; the invariant hands the body the accumulator at what the point before left (at anything at the first
    point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩, ⟨%d5, H5⟩⟩
        ihave HΦ' := (PhiA1_split (F := F) c) $$ HΦ
        icases HΦ' with ⟨⟨Hrest, HS0⟩, Hg⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg Hrest]
        · isplitl [HS0 Hrest]
          · isplitl [Hrest]; · iexact Hrest
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨Hrest, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg Hrest]
        · isplitl [HS0 Hrest]
          · isplitl [Hrest]; · iexact Hrest
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      have hz : t.val ≠ 0 := fun hz => h0 (by rw [hz])
      rw [PhiS1_castSucc V c t, PhiS1_pos V c _ _ hz]
      iintro ⟨⟨⟨Hrest, HS0⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg Hrest]
      · isplitl [HS0 Hrest]
        · isplitl [Hrest]; · iexact Hrest
          unfold owns; iexists _; isplitr
          swap; · iexact HS0
          ipureintro; exact View.read_writes_of_cover _ _ _ _ _ (scover1_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      have hz : t.val ≠ 0 := fun hz => h0 (by rw [hz])
      rw [PhiS1_castSucc V c t, PhiS1_pos V c _ _ hz]
      iintro ⟨⟨⟨Hrest, HS0⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg Hrest]
      · isplitl [HS0 Hrest]
        · isplitl [Hrest]; · iexact Hrest
          unfold owns; iexists _; isplitr
          swap; · iexact HS0
          ipureintro; exact View.read_writes_of_cover _ _ _ _ _ (scover1_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_join (F := F) c)
  iintro ⟨⟨Hrest, HS0⟩, Hg⟩
  isplitr [Hg]
  · isplitl [Hrest]; · iexact Hrest
    iexists _; iexact HS0
  · iexact Hg

theorem hout1 (c : Dev nD) : (dat1 V c).Φ (Fin.last cfg1.N) ⊢ Pipeline.ΦA spec1 c :=
  Phi_out1 V c _ (by rw [Fin.val_last]; have : cfg1.N = 512 := N_1; omega)

end Cert.KernelIdeal.R1

end
-- ==== Proof.Run.lean ====
/- The whole run of the kernel's program, at any float instance: @main is three reshapes of the bias vectors on the
   host, then the first kernel region (the row statistics kv and ksum), then the second (the output). Between two items
   a core holds every unscoped buffer at known contents: the launch memory; after the reshapes; after region 0 with its
   arrays at what its write-backs leave; after region 1 likewise. Every weakly fair execution terminates and ends with
   every unscoped buffer at the last of these contents — from which both the frame claim (no item writes an argument)
   and the value of the result array are read. -/
import proofs.«156116_j68702296867130_1_alg».proof.Proof.K0Frame
import proofs.«156116_j68702296867130_1_alg».proof.Proof.K1Frame
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host reshapes (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At region 1's exit. -/
def W3 (c : Dev nD) : Valuation τ sig (Elt F) :=
  Pipeline.withArrays spec1 c (W2 m ρ c) fun w => (R1.dat1 (V2 m ρ) c).arrAt w cfg1.N
theorem W3_arr (c : Dev nD) (w : Fin cfg1.W) :
    W3 m ρ c (Proc.devRef .tc (Pipeline.arrRef spec1 w)) = (R1.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((R1.dat1 (V2 m ρ) c).arrAt_in 0 rfl _).trans (R1.A_eq1 (V2 m ρ) c 0))
    _ = W1 m ρ c (Proc.devRef .tc main_arg0) := (W2_arr m ρ c 0).trans (((R0.dat0 (V1 m ρ) c).arrAt_in 0 rfl _).trans (R0.A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 1).trans (((R1.dat1 (V2 m ρ) c).arrAt_in 1 rfl _).trans (R1.A_eq1 (V2 m ρ) c 1))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 1).trans (((R0.dat0 (V1 m ρ) c).arrAt_in 1 rfl _).trans (R0.A_eq0 (V1 m ρ) c 1))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 3).trans (((R0.dat0 (V1 m ρ) c).arrAt_in 3 rfl _).trans (R0.A_eq0 (V1 m ρ) c 3))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the boundary's contents, left with the
    region's arrays at what its write-backs leave and every other buffer as entered; the generator register goes into
    the region invariant and comes back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.hin0 (V1 m ρ) c)
    unfold Pipeline.ΦA
    iintro ⟨Hp, -, Hr⟩
    isplitl [Hr]; · iexact Hr
    iexact Hp
  hout c := by
    rw [Pipeline.ownSems0_none]
    refine (R0.hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left with the
    region's arrays at what its write-backs leave and every other buffer as entered; the generator register goes into
    the region invariant and comes back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R1.hin1 (V2 m ρ) c)
    unfold Pipeline.ΦA
    iintro ⟨Hp, -, Hr⟩
    isplitl [Hr]; · iexact Hr
    iexact Hp
  hout c := by
    rw [Pipeline.ownSems0_none]
    refine (R1.hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame claim's post: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c)⟩) (run_all m ρ)

/-- The result array ends at what region 1's write-backs leave in its output window's array. -/
theorem run_value : θ_run defs (onTc (τ := τ) (main (F := F))) ⟨m, fun _ => 0, ρ⟩ (fun r => ∀ c : Dev nD,
      r.2.mem ((c.tc : Thread nD τ).loc main_v4) = (R1.dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_v4 (by decide))).trans (W3_arr m ρ c 5),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c)⟩) (run_all m ρ)

end Cert.KernelIdeal.Hand

end
-- ==== Proof.K1Value.lean ====
/- Region 1: the values. What each case's stores leave, as the kernel's own payload terms of the blocks and of the
   accumulator's previous contents: the accumulator becomes (previous + x-block · Wq-blockᵀ), starting from zero at the
   first contraction block; at the last block the output tile is the gain-normalised expression of the finished
   accumulator, the bias row and the two row statistics. -/
import proofs.«156116_j68702296867130_1_alg».proof.Proof.K1Frame
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

/-- A middle block: the accumulator becomes its previous contents plus the block product. -/
theorem sout1_B_0_eq (c : Dev nD) (i : grid1.Coords) (a3 : Memref sig .tc .vmem S512x512 .f32) (ha3 : a3.IsWhole) (a4 : Memref sig .tc .vmem S1024x512 .f32) (ha4 : a4.IsWhole) (a5 : Memref sig .tc .vmem S1x1024 .f32) (ha5 : a5.IsWhole) (a6 : Memref sig .tc .vmem S512x1 .f32) (ha6 : a6.IsWhole) (a7 : Memref sig .tc .vmem S512x1 .f32) (ha7 : a7.IsWhole) (a8 : Memref sig .tc .vmem S512x1024 .f32) (ha8 : a8.IsWhole) (a9 : Memref sig .tc .vmem S512x1024 .f32) (ha9 : a9.IsWhole) (hc0 : ¬cond1_0 i) (hc1 : ¬cond1_1 i)
    (x0 : Vec F S512x512 .f32) (x1 : Vec F S1024x512 .f32) (x2 : Vec F S1x1024 .f32) (x3 : Vec F S512x1 .f32) (x4 : Vec F S512x1 .f32) (xs0 : Vec F S512x1024 .f32) :
    sout1_B_0 c i a3 ha3 a4 ha4 a5 ha5 a6 ha6 a7 ha7 a8 ha8 a9 ha9 hc0 hc1 x0 x1 x2 x3 x4 xs0 = k1_pay2 x0 x1 xs0 := by
  unfold sout1_B_0
  rw [View.read_writes_eq_canon _ _ _ (scover1_B_0 c i a3 ha3 a4 ha4 a5 ha5 a6 ha6 a7 ha7 a8 ha8 a9 ha9 hc0 hc1 x0 x1 x2 x3 x4 xs0)]
  unfold kernelRun1_B
  dsimp only
  rw [View.canon_unit_zero hz]
  simp only [View.readAt_eq_ld, ha3.read_unread, ha4.read_unread, ha5.read_unread, ha6.read_unread, ha7.read_unread, ha8.read_unread, ha9.read_unread, View.ld_unit_zero (S := S512x512) hz, View.ld_unit_zero (S := S1024x512) hz, View.ld_unit_zero (S := S512x1024) hz, View.ld_unit_zero (S := S1x1024) hz, View.ld_unit_zero (S := S512x1) hz]

/-- The first block: the accumulator is set to zero, read back, and the block product added. -/
theorem sout1_A_0_eq (c : Dev nD) (i : grid1.Coords) (a3 : Memref sig .tc .vmem S512x512 .f32) (ha3 : a3.IsWhole) (a4 : Memref sig .tc .vmem S1024x512 .f32) (ha4 : a4.IsWhole) (a5 : Memref sig .tc .vmem S1x1024 .f32) (ha5 : a5.IsWhole) (a6 : Memref sig .tc .vmem S512x1 .f32) (ha6 : a6.IsWhole) (a7 : Memref sig .tc .vmem S512x1 .f32) (ha7 : a7.IsWhole) (a8 : Memref sig .tc .vmem S512x1024 .f32) (ha8 : a8.IsWhole) (a9 : Memref sig .tc .vmem S512x1024 .f32) (ha9 : a9.IsWhole) (hc0 : cond1_0 i) (hc1 : ¬cond1_1 i)
    (x0 : Vec F S512x512 .f32) (x1 : Vec F S1024x512 .f32) (x2 : Vec F S1x1024 .f32) (x3 : Vec F S512x1 .f32) (x4 : Vec F S512x1 .f32) :
    sout1_A_0 c i a3 ha3 a4 ha4 a5 ha5 a6 ha6 a7 ha7 a8 ha8 a9 ha9 hc0 hc1 x0 x1 x2 x3 x4 = k1_pay2 x0 x1 (k1_pay1 (F := F)) := by
  unfold sout1_A_0
  rw [View.read_writes_eq_canon _ _ _ (scover1_A_0 c i a3 ha3 a4 ha4 a5 ha5 a6 ha6 a7 ha7 a8 ha8 a9 ha9 hc0 hc1 x0 x1 x2 x3 x4)]
  unfold kernelRun1_A
  dsimp only
  sl_unfold_words
  rw [View.canon_cons_unit_zero (S := S512x1024) hz, View.readCov_unit_zero (S := S512x1024) _ hz]
  simp only [View.readAt_eq_ld, ha3.read_unread, ha4.read_unread, ha5.read_unread, ha6.read_unread, ha7.read_unread, ha8.read_unread, ha9.read_unread, View.ld_unit_zero (S := S512x512) hz, View.ld_unit_zero (S := S1024x512) hz, View.ld_unit_zero (S := S512x1024) hz, View.ld_unit_zero (S := S1x1024) hz, View.ld_unit_zero (S := S512x1) hz]

/-- The last block, the accumulator: as at a middle block. -/
theorem sout1_C_0_eq (c : Dev nD) (i : grid1.Coords) (a3 : Memref sig .tc .vmem S512x512 .f32) (ha3 : a3.IsWhole) (a4 : Memref sig .tc .vmem S1024x512 .f32) (ha4 : a4.IsWhole) (a5 : Memref sig .tc .vmem S1x1024 .f32) (ha5 : a5.IsWhole) (a6 : Memref sig .tc .vmem S512x1 .f32) (ha6 : a6.IsWhole) (a7 : Memref sig .tc .vmem S512x1 .f32) (ha7 : a7.IsWhole) (a8 : Memref sig .tc .vmem S512x1024 .f32) (ha8 : a8.IsWhole) (a9 : Memref sig .tc .vmem S512x1024 .f32) (ha9 : a9.IsWhole) (hc0 : ¬cond1_0 i) (hc1 : cond1_1 i)
    (x0 : Vec F S512x512 .f32) (x1 : Vec F S1024x512 .f32) (x2 : Vec F S1x1024 .f32) (x3 : Vec F S512x1 .f32) (x4 : Vec F S512x1 .f32) (xs0 : Vec F S512x1024 .f32) :
    sout1_C_0 c i a3 ha3 a4 ha4 a5 ha5 a6 ha6 a7 ha7 a8 ha8 a9 ha9 hc0 hc1 x0 x1 x2 x3 x4 xs0 = k1_pay2 x0 x1 xs0 := by
  unfold sout1_C_0
  rw [View.read_writes_eq_canon _ _ _ (scover1_C_0 c i a3 ha3 a4 ha4 a5 ha5 a6 ha6 a7 ha7 a8 ha8 a9 ha9 hc0 hc1 x0 x1 x2 x3 x4 xs0)]
  unfold kernelRun1_C
  dsimp only
  sl_unfold_words
  rw [View.canon_unit_zero hz]
  simp only [View.readAt_eq_ld, ha3.read_unread, ha4.read_unread, ha5.read_unread, ha6.read_unread, ha7.read_unread, ha8.read_unread, ha9.read_unread, View.ld_unit_zero (S := S512x512) hz, View.ld_unit_zero (S := S1024x512) hz, View.ld_unit_zero (S := S512x1024) hz, View.ld_unit_zero (S := S1x1024) hz, View.ld_unit_zero (S := S512x1) hz]

/-- The last block, the output tile: the gain-normalised expression of the finished accumulator (read back after its
    store), the bias row and the two row statistics. -/
theorem out1_C_5_eq (c : Dev nD) (i : grid1.Coords) (a3 : Memref sig .tc .vmem S512x512 .f32) (ha3 : a3.IsWhole) (a4 : Memref sig .tc .vmem S1024x512 .f32) (ha4 : a4.IsWhole) (a5 : Memref sig .tc .vmem S1x1024 .f32) (ha5 : a5.IsWhole) (a6 : Memref sig .tc .vmem S512x1 .f32) (ha6 : a6.IsWhole) (a7 : Memref sig .tc .vmem S512x1 .f32) (ha7 : a7.IsWhole) (a8 : Memref sig .tc .vmem S512x1024 .f32) (ha8 : a8.IsWhole) (a9 : Memref sig .tc .vmem S512x1024 .f32) (ha9 : a9.IsWhole) (hc0 : ¬cond1_0 i) (hc1 : cond1_1 i)
    (x0 : Vec F S512x512 .f32) (x1 : Vec F S1024x512 .f32) (x2 : Vec F S1x1024 .f32) (x3 : Vec F S512x1 .f32) (x4 : Vec F S512x1 .f32) (xs0 : Vec F S512x1024 .f32) :
    out1_C_5 c i a3 ha3 a4 ha4 a5 ha5 a6 ha6 a7 ha7 a8 ha8 a9 ha9 hc0 hc1 x0 x1 x2 x3 x4 xs0 = k1_pay3 (k1_pay2 x0 x1 xs0) x2 x3 x4 := by
  unfold out1_C_5
  rw [View.read_writes_eq_canon _ _ _ (cover1_C_5 c i a3 ha3 a4 ha4 a5 ha5 a6 ha6 a7 ha7 a8 ha8 a9 ha9 hc0 hc1 x0 x1 x2 x3 x4 xs0)]
  unfold kernelRun1_C
  dsimp only
  sl_unfold_words
  rw [View.canon_unit_zero hz]
  simp only [View.readAt_eq_ld, ha3.read_unread, ha4.read_unread, ha5.read_unread, ha6.read_unread, ha7.read_unread, ha8.read_unread, ha9.read_unread, View.ld_unit_zero (S := S512x512) hz, View.ld_unit_zero (S := S1024x512) hz, View.ld_unit_zero (S := S512x1024) hz, View.ld_unit_zero (S := S1x1024) hz, View.ld_unit_zero (S := S512x1) hz, View.readCov_unit_zero (S := S512x1024) _ hz]

end Cert.KernelIdeal.R1

end
-- ==== Proof.BlockRead1.lean ====
/- Where the second kernel's blocks sit in their arrays. The grid has 16 × 4 × 8 points, numbered
   `t = i · 32 + j · 8 + kk`: `i = t / 32` is the block of 512 rows, `j = (t / 8) % 4` the block of 1024
   features, `kk = t % 8` the block of 512 contraction positions. A block's element at a block coordinate is
   the array's element at block index × block size + the coordinate, on each axis. -/
import proofs.«156116_j68702296867130_1_alg».proof.Proof.Gen.KernelIdeal.Launch
import proofs.«156116_j68702296867130_1_alg».proof.Proof.Gen.KernelIdeal.Points
import Idealize.ShloMosaic.Lib.Pipeline.Value
import Idealize.ShloMosaic.Lib.ValueIdx

noncomputable section

namespace Cert.KernelIdeal.Blk

open Cert.KernelIdeal Cert.KernelIdeal.Gen Idealize.ShloMosaic Idealize.ShloMosaic.ValueIdx

/-! ## The block indices, decided over the grid -/

theorem idx1_0 : ∀ t : Fin cfg1.N, win1_0.index t (0 : Fin 2) = t.val / 32 ∧ win1_0.index t (1 : Fin 2) = t.val % 8 :=
  (by decide +kernel : ∀ t : Fin grid1.N, _)
theorem idx1_1 : ∀ t : Fin cfg1.N, win1_1.index t (0 : Fin 2) = t.val / 8 % 4 ∧ win1_1.index t (1 : Fin 2) = t.val % 8 :=
  (by decide +kernel : ∀ t : Fin grid1.N, _)
theorem idx1_2 : ∀ t : Fin cfg1.N, win1_2.index t (0 : Fin 2) = 0 ∧ win1_2.index t (1 : Fin 2) = t.val / 8 % 4 :=
  (by decide +kernel : ∀ t : Fin grid1.N, _)
theorem idx1_3 : ∀ t : Fin cfg1.N, win1_3.index t (0 : Fin 2) = t.val / 32 ∧ win1_3.index t (1 : Fin 2) = 0 :=
  (by decide +kernel : ∀ t : Fin grid1.N, _)
theorem idx1_4 : ∀ t : Fin cfg1.N, win1_4.index t (0 : Fin 2) = t.val / 32 ∧ win1_4.index t (1 : Fin 2) = 0 :=
  (by decide +kernel : ∀ t : Fin grid1.N, _)
theorem idx1_5 : ∀ t : Fin cfg1.N, win1_5.index t (0 : Fin 2) = t.val / 32 ∧ win1_5.index t (1 : Fin 2) = t.val / 8 % 4 :=
  (by decide +kernel : ∀ t : Fin grid1.N, _)

/-! ## Bounds of the array coordinates -/

theorem lt1 (t : Fin cfg1.N) : t.val < 512 := Nat.lt_of_lt_of_eq t.isLt N_1
theorem bRow1 (t : Fin cfg1.N) (p : Fin 512) : t.val / 32 * 512 + p.val < 8192 := by
  have := lt1 t; have := p.isLt; omega
theorem bK1 (t : Fin cfg1.N) (k : Fin 512) : t.val % 8 * 512 + k.val < 4096 := by
  have := k.isLt; omega
theorem bCol1 (t : Fin cfg1.N) (q : Fin 1024) : t.val / 8 % 4 * 1024 + q.val < 4096 := by
  have := q.isLt; omega

variable {Val : EltTy → Type}

/-! ## The input blocks read at a block coordinate -/

/-- The `x` block: rows `i · 512 + p`, contraction positions `kk · 512 + k`. -/
theorem read1_0 (X : S8192x4096.Idx → Val .f32) (t : Fin cfg1.N) (p k : Fin 512) :
    ((cfg1.win 0).blk t).view.read Val X (ix2 p k)
      = X (ix2 ⟨t.val / 32 * 512 + p.val, bRow1 t p⟩ ⟨t.val % 8 * 512 + k.val, bK1 t k⟩) := by
  obtain ⟨e0, e1⟩ := idx1_0 t
  show X (((cfg1.win 0).blk t).view.emb (ix2 p k)) = _
  refine congrArg X (funext fun a => Fin.ext ?_)
  match a with
  | ⟨0, _⟩ => show win1_0.index t (0 : Fin 2) * 512 + 1 * p.val = t.val / 32 * 512 + p.val; rw [e0]; omega
  | ⟨1, _⟩ => show win1_0.index t (1 : Fin 2) * 512 + 1 * k.val = t.val % 8 * 512 + k.val; rw [e1]; omega

/-- The query weight block: weight rows `j · 1024 + q`, contraction positions `kk · 512 + k`. -/
theorem read1_1 (X : S4096x4096.Idx → Val .f32) (t : Fin cfg1.N) (q : Fin 1024) (k : Fin 512) :
    ((cfg1.win 1).blk t).view.read Val X (ix2 q k)
      = X (ix2 ⟨t.val / 8 % 4 * 1024 + q.val, bCol1 t q⟩ ⟨t.val % 8 * 512 + k.val, bK1 t k⟩) := by
  obtain ⟨e0, e1⟩ := idx1_1 t
  show X (((cfg1.win 1).blk t).view.emb (ix2 q k)) = _
  refine congrArg X (funext fun a => Fin.ext ?_)
  match a with
  | ⟨0, _⟩ => show win1_1.index t (0 : Fin 2) * 1024 + 1 * q.val = t.val / 8 % 4 * 1024 + q.val; rw [e0]; omega
  | ⟨1, _⟩ => show win1_1.index t (1 : Fin 2) * 512 + 1 * k.val = t.val % 8 * 512 + k.val; rw [e1]; omega

/-- The query bias block: positions `j · 1024 + q` of the one row. -/
theorem read1_2 (X : S1x4096.Idx → Val .f32) (t : Fin cfg1.N) (z : Fin 1) (q : Fin 1024) :
    ((cfg1.win 2).blk t).view.read Val X (ix2 z q)
      = X (ix2 (0 : Fin 1) ⟨t.val / 8 % 4 * 1024 + q.val, bCol1 t q⟩) := by
  obtain ⟨e0, e1⟩ := idx1_2 t
  show X (((cfg1.win 2).blk t).view.emb (ix2 z q)) = _
  refine congrArg X (funext fun a => Fin.ext ?_)
  match a with
  | ⟨0, _⟩ => show win1_2.index t (0 : Fin 2) * 1 + 1 * z.val = 0; rw [e0]; omega
  | ⟨1, _⟩ => show win1_2.index t (1 : Fin 2) * 1024 + 1 * q.val = t.val / 8 % 4 * 1024 + q.val; rw [e1]; omega

/-- The `kv` block: rows `i · 512 + p` of the one column. -/
theorem read1_3 (X : S8192x1.Idx → Val .f32) (t : Fin cfg1.N) (p : Fin 512) (z : Fin 1) :
    ((cfg1.win 3).blk t).view.read Val X (ix2 p z)
      = X (ix2 ⟨t.val / 32 * 512 + p.val, bRow1 t p⟩ (0 : Fin 1)) := by
  obtain ⟨e0, e1⟩ := idx1_3 t
  show X (((cfg1.win 3).blk t).view.emb (ix2 p z)) = _
  refine congrArg X (funext fun a => Fin.ext ?_)
  match a with
  | ⟨0, _⟩ => show win1_3.index t (0 : Fin 2) * 512 + 1 * p.val = t.val / 32 * 512 + p.val; rw [e0]; omega
  | ⟨1, _⟩ => show win1_3.index t (1 : Fin 2) * 1 + 1 * z.val = 0; rw [e1]; omega

/-- The `ks` block, likewise. -/
theorem read1_4 (X : S8192x1.Idx → Val .f32) (t : Fin cfg1.N) (p : Fin 512) (z : Fin 1) :
    ((cfg1.win 4).blk t).view.read Val X (ix2 p z)
      = X (ix2 ⟨t.val / 32 * 512 + p.val, bRow1 t p⟩ (0 : Fin 1)) := by
  obtain ⟨e0, e1⟩ := idx1_4 t
  show X (((cfg1.win 4).blk t).view.emb (ix2 p z)) = _
  refine congrArg X (funext fun a => Fin.ext ?_)
  match a with
  | ⟨0, _⟩ => show win1_4.index t (0 : Fin 2) * 512 + 1 * p.val = t.val / 32 * 512 + p.val; rw [e0]; omega
  | ⟨1, _⟩ => show win1_4.index t (1 : Fin 2) * 1 + 1 * z.val = 0; rw [e1]; omega

/-! ## The output block: where a block coordinate lands, membership, and the cover -/

/-- The result block's element `(p, q)` is the array's element `(i · 512 + p, j · 1024 + q)`. -/
theorem emb1_5 (t : Fin cfg1.N) (p : Fin 512) (q : Fin 1024) :
    ((cfg1.win 5).blk t).view.emb (ix2 p q)
      = ix2 ⟨t.val / 32 * 512 + p.val, bRow1 t p⟩ ⟨t.val / 8 % 4 * 1024 + q.val, bCol1 t q⟩ := by
  obtain ⟨e0, e1⟩ := idx1_5 t
  refine funext fun a => Fin.ext ?_
  match a with
  | ⟨0, _⟩ => show win1_5.index t (0 : Fin 2) * 512 + 1 * p.val = t.val / 32 * 512 + p.val; rw [e0]; omega
  | ⟨1, _⟩ => show win1_5.index t (1 : Fin 2) * 1024 + 1 * q.val = t.val / 8 % 4 * 1024 + q.val; rw [e1]; omega

/-- The output block read at a block coordinate. -/
theorem read1_5 (X : S8192x4096.Idx → Val .f32) (t : Fin cfg1.N) (p : Fin 512) (q : Fin 1024) :
    ((cfg1.win 5).blk t).view.read Val X (ix2 p q)
      = X (ix2 ⟨t.val / 32 * 512 + p.val, bRow1 t p⟩ ⟨t.val / 8 % 4 * 1024 + q.val, bCol1 t q⟩) := by
  show X (((cfg1.win 5).blk t).view.emb (ix2 p q)) = _
  rw [emb1_5]

/-- An index of the result array is in point `t`'s block iff each coordinate is in the block's range. -/
theorem mem_blk1_5 (t : Fin cfg1.N) (i : S8192x4096.Idx) :
    i ∈ ((cfg1.win 5).blk t).view.set ↔ ∀ a : Fin 2, win1_5.index t a * S512x1024.size a ≤ (i a).val
      ∧ (i a).val < win1_5.index t a * S512x1024.size a + S512x1024.size a := by
  show i ∈ ((View.whole main_v4).slice (win1_5.rect t)).set ↔ _
  rw [View.set_slice_whole, Rect.mem_set_unit]
  exact Iff.rfl

/-- The last contraction step of the block holding `(r, c)`: the point that writes it back. -/
def lastOf1 (r : Fin 8192) (c : Fin 4096) : Fin cfg1.N :=
  ⟨r.val / 512 * 32 + c.val / 1024 * 8 + 7, Nat.lt_of_lt_of_eq (by have := r.isLt; have := c.isLt; omega) N_1.symm⟩

/-- Every index of the result array is in the block some flushing point writes back. -/
theorem cover1_5 (i : S8192x4096.Idx) :
    ∃ t : Fin cfg1.N, (cfg1.win 5).flush t = true ∧ i ∈ ((cfg1.win 5).blk t).view.set := by
  have h0 : (i 0).val < 8192 := (i 0).isLt
  have h1 : (i 1).val < 4096 := (i 1).isLt
  obtain ⟨e0, e1⟩ := idx1_5 (lastOf1 ⟨(i 0).val, h0⟩ ⟨(i 1).val, h1⟩)
  have hv : (lastOf1 ⟨(i 0).val, h0⟩ ⟨(i 1).val, h1⟩).val = (i 0).val / 512 * 32 + (i 1).val / 1024 * 8 + 7 := rfl
  refine ⟨lastOf1 ⟨(i 0).val, h0⟩ ⟨(i 1).val, h1⟩, (flush1_5 _).mpr (by rw [hv]; omega), ?_⟩
  rw [mem_blk1_5]
  intro a
  match a with
  | ⟨0, _⟩ =>
    show win1_5.index (lastOf1 ⟨(i 0).val, h0⟩ ⟨(i 1).val, h1⟩) (0 : Fin 2) * 512 ≤ (i 0).val
      ∧ (i 0).val < win1_5.index (lastOf1 ⟨(i 0).val, h0⟩ ⟨(i 1).val, h1⟩) (0 : Fin 2) * 512 + 512
    rw [e0, hv]; omega
  | ⟨1, _⟩ =>
    show win1_5.index (lastOf1 ⟨(i 0).val, h0⟩ ⟨(i 1).val, h1⟩) (1 : Fin 2) * 1024 ≤ (i 1).val
      ∧ (i 1).val < win1_5.index (lastOf1 ⟨(i 0).val, h0⟩ ⟨(i 1).val, h1⟩) (1 : Fin 2) * 1024 + 1024
    rw [e1, hv]; omega

end Cert.KernelIdeal.Blk

end
-- ==== Proof.PayLib.lean ====
/- Pieces shared by the two kernels' stored values, over the extended reals: a block product that
   contracts the last axis of both operands, read at an index; a row sum read at a row; and the
   column forms of the layout operations (a length-`a` vector as an `a × 1` column, and a column
   repeated along the rows' direction). -/
import proofs.«156116_j68702296867130_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The product's dimension numbers: both operands contract their last axis. -/
abbrev D := dot_S512x512_S1024x512_S512x1024_1_1_0_0_n_n

theorem lhs0 (i : S512x1024.Idx) (q : D.contr.Idx) : (D.lhsIdx i q 0).val = (i 0).val := by
  unfold DotDims.lhsIdx
  rw [dif_neg (show ¬(0 : Fin S512x512.rank) ∈ D.lhsBatch by decide),
    dif_pos (show (0 : Fin S512x512.rank) ∈ D.lhsNonContracting by decide)]
  rfl
theorem lhs1 (i : S512x1024.Idx) (q : D.contr.Idx) : (D.lhsIdx i q 1).val = (q ⟨0, by decide⟩).val :=
  D.lhsIdx_val_of_single rfl i q
theorem rhs0 (i : S512x1024.Idx) (q : D.contr.Idx) : (D.rhsIdx i q 0).val = (i 1).val := by
  unfold DotDims.rhsIdx
  rw [dif_neg (show ¬(0 : Fin S1024x512.rank) ∈ D.rhsBatch by decide),
    dif_pos (show (0 : Fin S1024x512.rank) ∈ D.rhsNonContracting by decide)]
  rfl
theorem rhs1 (i : S512x1024.Idx) (q : D.contr.Idx) : (D.rhsIdx i q 1).val = (q ⟨0, by decide⟩).val :=
  D.rhsIdx_val_of_single rfl i q

/-- A block product into the zero block, at `(p, q)`: row `p` of the left block against row `q` of the right. -/
theorem matmul_zero_apply {φ₁ φ₂ : FTy} (a : FVec Ideal S512x512 φ₁) (b : FVec Ideal S1024x512 φ₂) (p : Fin 512) (q : Fin 1024) :
    matmul D none a b (constant (F := Ideal) S512x1024 .f32 0x00000000#32) (ix2 p q)
      = ∑ k : Fin 512, a (ix2 p k) * b (ix2 q k) := by
  show FloatOps.matmul D none a b (constant (F := Ideal) S512x1024 .f32 0x00000000#32) (ix2 p q) = _
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 p q) ((contrEquiv1 D 512 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 512 rfl rfl).symm k) = ix2 q k := funext fun a => Fin.ext (by
    match a with
    | ⟨0, _⟩ => exact rhs0 _ _
    | ⟨1, _⟩ => exact (rhs1 _ _).trans hk)
  rw [el, er]

/-- The sum along a row of a `512 × 1024` block, at row `p`. -/
theorem rowsum_apply (src : FVec Ideal S512x1024 .f32) (hφ : FKind.Formats .f32)
    (hacc : (0x00000000#32 : BitVec 32) = 0x00000000#32) (p : Fin 512) :
    multiReduction (F := Ideal) .add [1] S512 src 0x00000000#32 reduces_S512x1024_S512 hφ hacc (ix1 p)
      = ∑ n : Fin 1024, src (ix2 p n) := by
  refine (Ideal.multiReduction_add_single src 0x00000000#32 reduces_S512x1024_S512 hφ hacc (ix1 p)).trans ?_
  exact Finset.sum_congr rfl fun n _ => congrArg src (funext fun a => Fin.ext (by
    match a with
    | ⟨0, _⟩ => rfl
    | ⟨1, _⟩ => rfl))

/-- The absolute value at an index: the larger of the element and its negation. -/
theorem absf_apply {s : Shape} {φ : FTy} (a : FVec Ideal s φ) (i : s.Idx) : absf a i = max (a i) (-(a i)) := rfl

variable {α : Type}

/-- A length-`a` vector cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.Pay

end
-- ==== Proof.Pay1.lean ====
/- The second kernel's stored values read at an index, over the extended reals: the zero fill, the
   blocked matrix product accumulated into a scratch block, and the gain-normalized result
   `q · kv / (1 + |q| · ks)` of a finished query block with the two row statistics. -/
import proofs.«156116_j68702296867130_1_alg».proof.Proof.PayLib

noncomputable section

open scoped BigOperators

namespace Cert.KernelIdeal.Pay

open Cert.KernelIdeal Cert.KernelIdeal.Gen Idealize.ShloMosaic Idealize.ShloMosaic.ValueIdx

/-- The zero fill of the query-projection accumulator. -/
theorem k1_pay1_apply (j : S512x1024.Idx) : k1_pay1 (F := Ideal) j = 0 := by
  unfold k1_pay1
  rw [shapeCast_self]
  exact Ideal.ofBits_zero_f32

/-- The accumulated query-projection block: what was there plus this step's block product. -/
theorem k1_pay2_apply (v3 : Vec Ideal S512x512 .f32) (v5 : Vec Ideal S1024x512 .f32) (v7 : Vec Ideal S512x1024 .f32)
    (p : Fin 512) (q : Fin 1024) :
    k1_pay2 (F := Ideal) v3 v5 v7 (ix2 p q) = v7 (ix2 p q) + ∑ k : Fin 512, v3 (ix2 p k) * v5 (ix2 q k) := by
  unfold k1_pay2
  rw [shapeCast_self, addf_apply, matmul_zero_apply]
  rfl

/-- The result block: the biased query entry times the row's `kv`, over one plus its absolute value
    times the row's `ks`. -/
theorem k1_pay3_apply (v16 : Vec Ideal S512x1024 .f32) (v17 : Vec Ideal S1x1024 .f32) (v21 v23 : Vec Ideal S512x1 .f32)
    (p : Fin 512) (q : Fin 1024) :
    k1_pay3 (F := Ideal) v16 v17 v21 v23 (ix2 p q)
      = Ideal.div ((v16 (ix2 p q) + v17 (ix2 (0 : Fin 1) q)) * v21 (ix2 p (0 : Fin 1)))
          (Ideal.ofBits .f32 0x3F800000#32
            + max (v16 (ix2 p q) + v17 (ix2 (0 : Fin 1) q)) (-(v16 (ix2 p q) + v17 (ix2 (0 : Fin 1) q))) * v23 (ix2 p (0 : Fin 1))) := by
  unfold k1_pay3
  simp only [divf_apply, mulf_apply, addf_apply, absf_apply, shapeCast_self, broadcastTo_1b_ab_apply,
    broadcastTo_a1_ab_apply, broadcast_apply]
  rfl

end Cert.KernelIdeal.Pay

end
-- ==== Proof.Spec.lean ====
/- The specification: the result of both programs as one function of the seven argument
   arrays, index by index, over the extended reals. Rows are indexed by `Fin 8192`, features by
   `Fin 4096`. A projection is `x · Wᵀ + b`; `kv` is the row's dot product of the key and value
   projections, `ks` the row's sum of absolute values of the key projection, and the result is
   `q · kv / (1 + |q| · ks)` with the division and the absolute value of the ideal float values. -/
import Idealize.ShloMosaic.PureOps.Ideal

noncomputable section

open scoped BigOperators

namespace Cert.Spec

open Idealize.ShloMosaic

/-- A linear projection: row `r` of `x` against row `c` of `W`, plus the bias at `c`. -/
def proj (x : Fin 8192 → Fin 4096 → EReal) (W : Fin 4096 → Fin 4096 → EReal) (b : Fin 4096 → EReal)
    (r : Fin 8192) (c : Fin 4096) : EReal :=
  (∑ k : Fin 4096, x r k * W c k) + b c

/-- The row's dot product of the key and the value projections. -/
def kvOf (k v : Fin 8192 → Fin 4096 → EReal) (r : Fin 8192) : EReal :=
  ∑ c : Fin 4096, k r c * v r c

/-- The row's sum of the absolute values (`max a (-a)`) of the key projection. -/
def ksOf (k : Fin 8192 → Fin 4096 → EReal) (r : Fin 8192) : EReal :=
  ∑ c : Fin 4096, max (k r c) (-(k r c))

/-- The gain-normalized result: `q · kv / (1 + |q| · ks)`; the one is the word `0x3F800000`, never evaluated. -/
def out (q : Fin 8192 → Fin 4096 → EReal) (kv ks : Fin 8192 → EReal) (r : Fin 8192) (c : Fin 4096) : EReal :=
  Ideal.div (q r c * kv r) (Ideal.ofBits .f32 0x3F800000#32 + max (q r c) (-(q r c)) * ks r)

/-- The whole result from the seven arrays. -/
def result (x : Fin 8192 → Fin 4096 → EReal) (Wq : Fin 4096 → Fin 4096 → EReal) (bq : Fin 4096 → EReal)
    (Wk : Fin 4096 → Fin 4096 → EReal) (bk : Fin 4096 → EReal)
    (Wv : Fin 4096 → Fin 4096 → EReal) (bv : Fin 4096 → EReal) (r : Fin 8192) (c : Fin 4096) : EReal :=
  out (proj x Wq bq) (kvOf (proj x Wk bk) (proj x Wv bv)) (ksOf (proj x Wk bk)) r c

end Cert.Spec

end
-- ==== Proof.BlockSums.lean ====
/- Sums cut into blocks, and left-to-right accumulation: the two facts about finite sums in a
   commutative monoid that join a blocked contraction to the whole one. Only associativity and
   commutativity of addition are used. -/
import Mathlib.Algebra.BigOperators.Fin
import Mathlib.Data.Fintype.BigOperators
import Mathlib.Logic.Equiv.Fin.Basic

open scoped BigOperators

namespace Cert.BlockSums

variable {M : Type*} [AddCommMonoid M]

/-- A sum over `m` blocks of `n` consecutive positions is the sum over all `m * n` positions. -/
theorem sum_blocks (m n : ℕ) (f : ℕ → M) :
    ∑ b : Fin m, ∑ k : Fin n, f (b.val * n + k.val) = ∑ K : Fin (m * n), f K.val := by
  rw [← Equiv.sum_comp (finProdFinEquiv (m := m) (n := n)) (fun K : Fin (m * n) => f K.val),
    Fintype.sum_prod_type]
  refine Finset.sum_congr rfl fun b _ => Finset.sum_congr rfl fun k _ => ?_
  show f (b.val * n + k.val) = f (k.val + n * b.val)
  rw [Nat.mul_comm, Nat.add_comm]

/-- Eight blocks of 512 make 4096. -/
theorem sum_blocks_8_512 (f : ℕ → M) :
    ∑ b : Fin 8, ∑ k : Fin 512, f (b.val * 512 + k.val) = ∑ K : Fin 4096, f K.val :=
  sum_blocks 8 512 f

/-- Four blocks of 1024 make 4096. -/
theorem sum_blocks_4_1024 (f : ℕ → M) :
    ∑ b : Fin 4, ∑ k : Fin 1024, f (b.val * 1024 + k.val) = ∑ K : Fin 4096, f K.val :=
  sum_blocks 4 1024 f

/-- Sixteen blocks of 512 make 8192. -/
theorem sum_blocks_16_512 (f : ℕ → M) :
    ∑ b : Fin 16, ∑ k : Fin 512, f (b.val * 512 + k.val) = ∑ K : Fin 8192, f K.val :=
  sum_blocks 16 512 f

/-- Accumulating left to right from `z`: after step `n` the accumulator is `z` plus the sum of the first
    `n + 1` summands. -/
theorem fold_eq (z : M) (s A : ℕ → M) (h0 : A 0 = z + s 0) (hS : ∀ n, A (n + 1) = A n + s (n + 1)) (n : ℕ) :
    A n = z + ∑ i ∈ Finset.range (n + 1), s i := by
  induction n with
  | zero => rw [h0, Finset.sum_range_one]
  | succ n ih => rw [hS, ih, Finset.sum_range_succ _ (n + 1), add_assoc]

/-- The same with the steps known only below a bound `N`. -/
theorem fold_eq_below (N : ℕ) (z : M) (s A : ℕ → M) (h0 : A 0 = z + s 0)
    (hS : ∀ n, n + 1 < N → A (n + 1) = A n + s (n + 1)) (n : ℕ) (hn : n < N) :
    A n = z + ∑ i ∈ Finset.range (n + 1), s i := by
  induction n with
  | zero => rw [h0, Finset.sum_range_one]
  | succ n ih => rw [hS n hn, ih (by omega), Finset.sum_range_succ _ (n + 1), add_assoc]

/-- From a zero start, after the last of `N + 1` steps the accumulator is the whole sum over `Fin (N + 1)`. -/
theorem fold_zero_last (N : ℕ) (s A : ℕ → M) (h0 : A 0 = 0 + s 0)
    (hS : ∀ n, n + 1 < N + 1 → A (n + 1) = A n + s (n + 1)) :
    A N = ∑ i : Fin (N + 1), s i.val := by
  rw [fold_eq_below (N + 1) 0 s A h0 hS N (Nat.lt_succ_self N), zero_add, Finset.sum_range]

end Cert.BlockSums
-- ==== Proof.Accum.lean ====
/- Blocked sums in the form an accumulation invariant uses: the blocks counted by a natural number,
   the summand a function on `Fin N` extended by zero, and the two steps of a left-to-right
   accumulation from zero written on the closed form. -/
import proofs.«156116_j68702296867130_1_alg».proof.Proof.BlockSums

open scoped BigOperators

namespace Cert.BlockSums

variable {M : Type*} [AddCommMonoid M]

/-- A function on `Fin N` extended by zero to all naturals: lets a blocked sum name position
    `t * n + k` without carrying a bound inside the summand. -/
def ext0 {N : ℕ} (g : Fin N → M) (K : ℕ) : M := if h : K < N then g ⟨K, h⟩ else 0

theorem ext0_of_lt {N : ℕ} (g : Fin N → M) {K : ℕ} (h : K < N) : ext0 g K = g ⟨K, h⟩ := dif_pos h

theorem ext0_val {N : ℕ} (g : Fin N → M) (K : Fin N) : ext0 g K.val = g K := dif_pos K.isLt

/-- The sum over the first `m` blocks of `n` positions each, blocks counted by a natural below `m`,
    is the sum over all `m * n` positions. -/
theorem sum_range_blocks (m n : ℕ) (g : Fin (m * n) → M) :
    ∑ t ∈ Finset.range m, ∑ k : Fin n, ext0 g (t * n + k.val) = ∑ K : Fin (m * n), g K := by
  rw [Finset.sum_range, sum_blocks m n (ext0 g)]
  exact Finset.sum_congr rfl fun K _ => ext0_val g K

/-- Eight blocks of 512. -/
theorem sum_range_blocks_8_512 (g : Fin 4096 → M) :
    ∑ t ∈ Finset.range 8, ∑ k : Fin 512, ext0 g (t * 512 + k.val) = ∑ K : Fin 4096, g K :=
  sum_range_blocks 8 512 g

/-- Four blocks of 1024. -/
theorem sum_range_blocks_4_1024 (g : Fin 4096 → M) :
    ∑ t ∈ Finset.range 4, ∑ k : Fin 1024, ext0 g (t * 1024 + k.val) = ∑ K : Fin 4096, g K :=
  sum_range_blocks 4 1024 g

/-- One accumulation step on the closed form: the sum over the first `t + 1` blocks plus block `t + 1`
    is the sum over the first `t + 2`. -/
theorem range_step (S : ℕ → M) (t : ℕ) :
    (∑ i ∈ Finset.range (t + 1), S i) + S (t + 1) = ∑ i ∈ Finset.range (t + 2), S i :=
  (Finset.sum_range_succ S (t + 1)).symm

/-- The first step from a zero accumulator. -/
theorem range_start (S : ℕ → M) : 0 + S 0 = ∑ i ∈ Finset.range 1, S i := by
  rw [zero_add, Finset.sum_range_one]

end Cert.BlockSums
-- ==== Proof.SpecBlocks.lean ====
/- The specification's three sums from their blocks: a projection entry from eight blocks of 512
   contraction positions, the two row statistics from four blocks of 1024 columns. -/
import proofs.«156116_j68702296867130_1_alg».proof.Proof.Spec
import proofs.«156116_j68702296867130_1_alg».proof.Proof.Accum

noncomputable section

open scoped BigOperators

namespace Cert.Spec

open Cert.BlockSums

/-- A projection entry from its eight blocks of 512 contraction positions. -/
theorem proj_blocks (x : Fin 8192 → Fin 4096 → EReal) (W : Fin 4096 → Fin 4096 → EReal) (b : Fin 4096 → EReal)
    (r : Fin 8192) (c : Fin 4096) :
    (∑ t ∈ Finset.range 8, ∑ k : Fin 512, ext0 (fun K : Fin 4096 => x r K * W c K) (t * 512 + k.val)) + b c
      = proj x W b r c := by
  rw [sum_range_blocks_8_512]
  rfl

/-- The row's key-times-value sum from its four blocks of 1024 columns. -/
theorem kvOf_blocks (k v : Fin 8192 → Fin 4096 → EReal) (r : Fin 8192) :
    ∑ s ∈ Finset.range 4, ∑ n : Fin 1024, ext0 (fun C : Fin 4096 => k r C * v r C) (s * 1024 + n.val) = kvOf k v r := by
  rw [sum_range_blocks_4_1024]
  rfl

/-- The row's absolute-value sum from its four blocks of 1024 columns. -/
theorem ksOf_blocks (k : Fin 8192 → Fin 4096 → EReal) (r : Fin 8192) :
    ∑ s ∈ Finset.range 4, ∑ n : Fin 1024, ext0 (fun C : Fin 4096 => max (k r C) (-(k r C))) (s * 1024 + n.val) = ksOf k r := by
  rw [sum_range_blocks_4_1024]
  rfl

end Cert.Spec

end
-- ==== Proof.SpecArr.lean ====
/- The specification stated over the argument ARRAYS: a rank-2 array read as a function of its two
   coordinates, a rank-1 array as a function of its one, and the result array as the specification's
   function at each index's coordinates. -/
import proofs.«156116_j68702296867130_1_alg».proof.Proof.Spec
import Idealize.ShloMosaic.Lib.ValueIdx

noncomputable section

namespace Cert.Spec

open Idealize.ShloMosaic Idealize.ShloMosaic.ValueIdx

/-- A matrix as a function of row and column. -/
def mat {a b : ℕ} (X : (⟨2, ![a, b]⟩ : Shape).Idx → EReal) (r : Fin a) (c : Fin b) : EReal := X (ix2 r c)

/-- A vector as a function of its position. -/
def vec {a : ℕ} (X : (⟨1, ![a]⟩ : Shape).Idx → EReal) (c : Fin a) : EReal := X (ix1 c)

/-- The result array of the seven argument arrays `x, Wq, bq, Wk, bk, Wv, bv`. -/
def G (x : (⟨2, ![8192, 4096]⟩ : Shape).Idx → EReal)
    (Wq : (⟨2, ![4096, 4096]⟩ : Shape).Idx → EReal) (bq : (⟨1, ![4096]⟩ : Shape).Idx → EReal)
    (Wk : (⟨2, ![4096, 4096]⟩ : Shape).Idx → EReal) (bk : (⟨1, ![4096]⟩ : Shape).Idx → EReal)
    (Wv : (⟨2, ![4096, 4096]⟩ : Shape).Idx → EReal) (bv : (⟨1, ![4096]⟩ : Shape).Idx → EReal) :
    (⟨2, ![8192, 4096]⟩ : Shape).Idx → EReal :=
  fun i => result (mat x) (mat Wq) (vec bq) (mat Wk) (vec bk) (mat Wv) (vec bv) (i 0) (i 1)

/-- At an index given by coordinates. -/
theorem G_ix2 (x : (⟨2, ![8192, 4096]⟩ : Shape).Idx → EReal)
    (Wq : (⟨2, ![4096, 4096]⟩ : Shape).Idx → EReal) (bq : (⟨1, ![4096]⟩ : Shape).Idx → EReal)
    (Wk : (⟨2, ![4096, 4096]⟩ : Shape).Idx → EReal) (bk : (⟨1, ![4096]⟩ : Shape).Idx → EReal)
    (Wv : (⟨2, ![4096, 4096]⟩ : Shape).Idx → EReal) (bv : (⟨1, ![4096]⟩ : Shape).Idx → EReal)
    (r : Fin 8192) (c : Fin 4096) :
    G x Wq bq Wk bk Wv bv (ix2 r c) = result (mat x) (mat Wq) (vec bq) (mat Wk) (vec bk) (mat Wv) (vec bv) r c := rfl

end Cert.Spec

end
-- ==== Proof.K1Final.lean ====
/- The second kernel's result array over the extended reals. After the body at a grid point the scratch
   accumulator holds, at `(p, q)`, the sum over the contraction blocks met so far of the products of row
   `i · 512 + p` of `x` with row `j · 1024 + q` of the query weight; at the last block it is the whole
   contraction, the output tile is the gain-normalized expression of it with the bias row and the two row
   statistics, and the tiles written back fill the result array. -/
import proofs.«156116_j68702296867130_1_alg».proof.Proof.K1Value
import proofs.«156116_j68702296867130_1_alg».proof.Proof.BlockRead1
import proofs.«156116_j68702296867130_1_alg».proof.Proof.Pay1
import proofs.«156116_j68702296867130_1_alg».proof.Proof.SpecBlocks
import proofs.«156116_j68702296867130_1_alg».proof.Proof.SpecArr
import Idealize.ShloMosaic.Lib.Pipeline.Value

set_option maxRecDepth 16384

noncomputable section

open scoped BigOperators

namespace Cert.KernelIdeal.R1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Pay Cert.KernelIdeal.Blk Cert.BlockSums
open Cert.Spec (mat)

/-- The result array of `x`, the query weight, the query bias as a one-row matrix, and the two row statistics
    as one-column matrices. -/
def G1 (x : S8192x4096.Idx → EReal) (Wq : S4096x4096.Idx → EReal) (bq2 : S1x4096.Idx → EReal)
    (kv ks : S8192x1.Idx → EReal) : S8192x4096.Idx → EReal :=
  fun i => Cert.Spec.out (Cert.Spec.proj (mat x) (mat Wq) (fun cc => bq2 (ix2 (0 : Fin 1) cc)))
    (fun r => kv (ix2 r (0 : Fin 1))) (fun r => ks (ix2 r (0 : Fin 1))) (i 0) (i 1)

/-- A component of a pair known as a pair. -/
theorem fst_eq_of_eq {α β : Type} {x : α × β} {a : α} {b : β} (h : x = (a, b)) : x.1 = a := by rw [h]
theorem snd_eq_of_eq {α β : Type} {x : α × β} {a : α} {b : β} (h : x = (a, b)) : x.2 = b := by rw [h]

/-- Contraction block `s` of the product of row `r` of `x` with row `cc` of the weight. -/
def blockTerm (x : S8192x4096.Idx → EReal) (Wq : S4096x4096.Idx → EReal) (r : Fin 8192) (cc : Fin 4096) (s : ℕ) : EReal :=
  ∑ k : Fin 512, ext0 (fun K : Fin 4096 => x (ix2 r K) * Wq (ix2 cc K)) (s * 512 + k.val)

/-- A block product whose operands are blocks of `x` and of the weight at contraction block `s`. -/
theorem addend_pure (x : S8192x4096.Idx → EReal) (Wq : S4096x4096.Idx → EReal)
    (x0 : Vec Ideal S512x512 .f32) (x1 : Vec Ideal S1024x512 .f32) (p : Fin 512) (q : Fin 1024) (r : Fin 8192) (cc : Fin 4096)
    (s : ℕ) (hs : ∀ k : Fin 512, s * 512 + k.val < 4096)
    (h0 : ∀ k : Fin 512, x0 (ix2 p k) = x (ix2 r ⟨s * 512 + k.val, hs k⟩))
    (h1 : ∀ k : Fin 512, x1 (ix2 q k) = Wq (ix2 cc ⟨s * 512 + k.val, hs k⟩)) :
    ∑ k : Fin 512, x0 (ix2 p k) * x1 (ix2 q k) = blockTerm x Wq r cc s := by
  unfold blockTerm
  refine Finset.sum_congr rfl fun k _ => ?_
  rw [ext0_of_lt _ (hs k), h0 k, h1 k]

variable (V : (c : Dev nD) → (b : Ref sig .tc) → Buf (Elt Ideal) ((c : Thread nD τ).loc b))

/-- The arrays the region reads, as functions on their index types. -/
def aX (c : Dev nD) : S8192x4096.Idx → EReal := V c main_arg0
def aW (c : Dev nD) : S4096x4096.Idx → EReal := V c main_arg1
def aB (c : Dev nD) : S1x4096.Idx → EReal := V c main_v0
def aKv (c : Dev nD) : S8192x1.Idx → EReal := V c main_v3_0
def aKs (c : Dev nD) : S8192x1.Idx → EReal := V c main_v3_1

/-! The input blocks at a point, read at a block coordinate. -/

theorem iblk1_0_apply (c : Dev nD) (t : Fin cfg1.N) (p k : Fin 512) :
    iblk1 V c 0 t (ix2 p k) = aX V c (ix2 ⟨t.val / 32 * 512 + p.val, bRow1 t p⟩ ⟨t.val % 8 * 512 + k.val, bK1 t k⟩) :=
  read1_0 (Val := Elt Ideal) (aX V c) t p k
theorem iblk1_1_apply (c : Dev nD) (t : Fin cfg1.N) (q : Fin 1024) (k : Fin 512) :
    iblk1 V c 1 t (ix2 q k) = aW V c (ix2 ⟨t.val / 8 % 4 * 1024 + q.val, bCol1 t q⟩ ⟨t.val % 8 * 512 + k.val, bK1 t k⟩) :=
  read1_1 (Val := Elt Ideal) (aW V c) t q k
theorem iblk1_2_apply (c : Dev nD) (t : Fin cfg1.N) (z : Fin 1) (q : Fin 1024) :
    iblk1 V c 2 t (ix2 z q) = aB V c (ix2 (0 : Fin 1) ⟨t.val / 8 % 4 * 1024 + q.val, bCol1 t q⟩) :=
  read1_2 (Val := Elt Ideal) (aB V c) t z q
theorem iblk1_3_apply (c : Dev nD) (t : Fin cfg1.N) (p : Fin 512) (z : Fin 1) :
    iblk1 V c 3 t (ix2 p z) = aKv V c (ix2 ⟨t.val / 32 * 512 + p.val, bRow1 t p⟩ (0 : Fin 1)) :=
  read1_3 (Val := Elt Ideal) (aKv V c) t p z
theorem iblk1_4_apply (c : Dev nD) (t : Fin cfg1.N) (p : Fin 512) (z : Fin 1) :
    iblk1 V c 4 t (ix2 p z) = aKs V c (ix2 ⟨t.val / 32 * 512 + p.val, bRow1 t p⟩ (0 : Fin 1)) :=
  read1_4 (Val := Elt Ideal) (aKs V c) t p z

/-- The block product the body adds at point `t` is contraction block `t % 8` of the tile's rows. -/
theorem addend1 (c : Dev nD) (t : Fin cfg1.N) (p : Fin 512) (q : Fin 1024) (r : Fin 8192) (cc : Fin 4096)
    (hr : r.val = t.val / 32 * 512 + p.val) (hc : cc.val = t.val / 8 % 4 * 1024 + q.val)
    (x0 : Vec Ideal S512x512 .f32) (x1 : Vec Ideal S1024x512 .f32) (hx0 : x0 = iblk1 V c 0 t) (hx1 : x1 = iblk1 V c 1 t) :
    ∑ k : Fin 512, x0 (ix2 p k) * x1 (ix2 q k) = blockTerm (aX V c) (aW V c) r cc (t.val % 8) := by
  subst hx0 hx1
  have e0 : (⟨t.val / 32 * 512 + p.val, bRow1 t p⟩ : Fin 8192) = r := Fin.ext hr.symm
  have e1 : (⟨t.val / 8 % 4 * 1024 + q.val, bCol1 t q⟩ : Fin 4096) = cc := Fin.ext hc.symm
  exact addend_pure (aX V c) (aW V c) _ _ p q r cc (t.val % 8) (bK1 t)
    (fun k => (iblk1_0_apply V c t p k).trans (by rw [e0])) (fun k => (iblk1_1_apply V c t q k).trans (by rw [e1]))

/-- At a first block the accumulator is reset and the block product added. -/
theorem acc1_A (c : Dev nD) (t : Fin cfg1.N) (h0 : t.val % 8 = 0) (p : Fin 512) (q : Fin 1024) (r : Fin 8192) (cc : Fin 4096)
    (hr : r.val = t.val / 32 * 512 + p.val) (hc : cc.val = t.val / 8 % 4 * 1024 + q.val) :
    (outsAt1 V c t.val t.isLt).2 (ix2 p q)
      = ∑ s ∈ Finset.range (t.val % 8 + 1), blockTerm (aX V c) (aW V c) r cc s := by
  have h1 : ¬t.val % 8 = 7 := by omega
  have hv : (outsAt1 V c t.val t.isLt).2 = k1_pay2 (F := Ideal) (iblk1 V c 0 t) (iblk1 V c 1 t) (k1_pay1 (F := Ideal)) :=
    (snd_eq_of_eq (outsAt1_A V c t h0 h1)).trans
      (sout1_A_0_eq (F := Ideal) c (grid1.coords t) (ms1_0 t) (hs1_0 t) (ms1_1 t) (hs1_1 t) (ms1_2 t) (hs1_2 t) (ms1_3 t) (hs1_3 t)
      (ms1_4 t) (hs1_4 t) (ms1_5 t) (hs1_5 t) scM1_0 (Memref.isWhole_whole _) ((hcond1_0 t).mpr h0)
      (fun h => h1 ((hcond1_1 t).mp h)) (iblk1 V c 0 t) (iblk1 V c 1 t) (iblk1 V c 2 t) (iblk1 V c 3 t) (iblk1 V c 4 t))
  refine (congrFun hv (ix2 p q)).trans ?_
  refine (k1_pay2_apply (iblk1 V c 0 t) (iblk1 V c 1 t) (k1_pay1 (F := Ideal)) p q).trans ?_
  rw [k1_pay1_apply]
  refine (congrArg (0 + ·) (addend1 V c t p q r cc hr hc (iblk1 V c 0 t) (iblk1 V c 1 t) rfl rfl)).trans ?_
  rw [h0]
  exact range_start _

/-- At a later block the accumulator is what the point before left plus the block product. -/
theorem acc1_step (c : Dev nD) (t : Fin cfg1.N) (h0 : ¬t.val % 8 = 0) (p : Fin 512) (q : Fin 1024) (r : Fin 8192) (cc : Fin 4096)
    (hr : r.val = t.val / 32 * 512 + p.val) (hc : cc.val = t.val / 8 % 4 * 1024 + q.val)
    (ih : (outsAt1 V c (t.val - 1) (Nat.lt_of_le_of_lt (Nat.sub_le _ _) t.isLt)).2 (ix2 p q)
      = ∑ s ∈ Finset.range ((t.val - 1) % 8 + 1), blockTerm (aX V c) (aW V c) r cc s) :
    (outsAt1 V c t.val t.isLt).2 (ix2 p q)
      = ∑ s ∈ Finset.range (t.val % 8 + 1), blockTerm (aX V c) (aW V c) r cc s := by
  have hv : (outsAt1 V c t.val t.isLt).2 = k1_pay2 (F := Ideal) (iblk1 V c 0 t) (iblk1 V c 1 t)
      (outsAt1 V c (t.val - 1) (Nat.lt_of_le_of_lt (Nat.sub_le _ _) t.isLt)).2 := by
    by_cases h1 : t.val % 8 = 7
    · exact (snd_eq_of_eq (outsAt1_C V c t h0 h1)).trans
        (sout1_C_0_eq (F := Ideal) c (grid1.coords t) (ms1_0 t) (hs1_0 t) (ms1_1 t) (hs1_1 t) (ms1_2 t) (hs1_2 t) (ms1_3 t) (hs1_3 t)
      (ms1_4 t) (hs1_4 t) (ms1_5 t) (hs1_5 t) scM1_0 (Memref.isWhole_whole _) (fun h => h0 ((hcond1_0 t).mp h))
      ((hcond1_1 t).mpr h1) (iblk1 V c 0 t) (iblk1 V c 1 t) (iblk1 V c 2 t) (iblk1 V c 3 t) (iblk1 V c 4 t)
        (outsAt1 V c (t.val - 1) (Nat.lt_of_le_of_lt (Nat.sub_le _ _) t.isLt)).2)
    · exact (snd_eq_of_eq (outsAt1_B V c t h0 h1)).trans
        (sout1_B_0_eq (F := Ideal) c (grid1.coords t) (ms1_0 t) (hs1_0 t) (ms1_1 t) (hs1_1 t) (ms1_2 t) (hs1_2 t) (ms1_3 t) (hs1_3 t)
      (ms1_4 t) (hs1_4 t) (ms1_5 t) (hs1_5 t) scM1_0 (Memref.isWhole_whole _) (fun h => h0 ((hcond1_0 t).mp h))
      (fun h => h1 ((hcond1_1 t).mp h)) (iblk1 V c 0 t) (iblk1 V c 1 t) (iblk1 V c 2 t) (iblk1 V c 3 t) (iblk1 V c 4 t)
        (outsAt1 V c (t.val - 1) (Nat.lt_of_le_of_lt (Nat.sub_le _ _) t.isLt)).2)
  refine (congrFun hv (ix2 p q)).trans ?_
  refine (k1_pay2_apply (iblk1 V c 0 t) (iblk1 V c 1 t) _ p q).trans ?_
  refine (congrArg₂ (· + ·) ih (addend1 V c t p q r cc hr hc (iblk1 V c 0 t) (iblk1 V c 1 t) rfl rfl)).trans ?_
  have e : (t.val - 1) % 8 + 1 = t.val % 8 := by omega
  rw [e]
  exact (Finset.sum_range_succ _ _).symm

/-- THE ACCUMULATOR after the body at point `n`: the contraction blocks `0 … n % 8` of the tile's rows. -/
theorem acc1 (c : Dev nD) : ∀ (n : ℕ) (h : n < cfg1.N) (p : Fin 512) (q : Fin 1024) (r : Fin 8192) (cc : Fin 4096),
    r.val = n / 32 * 512 + p.val → cc.val = n / 8 % 4 * 1024 + q.val →
    (outsAt1 V c n h).2 (ix2 p q) = ∑ s ∈ Finset.range (n % 8 + 1), blockTerm (aX V c) (aW V c) r cc s
  | 0, h, p, q, r, cc, hr, hc => acc1_A V c ⟨0, h⟩ rfl p q r cc hr hc
  | n + 1, h, p, q, r, cc, hr, hc => by
    by_cases h0 : (n + 1) % 8 = 0
    · exact acc1_A V c ⟨n + 1, h⟩ h0 p q r cc hr hc
    · exact acc1_step V c ⟨n + 1, h⟩ h0 p q r cc hr hc
        (acc1 c n (Nat.lt_of_succ_lt h) p q r cc (by omega) (by omega))

/-- THE OUTPUT TILE at a last block: the result array's values at the tile's indices. -/
theorem tile1 (c : Dev nD) (t : Fin cfg1.N) (h1 : t.val % 8 = 7) (p : Fin 512) (q : Fin 1024) :
    (outsAt1 V c t.val t.isLt).1 (ix2 p q)
      = G1 (aX V c) (aW V c) (aB V c) (aKv V c) (aKs V c)
          (ix2 ⟨t.val / 32 * 512 + p.val, bRow1 t p⟩ ⟨t.val / 8 % 4 * 1024 + q.val, bCol1 t q⟩) := by
  have h0 : ¬t.val % 8 = 0 := by omega
  have hacc := acc1 V c t.val t.isLt p q ⟨t.val / 32 * 512 + p.val, bRow1 t p⟩ ⟨t.val / 8 % 4 * 1024 + q.val, bCol1 t q⟩ rfl rfl
  rw [h1] at hacc
  have hsum : (outsAt1 V c t.val t.isLt).2 (ix2 p q)
      = ∑ K : Fin 4096, aX V c (ix2 ⟨t.val / 32 * 512 + p.val, bRow1 t p⟩ K)
          * aW V c (ix2 ⟨t.val / 8 % 4 * 1024 + q.val, bCol1 t q⟩ K) :=
    hacc.trans (sum_range_blocks_8_512 _)
  have hs : sout1_C_0 (F := Ideal) c (grid1.coords t) (ms1_0 t) (hs1_0 t) (ms1_1 t) (hs1_1 t) (ms1_2 t) (hs1_2 t) (ms1_3 t) (hs1_3 t)
      (ms1_4 t) (hs1_4 t) (ms1_5 t) (hs1_5 t) scM1_0 (Memref.isWhole_whole _) (fun h => h0 ((hcond1_0 t).mp h)) ((hcond1_1 t).mpr h1)
      (iblk1 V c 0 t) (iblk1 V c 1 t) (iblk1 V c 2 t) (iblk1 V c 3 t) (iblk1 V c 4 t) (outsAt1 V c (t.val - 1) (Nat.lt_of_le_of_lt (Nat.sub_le _ _) t.isLt)).2
      = (outsAt1 V c t.val t.isLt).2 := (snd_eq_of_eq (outsAt1_C V c t h0 h1)).symm
  have hv : (outsAt1 V c t.val t.isLt).1 = k1_pay3 (F := Ideal) (outsAt1 V c t.val t.isLt).2 (iblk1 V c 2 t) (iblk1 V c 3 t) (iblk1 V c 4 t) := by
    refine (fst_eq_of_eq (outsAt1_C V c t h0 h1)).trans ?_
    refine (out1_C_5_eq (F := Ideal) c (grid1.coords t) (ms1_0 t) (hs1_0 t) (ms1_1 t) (hs1_1 t) (ms1_2 t) (hs1_2 t) (ms1_3 t) (hs1_3 t)
      (ms1_4 t) (hs1_4 t) (ms1_5 t) (hs1_5 t) scM1_0 (Memref.isWhole_whole _) (fun h => h0 ((hcond1_0 t).mp h))
      ((hcond1_1 t).mpr h1) (iblk1 V c 0 t) (iblk1 V c 1 t) (iblk1 V c 2 t) (iblk1 V c 3 t) (iblk1 V c 4 t)
      (outsAt1 V c (t.val - 1) (Nat.lt_of_le_of_lt (Nat.sub_le _ _) t.isLt)).2).trans ?_
    refine congrArg (fun a => k1_pay3 (F := Ideal) a (iblk1 V c 2 t) (iblk1 V c 3 t) (iblk1 V c 4 t)) ?_
    exact (sout1_C_0_eq (F := Ideal) c (grid1.coords t) (ms1_0 t) (hs1_0 t) (ms1_1 t) (hs1_1 t) (ms1_2 t) (hs1_2 t) (ms1_3 t) (hs1_3 t)
      (ms1_4 t) (hs1_4 t) (ms1_5 t) (hs1_5 t) scM1_0 (Memref.isWhole_whole _) (fun h => h0 ((hcond1_0 t).mp h))
      ((hcond1_1 t).mpr h1) (iblk1 V c 0 t) (iblk1 V c 1 t) (iblk1 V c 2 t) (iblk1 V c 3 t) (iblk1 V c 4 t)
      (outsAt1 V c (t.val - 1) (Nat.lt_of_le_of_lt (Nat.sub_le _ _) t.isLt)).2).symm.trans hs
  refine (congrFun hv (ix2 p q)).trans ?_
  refine (k1_pay3_apply (outsAt1 V c t.val t.isLt).2 (iblk1 V c 2 t) (iblk1 V c 3 t) (iblk1 V c 4 t) p q).trans ?_
  rw [hsum, iblk1_2_apply V c t 0 q, iblk1_3_apply V c t p 0, iblk1_4_apply V c t p 0]
  rfl

/-- What a flushing point writes back is its block of the result array. -/
theorem flushed1_eq (c : Dev nD) (t : Fin cfg1.N) (hf : (cfg1.win 5).flush t = true) :
    (dat1 V c).flushed 5 t = ((cfg1.win 5).blk t).view.read (Elt Ideal)
      (G1 (aX V c) (aW V c) (aB V c) (aKv V c) (aKs V c)) := by
  have h1 : t.val % 8 = 7 := (flush1_5 t).mp hf
  show (cfg1.win 5).cut (grid1.coords t) ((dat1 V c).after 5 t) = _
  rw [after1_5]
  funext y
  obtain ⟨p, q, rfl⟩ : ∃ (p : Fin 512) (q : Fin 1024), y = ix2 p q := ⟨y 0, y 1, eq_ix2 y⟩
  show (outsAt1 V c t.val t.isLt).1 (ix2 p q)
    = G1 (aX V c) (aW V c) (aB V c) (aKv V c) (aKs V c) (((cfg1.win 5).blk t).view.emb (ix2 p q))
  rw [emb1_5]
  exact tile1 V c t h1 p q

/-- THE RESULT ARRAY after the region. -/
theorem final1 (c : Dev nD) :
    (dat1 V c).arrAt 5 cfg1.N = G1 (aX V c) (aW V c) (aB V c) (aKv V c) (aKs V c) :=
  (dat1 V c).arrAt_eq_of_cover 5 _ (flushed1_eq V c) cover1_5

/-- The same over the region's entry contents spelt out. -/
theorem final1' (c : Dev nD) :
    (dat1 V c).arrAt 5 cfg1.N = G1 (V c main_arg0) (V c main_arg1) (V c main_v0) (V c main_v3_0) (V c main_v3_1) :=
  final1 V c

end Cert.KernelIdeal.R1

end
-- ==== Proof.K0Value.lean ====
import proofs.«156116_j68702296867130_1_alg».proof.Proof.K0Frame
import Idealize.ShloMosaic.Lib.Pipeline.Value

/-! # The first region's values

What each case's stores leave in each buffer, as the kernel's own payload terms of the input blocks
and of the scratch buffers' previous contents: an accumulator becomes its previous contents (zero at
the start of a sum over kk) plus the product of the row block with the transposed weight block; at
the end of a sum over kk each statistics column takes the row sums of an expression of the two
finished accumulators and the bias rows; at the end of a row block the columns are copied out. -/

-- membership in a rectangle of these extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- Case A: the key accumulator is cleared, read back, and the first block product added. -/
theorem sout0_A_0_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) :
    sout0_A_0 c i arg3 harg3 arg4 harg4 arg5 harg5 arg6 harg6 arg7 harg7 arg8 harg8 arg9 harg9 arg10 harg10 arg11 harg11 arg12 harg12 arg13 harg13 hc0 hc1 hc2 hc3 x0 x1 x2 x3 x4 = k0_pay6 x0 x1 (k0_pay3 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 hc2 hc3 x0 x1 x2 x3 x4)]
  unfold kernelRun0_A
  dsimp only
  try sl_unfold_words
  first | rw [View.canon_unit_zero hz] | rw [View.canon_cons_unit_zero (S := S512x1024) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

/-- Case A: the value accumulator is cleared, read back, and the first block product added. -/
theorem sout0_A_1_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) :
    sout0_A_1 c i arg3 harg3 arg4 harg4 arg5 harg5 arg6 harg6 arg7 harg7 arg8 harg8 arg9 harg9 arg10 harg10 arg11 harg11 arg12 harg12 arg13 harg13 hc0 hc1 hc2 hc3 x0 x1 x2 x3 x4 = k0_pay7 x0 x3 (k0_pay4 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 hc1 hc2 hc3 x0 x1 x2 x3 x4)]
  unfold kernelRun0_A
  dsimp only
  try sl_unfold_words
  first | rw [View.canon_unit_zero hz] | rw [View.canon_cons_unit_zero (S := S512x1024) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

/-- Case A: the first statistics column is cleared. -/
theorem sout0_A_2_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) :
    sout0_A_2 c i arg3 harg3 arg4 harg4 arg5 harg5 arg6 harg6 arg7 harg7 arg8 harg8 arg9 harg9 arg10 harg10 arg11 harg11 arg12 harg12 arg13 harg13 hc0 hc1 hc2 hc3 x0 x1 x2 x3 x4 = k0_pay1 (F := F) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 hc0 hc1 hc2 hc3 x0 x1 x2 x3 x4)]
  unfold kernelRun0_A
  dsimp only
  try sl_unfold_words
  first | rw [View.canon_unit_zero hz] | rw [View.canon_cons_unit_zero (S := S512x1) hz]

/-- Case A: the second statistics column is cleared. -/
theorem sout0_A_3_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) :
    sout0_A_3 c i arg3 harg3 arg4 harg4 arg5 harg5 arg6 harg6 arg7 harg7 arg8 harg8 arg9 harg9 arg10 harg10 arg11 harg11 arg12 harg12 arg13 harg13 hc0 hc1 hc2 hc3 x0 x1 x2 x3 x4 = k0_pay2 (F := F) := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 hc0 hc1 hc2 hc3 x0 x1 x2 x3 x4)]
  unfold kernelRun0_A
  dsimp only
  try sl_unfold_words
  first | rw [View.canon_unit_zero hz] | rw [View.canon_cons_unit_zero (S := S512x1) hz]

/-- Case B: the key accumulator is cleared, read back, and the block product added. -/
theorem sout0_B_0_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) :
    sout0_B_0 c i arg3 harg3 arg4 harg4 arg5 harg5 arg6 harg6 arg7 harg7 arg8 harg8 arg9 harg9 arg10 harg10 arg11 harg11 arg12 harg12 arg13 harg13 hc0 hc1 hc2 hc3 x0 x1 x2 x3 x4 = k0_pay6 x0 x1 (k0_pay3 (F := F)) := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 hc0 hc1 hc2 hc3 x0 x1 x2 x3 x4)]
  unfold kernelRun0_B
  dsimp only
  try sl_unfold_words
  first | rw [View.canon_unit_zero hz] | rw [View.canon_cons_unit_zero (S := S512x1024) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

/-- Case B: the value accumulator is cleared, read back, and the block product added. -/
theorem sout0_B_1_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) :
    sout0_B_1 c i arg3 harg3 arg4 harg4 arg5 harg5 arg6 harg6 arg7 harg7 arg8 harg8 arg9 harg9 arg10 harg10 arg11 harg11 arg12 harg12 arg13 harg13 hc0 hc1 hc2 hc3 x0 x1 x2 x3 x4 = k0_pay7 x0 x3 (k0_pay4 (F := F)) := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 hc0 hc1 hc2 hc3 x0 x1 x2 x3 x4)]
  unfold kernelRun0_B
  dsimp only
  try sl_unfold_words
  first | rw [View.canon_unit_zero hz] | rw [View.canon_cons_unit_zero (S := S512x1024) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

/-- Case C: the key accumulator becomes its previous contents plus the block product. -/
theorem sout0_C_0_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) :
    sout0_C_0 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 = k0_pay6 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1)]
  unfold kernelRun0_C
  dsimp only
  try sl_unfold_words
  first | rw [View.canon_unit_zero hz] | rw [View.canon_cons_unit_zero (S := S512x1024) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

/-- Case C: the value accumulator becomes its previous contents plus the block product. -/
theorem sout0_C_1_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : ¬cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) :
    sout0_C_1 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 = k0_pay7 x0 x3 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1)]
  unfold kernelRun0_C
  dsimp only
  try sl_unfold_words
  first | rw [View.canon_unit_zero hz] | rw [View.canon_cons_unit_zero (S := S512x1024) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

/-- Case D: the key accumulator takes its last block product. -/
theorem sout0_D_0_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) :
    sout0_D_0 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3 = k0_pay6 x0 x1 xs0 := by
  unfold sout0_D_0
  rw [View.read_writes_eq_canon _ _ _ (scover0_D_0 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3)]
  unfold kernelRun0_D
  dsimp only
  try sl_unfold_words
  first | rw [View.canon_unit_zero hz] | rw [View.canon_cons_unit_zero (S := S512x1024) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

/-- Case D: the value accumulator takes its last block product. -/
theorem sout0_D_1_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) :
    sout0_D_1 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3 = k0_pay7 x0 x3 xs1 := by
  unfold sout0_D_1
  rw [View.read_writes_eq_canon _ _ _ (scover0_D_1 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3)]
  unfold kernelRun0_D
  dsimp only
  try sl_unfold_words
  first | rw [View.canon_unit_zero hz] | rw [View.canon_cons_unit_zero (S := S512x1024) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

/-- Case D: the first statistics column takes the row sums of the product of the two finished, biased accumulators. -/
theorem sout0_D_2_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) :
    sout0_D_2 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3 = k0_pay9 (k0_pay6 x0 x1 xs0) x2 (k0_pay7 x0 x3 xs1) x4 xs2 := by
  unfold sout0_D_2
  rw [View.read_writes_eq_canon _ _ _ (scover0_D_2 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3)]
  unfold kernelRun0_D
  dsimp only
  try sl_unfold_words
  first | rw [View.canon_unit_zero hz] | rw [View.canon_cons_unit_zero (S := S512x1) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

/-- Case D: the second statistics column takes the row sums of the absolute value of the finished, biased key accumulator. -/
theorem sout0_D_3_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : ¬cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) :
    sout0_D_3 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3 = k0_pay10 (k0_pay6 x0 x1 xs0) x2 xs3 := by
  unfold sout0_D_3
  rw [View.read_writes_eq_canon _ _ _ (scover0_D_3 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3)]
  unfold kernelRun0_D
  dsimp only
  try sl_unfold_words
  first | rw [View.canon_unit_zero hz] | rw [View.canon_cons_unit_zero (S := S512x1) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

/-- Case E: the first output is the first statistics column as just updated. -/
theorem out0_E_5_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) :
    out0_E_5 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3 = k0_pay9 (k0_pay6 x0 x1 xs0) x2 (k0_pay7 x0 x3 xs1) x4 xs2 := by
  unfold out0_E_5
  rw [View.read_writes_eq_canon _ _ _ (cover0_E_5 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3)]
  unfold kernelRun0_E
  dsimp only
  try sl_unfold_words
  first | rw [View.canon_unit_zero hz] | rw [View.canon_cons_unit_zero (S := S512x1) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

/-- Case E: the second output is the second statistics column as just updated. -/
theorem out0_E_6_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) :
    out0_E_6 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3 = k0_pay10 (k0_pay6 x0 x1 xs0) x2 xs3 := by
  unfold out0_E_6
  rw [View.read_writes_eq_canon _ _ _ (cover0_E_6 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3)]
  unfold kernelRun0_E
  dsimp only
  try sl_unfold_words
  first | rw [View.canon_unit_zero hz] | rw [View.canon_cons_unit_zero (S := S512x1) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

/-- Case E: the key accumulator takes its last block product. -/
theorem sout0_E_0_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) :
    sout0_E_0 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3 = k0_pay6 x0 x1 xs0 := by
  unfold sout0_E_0
  rw [View.read_writes_eq_canon _ _ _ (scover0_E_0 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3)]
  unfold kernelRun0_E
  dsimp only
  try sl_unfold_words
  first | rw [View.canon_unit_zero hz] | rw [View.canon_cons_unit_zero (S := S512x1024) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

/-- Case E: the value accumulator takes its last block product. -/
theorem sout0_E_1_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) :
    sout0_E_1 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3 = k0_pay7 x0 x3 xs1 := by
  unfold sout0_E_1
  rw [View.read_writes_eq_canon _ _ _ (scover0_E_1 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3)]
  unfold kernelRun0_E
  dsimp only
  try sl_unfold_words
  first | rw [View.canon_unit_zero hz] | rw [View.canon_cons_unit_zero (S := S512x1024) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

/-- Case E: the first statistics column takes its last row sums. -/
theorem sout0_E_2_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) :
    sout0_E_2 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3 = k0_pay9 (k0_pay6 x0 x1 xs0) x2 (k0_pay7 x0 x3 xs1) x4 xs2 := by
  unfold sout0_E_2
  rw [View.read_writes_eq_canon _ _ _ (scover0_E_2 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3)]
  unfold kernelRun0_E
  dsimp only
  try sl_unfold_words
  first | rw [View.canon_unit_zero hz] | rw [View.canon_cons_unit_zero (S := S512x1) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

/-- Case E: the second statistics column takes its last row sums. -/
theorem sout0_E_3_eq (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (hc2 : cond0_2 i) (hc3 : cond0_3 i)
    (x0 : Vec F S512x512 .f32) (x1 : Vec F S1024x512 .f32) (x2 : Vec F S1x1024 .f32) (x3 : Vec F S1024x512 .f32) (x4 : Vec F S1x1024 .f32) (xs0 : Vec F S512x1024 .f32) (xs1 : Vec F S512x1024 .f32) (xs2 : Vec F S512x1 .f32) (xs3 : Vec F S512x1 .f32) :
    sout0_E_3 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3 = k0_pay10 (k0_pay6 x0 x1 xs0) x2 xs3 := by
  unfold sout0_E_3
  rw [View.read_writes_eq_canon _ _ _ (scover0_E_3 c i arg3 harg3 arg4 harg4 arg5 harg5 arg6 harg6 arg7 harg7 arg8 harg8 arg9 harg9 arg10 harg10 arg11 harg11 arg12 harg12 arg13 harg13 hc0 hc1 hc2 hc3 x0 x1 x2 x3 x4 xs0 xs1 xs2 xs3)]
  unfold kernelRun0_E
  dsimp only
  try sl_unfold_words
  first | rw [View.canon_unit_zero hz] | rw [View.canon_cons_unit_zero (S := S512x1) hz]
  simp only [View.readAt_eq_ld, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S1024x512) hz, View.ld_unit_zero (S := S1x1024) hz, View.ld_unit_zero (S := S512x1024) hz, View.ld_unit_zero (S := S512x1) hz, View.readCov_unit_zero (S := S512x1024) _ hz, View.readCov_unit_zero (S := S512x1) _ hz]

end Cert.KernelIdeal.R0

end
-- ==== Proof.Pay0.lean ====
/- The first kernel's stored values read at an index, over the extended reals: the zero fills, the
   blocked matrix products accumulated into a scratch block, the bias add, and the two column sums
   accumulated into a one-column block. -/
import proofs.«156116_j68702296867130_1_alg».proof.Proof.PayLib

noncomputable section

open scoped BigOperators

namespace Cert.KernelIdeal.Pay

open Cert.KernelIdeal Cert.KernelIdeal.Gen Idealize.ShloMosaic Idealize.ShloMosaic.ValueIdx

/-- The zero fill of the two one-column accumulators. -/
theorem k0_pay1_apply (j : S512x1.Idx) : k0_pay1 (F := Ideal) j = 0 := by
  unfold k0_pay1
  rw [shapeCast_self]
  exact Ideal.ofBits_zero_f32
theorem k0_pay2_apply (j : S512x1.Idx) : k0_pay2 (F := Ideal) j = 0 := by
  unfold k0_pay2
  rw [shapeCast_self]
  exact Ideal.ofBits_zero_f32

/-- The zero fill of the two projection accumulators. -/
theorem k0_pay3_apply (j : S512x1024.Idx) : k0_pay3 (F := Ideal) j = 0 := by
  unfold k0_pay3
  rw [shapeCast_self]
  exact Ideal.ofBits_zero_f32
theorem k0_pay4_apply (j : S512x1024.Idx) : k0_pay4 (F := Ideal) j = 0 := by
  unfold k0_pay4
  rw [shapeCast_self]
  exact Ideal.ofBits_zero_f32

/-- The accumulated key-projection block: what was there plus this step's block product. -/
theorem k0_pay6_apply (v8 : Vec Ideal S512x512 .f32) (v10 : Vec Ideal S1024x512 .f32) (v14 : Vec Ideal S512x1024 .f32)
    (p : Fin 512) (q : Fin 1024) :
    k0_pay6 (F := Ideal) v8 v10 v14 (ix2 p q) = v14 (ix2 p q) + ∑ k : Fin 512, v8 (ix2 p k) * v10 (ix2 q k) := by
  unfold k0_pay6 k0_pay5
  dsimp only
  rw [shapeCast_self, addf_apply, matmul_zero_apply]
  rfl

/-- The accumulated value-projection block, likewise. -/
theorem k0_pay7_apply (v8 : Vec Ideal S512x512 .f32) (v12 : Vec Ideal S1024x512 .f32) (v20 : Vec Ideal S512x1024 .f32)
    (p : Fin 512) (q : Fin 1024) :
    k0_pay7 (F := Ideal) v8 v12 v20 (ix2 p q) = v20 (ix2 p q) + ∑ k : Fin 512, v8 (ix2 p k) * v12 (ix2 q k) := by
  unfold k0_pay7 k0_pay5
  dsimp only
  rw [shapeCast_self, addf_apply, matmul_zero_apply]
  rfl

/-- The bias added to a finished projection block: the bias row at the column. -/
theorem k0_pay8_apply (v34 : Vec Ideal S512x1024 .f32) (v35 : Vec Ideal S1x1024 .f32) (p : Fin 512) (q : Fin 1024) :
    k0_pay8 (F := Ideal) v34 v35 (ix2 p q) = v34 (ix2 p q) + v35 (ix2 (0 : Fin 1) q) := by
  unfold k0_pay8
  rw [shapeCast_self, addf_apply, broadcastTo_1b_ab_apply]

/-- The accumulated row sums of key times value over this block of 1024 columns. -/
theorem k0_pay9_apply (v34 : Vec Ideal S512x1024 .f32) (v35 : Vec Ideal S1x1024 .f32) (v39 : Vec Ideal S512x1024 .f32)
    (v40 : Vec Ideal S1x1024 .f32) (v44 : Vec Ideal S512x1 .f32) (p : Fin 512) (z : Fin 1) :
    k0_pay9 (F := Ideal) v34 v35 v39 v40 v44 (ix2 p z)
      = v44 (ix2 p z) + ∑ n : Fin 1024, (v34 (ix2 p n) + v35 (ix2 (0 : Fin 1) n)) * (v39 (ix2 p n) + v40 (ix2 (0 : Fin 1) n)) := by
  unfold k0_pay9
  dsimp only
  rw [shapeCast_self, addf_apply, shapeCast_a_a1_apply, rowsum_apply]
  refine congrArg (_ + ·) (Finset.sum_congr rfl fun n _ => ?_)
  rw [mulf_apply, k0_pay8_apply, addf_apply, shapeCast_self, broadcastTo_1b_ab_apply]

/-- The accumulated row sums of the key's absolute value over this block of 1024 columns. -/
theorem k0_pay10_apply (v34 : Vec Ideal S512x1024 .f32) (v35 : Vec Ideal S1x1024 .f32) (v52 : Vec Ideal S512x1 .f32)
    (p : Fin 512) (z : Fin 1) :
    k0_pay10 (F := Ideal) v34 v35 v52 (ix2 p z)
      = v52 (ix2 p z) + ∑ n : Fin 1024, max (v34 (ix2 p n) + v35 (ix2 (0 : Fin 1) n)) (-(v34 (ix2 p n) + v35 (ix2 (0 : Fin 1) n))) := by
  unfold k0_pay10
  dsimp only
  rw [shapeCast_self, addf_apply, shapeCast_a_a1_apply, rowsum_apply]
  refine congrArg (_ + ·) (Finset.sum_congr rfl fun n _ => ?_)
  show max (k0_pay8 (F := Ideal) v34 v35 (ix2 p n)) (-(k0_pay8 (F := Ideal) v34 v35 (ix2 p n))) = _
  rw [k0_pay8_apply]

end Cert.KernelIdeal.Pay

end
-- ==== Proof.BlockRead0.lean ====
/- Where the first kernel's blocks sit in their arrays. The grid has 16 × 4 × 8 points, numbered
   `t = i · 32 + j · 8 + kk`: `i = t / 32` is the block of 512 rows, `j = (t / 8) % 4` the block of 1024
   features, `kk = t % 8` the block of 512 contraction positions. A block's element at a block coordinate is
   the array's element at block index × block size + the coordinate, on each axis. Also the bias vectors
   viewed as one-row matrices before the kernel runs. -/
import proofs.«156116_j68702296867130_1_alg».proof.Proof.Gen.KernelIdeal.Launch
import proofs.«156116_j68702296867130_1_alg».proof.Proof.Gen.KernelIdeal.Points
import Idealize.ShloMosaic.Lib.Pipeline.Value
import Idealize.ShloMosaic.Lib.ValueIdx
import Idealize.ShloMosaic.Lib.ValueLayout

noncomputable section

namespace Cert.KernelIdeal.Blk

open Cert.KernelIdeal Cert.KernelIdeal.Gen Idealize.ShloMosaic Idealize.ShloMosaic.ValueIdx

/-! ## The block indices, decided over the grid -/

theorem idx0_0 : ∀ t : Fin cfg0.N, win0_0.index t (0 : Fin 2) = t.val / 32 ∧ win0_0.index t (1 : Fin 2) = t.val % 8 :=
  (by decide +kernel : ∀ t : Fin grid0.N, _)
theorem idx0_1 : ∀ t : Fin cfg0.N, win0_1.index t (0 : Fin 2) = t.val / 8 % 4 ∧ win0_1.index t (1 : Fin 2) = t.val % 8 :=
  (by decide +kernel : ∀ t : Fin grid0.N, _)
theorem idx0_2 : ∀ t : Fin cfg0.N, win0_2.index t (0 : Fin 2) = 0 ∧ win0_2.index t (1 : Fin 2) = t.val / 8 % 4 :=
  (by decide +kernel : ∀ t : Fin grid0.N, _)
theorem idx0_3 : ∀ t : Fin cfg0.N, win0_3.index t (0 : Fin 2) = t.val / 8 % 4 ∧ win0_3.index t (1 : Fin 2) = t.val % 8 :=
  (by decide +kernel : ∀ t : Fin grid0.N, _)
theorem idx0_4 : ∀ t : Fin cfg0.N, win0_4.index t (0 : Fin 2) = 0 ∧ win0_4.index t (1 : Fin 2) = t.val / 8 % 4 :=
  (by decide +kernel : ∀ t : Fin grid0.N, _)
theorem idx0_5 : ∀ t : Fin cfg0.N, win0_5.index t (0 : Fin 2) = t.val / 32 ∧ win0_5.index t (1 : Fin 2) = 0 :=
  (by decide +kernel : ∀ t : Fin grid0.N, _)
theorem idx0_6 : ∀ t : Fin cfg0.N, win0_6.index t (0 : Fin 2) = t.val / 32 ∧ win0_6.index t (1 : Fin 2) = 0 :=
  (by decide +kernel : ∀ t : Fin grid0.N, _)

/-! ## Bounds of the array coordinates -/

theorem lt0 (t : Fin cfg0.N) : t.val < 512 := Nat.lt_of_lt_of_eq t.isLt N_0
theorem bRow0 (t : Fin cfg0.N) (p : Fin 512) : t.val / 32 * 512 + p.val < 8192 := by
  have := lt0 t; have := p.isLt; omega
theorem bK0 (t : Fin cfg0.N) (k : Fin 512) : t.val % 8 * 512 + k.val < 4096 := by
  have := k.isLt; omega
theorem bCol0 (t : Fin cfg0.N) (q : Fin 1024) : t.val / 8 % 4 * 1024 + q.val < 4096 := by
  have := q.isLt; omega

variable {Val : EltTy → Type}

/-! ## The input blocks read at a block coordinate -/

/-- The `x` block: rows `i · 512 + p`, contraction positions `kk · 512 + k`. -/
theorem read0_0 (X : S8192x4096.Idx → Val .f32) (t : Fin cfg0.N) (p k : Fin 512) :
    ((cfg0.win 0).blk t).view.read Val X (ix2 p k)
      = X (ix2 ⟨t.val / 32 * 512 + p.val, bRow0 t p⟩ ⟨t.val % 8 * 512 + k.val, bK0 t k⟩) := by
  obtain ⟨e0, e1⟩ := idx0_0 t
  show X (((cfg0.win 0).blk t).view.emb (ix2 p k)) = _
  refine congrArg X (funext fun a => Fin.ext ?_)
  match a with
  | ⟨0, _⟩ => show win0_0.index t (0 : Fin 2) * 512 + 1 * p.val = t.val / 32 * 512 + p.val; rw [e0]; omega
  | ⟨1, _⟩ => show win0_0.index t (1 : Fin 2) * 512 + 1 * k.val = t.val % 8 * 512 + k.val; rw [e1]; omega

/-- The key weight block: weight rows `j · 1024 + q`, contraction positions `kk · 512 + k`. -/
theorem read0_1 (X : S4096x4096.Idx → Val .f32) (t : Fin cfg0.N) (q : Fin 1024) (k : Fin 512) :
    ((cfg0.win 1).blk t).view.read Val X (ix2 q k)
      = X (ix2 ⟨t.val / 8 % 4 * 1024 + q.val, bCol0 t q⟩ ⟨t.val % 8 * 512 + k.val, bK0 t k⟩) := by
  obtain ⟨e0, e1⟩ := idx0_1 t
  show X (((cfg0.win 1).blk t).view.emb (ix2 q k)) = _
  refine congrArg X (funext fun a => Fin.ext ?_)
  match a with
  | ⟨0, _⟩ => show win0_1.index t (0 : Fin 2) * 1024 + 1 * q.val = t.val / 8 % 4 * 1024 + q.val; rw [e0]; omega
  | ⟨1, _⟩ => show win0_1.index t (1 : Fin 2) * 512 + 1 * k.val = t.val % 8 * 512 + k.val; rw [e1]; omega

/-- The key bias block: positions `j · 1024 + q` of the one row. -/
theorem read0_2 (X : S1x4096.Idx → Val .f32) (t : Fin cfg0.N) (z : Fin 1) (q : Fin 1024) :
    ((cfg0.win 2).blk t).view.read Val X (ix2 z q)
      = X (ix2 (0 : Fin 1) ⟨t.val / 8 % 4 * 1024 + q.val, bCol0 t q⟩) := by
  obtain ⟨e0, e1⟩ := idx0_2 t
  show X (((cfg0.win 2).blk t).view.emb (ix2 z q)) = _
  refine congrArg X (funext fun a => Fin.ext ?_)
  match a with
  | ⟨0, _⟩ => show win0_2.index t (0 : Fin 2) * 1 + 1 * z.val = 0; rw [e0]; omega
  | ⟨1, _⟩ => show win0_2.index t (1 : Fin 2) * 1024 + 1 * q.val = t.val / 8 % 4 * 1024 + q.val; rw [e1]; omega

/-- The value weight block, as the key's. -/
theorem read0_3 (X : S4096x4096.Idx → Val .f32) (t : Fin cfg0.N) (q : Fin 1024) (k : Fin 512) :
    ((cfg0.win 3).blk t).view.read Val X (ix2 q k)
      = X (ix2 ⟨t.val / 8 % 4 * 1024 + q.val, bCol0 t q⟩ ⟨t.val % 8 * 512 + k.val, bK0 t k⟩) := by
  obtain ⟨e0, e1⟩ := idx0_3 t
  show X (((cfg0.win 3).blk t).view.emb (ix2 q k)) = _
  refine congrArg X (funext fun a => Fin.ext ?_)
  match a with
  | ⟨0, _⟩ => show win0_3.index t (0 : Fin 2) * 1024 + 1 * q.val = t.val / 8 % 4 * 1024 + q.val; rw [e0]; omega
  | ⟨1, _⟩ => show win0_3.index t (1 : Fin 2) * 512 + 1 * k.val = t.val % 8 * 512 + k.val; rw [e1]; omega

/-- The value bias block, as the key's. -/
theorem read0_4 (X : S1x4096.Idx → Val .f32) (t : Fin cfg0.N) (z : Fin 1) (q : Fin 1024) :
    ((cfg0.win 4).blk t).view.read Val X (ix2 z q)
      = X (ix2 (0 : Fin 1) ⟨t.val / 8 % 4 * 1024 + q.val, bCol0 t q⟩) := by
  obtain ⟨e0, e1⟩ := idx0_4 t
  show X (((cfg0.win 4).blk t).view.emb (ix2 z q)) = _
  refine congrArg X (funext fun a => Fin.ext ?_)
  match a with
  | ⟨0, _⟩ => show win0_4.index t (0 : Fin 2) * 1 + 1 * z.val = 0; rw [e0]; omega
  | ⟨1, _⟩ => show win0_4.index t (1 : Fin 2) * 1024 + 1 * q.val = t.val / 8 % 4 * 1024 + q.val; rw [e1]; omega

/-! ## The output blocks: where a block coordinate lands, membership, and the cover -/

/-- The `kv` block's element `(p, z)` is the array's element `(i · 512 + p, 0)`. -/
theorem emb0_5 (t : Fin cfg0.N) (p : Fin 512) (z : Fin 1) :
    ((cfg0.win 5).blk t).view.emb (ix2 p z) = ix2 ⟨t.val / 32 * 512 + p.val, bRow0 t p⟩ (0 : Fin 1) := by
  obtain ⟨e0, e1⟩ := idx0_5 t
  refine funext fun a => Fin.ext ?_
  match a with
  | ⟨0, _⟩ => show win0_5.index t (0 : Fin 2) * 512 + 1 * p.val = t.val / 32 * 512 + p.val; rw [e0]; omega
  | ⟨1, _⟩ => show win0_5.index t (1 : Fin 2) * 1 + 1 * z.val = 0; rw [e1]; omega

/-- The `ks` block's, likewise. -/
theorem emb0_6 (t : Fin cfg0.N) (p : Fin 512) (z : Fin 1) :
    ((cfg0.win 6).blk t).view.emb (ix2 p z) = ix2 ⟨t.val / 32 * 512 + p.val, bRow0 t p⟩ (0 : Fin 1) := by
  obtain ⟨e0, e1⟩ := idx0_6 t
  refine funext fun a => Fin.ext ?_
  match a with
  | ⟨0, _⟩ => show win0_6.index t (0 : Fin 2) * 512 + 1 * p.val = t.val / 32 * 512 + p.val; rw [e0]; omega
  | ⟨1, _⟩ => show win0_6.index t (1 : Fin 2) * 1 + 1 * z.val = 0; rw [e1]; omega

/-- The output blocks read at a block coordinate. -/
theorem read0_5 (X : S8192x1.Idx → Val .f32) (t : Fin cfg0.N) (p : Fin 512) (z : Fin 1) :
    ((cfg0.win 5).blk t).view.read Val X (ix2 p z) = X (ix2 ⟨t.val / 32 * 512 + p.val, bRow0 t p⟩ (0 : Fin 1)) := by
  show X (((cfg0.win 5).blk t).view.emb (ix2 p z)) = _
  rw [emb0_5]
theorem read0_6 (X : S8192x1.Idx → Val .f32) (t : Fin cfg0.N) (p : Fin 512) (z : Fin 1) :
    ((cfg0.win 6).blk t).view.read Val X (ix2 p z) = X (ix2 ⟨t.val / 32 * 512 + p.val, bRow0 t p⟩ (0 : Fin 1)) := by
  show X (((cfg0.win 6).blk t).view.emb (ix2 p z)) = _
  rw [emb0_6]

/-- An index of the `kv` array is in point `t`'s block iff each coordinate is in the block's range. -/
theorem mem_blk0_5 (t : Fin cfg0.N) (i : S8192x1.Idx) :
    i ∈ ((cfg0.win 5).blk t).view.set ↔ ∀ a : Fin 2, win0_5.index t a * S512x1.size a ≤ (i a).val
      ∧ (i a).val < win0_5.index t a * S512x1.size a + S512x1.size a := by
  show i ∈ ((View.whole main_v3_0).slice (win0_5.rect t)).set ↔ _
  rw [View.set_slice_whole, Rect.mem_set_unit]
  exact Iff.rfl
theorem mem_blk0_6 (t : Fin cfg0.N) (i : S8192x1.Idx) :
    i ∈ ((cfg0.win 6).blk t).view.set ↔ ∀ a : Fin 2, win0_6.index t a * S512x1.size a ≤ (i a).val
      ∧ (i a).val < win0_6.index t a * S512x1.size a + S512x1.size a := by
  show i ∈ ((View.whole main_v3_1).slice (win0_6.rect t)).set ↔ _
  rw [View.set_slice_whole, Rect.mem_set_unit]
  exact Iff.rfl

/-- The last point of row block `r / 512`: the one that writes rows `r`'s block back. -/
def lastOf0 (r : Fin 8192) : Fin cfg0.N :=
  ⟨r.val / 512 * 32 + 31, Nat.lt_of_lt_of_eq (by have := r.isLt; omega) N_0.symm⟩

/-- Every index of the `kv` array is in the block some flushing point writes back. -/
theorem cover0_5 (i : S8192x1.Idx) :
    ∃ t : Fin cfg0.N, (cfg0.win 5).flush t = true ∧ i ∈ ((cfg0.win 5).blk t).view.set := by
  have h0 : (i 0).val < 8192 := (i 0).isLt
  have h1 : (i 1).val < 1 := (i 1).isLt
  obtain ⟨e0, e1⟩ := idx0_5 (lastOf0 ⟨(i 0).val, h0⟩)
  have hv : (lastOf0 ⟨(i 0).val, h0⟩).val = (i 0).val / 512 * 32 + 31 := rfl
  refine ⟨lastOf0 ⟨(i 0).val, h0⟩, (flush0_5 _).mpr (by rw [hv]; omega), ?_⟩
  rw [mem_blk0_5]
  intro a
  match a with
  | ⟨0, _⟩ =>
    show win0_5.index (lastOf0 ⟨(i 0).val, h0⟩) (0 : Fin 2) * 512 ≤ (i 0).val
      ∧ (i 0).val < win0_5.index (lastOf0 ⟨(i 0).val, h0⟩) (0 : Fin 2) * 512 + 512
    rw [e0, hv]; omega
  | ⟨1, _⟩ =>
    show win0_5.index (lastOf0 ⟨(i 0).val, h0⟩) (1 : Fin 2) * 1 ≤ (i 1).val
      ∧ (i 1).val < win0_5.index (lastOf0 ⟨(i 0).val, h0⟩) (1 : Fin 2) * 1 + 1
    rw [e1]; omega
theorem cover0_6 (i : S8192x1.Idx) :
    ∃ t : Fin cfg0.N, (cfg0.win 6).flush t = true ∧ i ∈ ((cfg0.win 6).blk t).view.set := by
  have h0 : (i 0).val < 8192 := (i 0).isLt
  have h1 : (i 1).val < 1 := (i 1).isLt
  obtain ⟨e0, e1⟩ := idx0_6 (lastOf0 ⟨(i 0).val, h0⟩)
  have hv : (lastOf0 ⟨(i 0).val, h0⟩).val = (i 0).val / 512 * 32 + 31 := rfl
  refine ⟨lastOf0 ⟨(i 0).val, h0⟩, (flush0_6 _).mpr (by rw [hv]; omega), ?_⟩
  rw [mem_blk0_6]
  intro a
  match a with
  | ⟨0, _⟩ =>
    show win0_6.index (lastOf0 ⟨(i 0).val, h0⟩) (0 : Fin 2) * 512 ≤ (i 0).val
      ∧ (i 0).val < win0_6.index (lastOf0 ⟨(i 0).val, h0⟩) (0 : Fin 2) * 512 + 512
    rw [e0, hv]; omega
  | ⟨1, _⟩ =>
    show win0_6.index (lastOf0 ⟨(i 0).val, h0⟩) (1 : Fin 2) * 1 ≤ (i 1).val
      ∧ (i 1).val < win0_6.index (lastOf0 ⟨(i 0).val, h0⟩) (1 : Fin 2) * 1 + 1
    rw [e1]; omega

/-! ## The bias vectors viewed as one-row matrices -/

/-- A length-4096 vector cast to `1 × 4096` reads, at `(u, n)`, the vector at `n`. -/
theorem reshape_row_apply {α : Type} (b : S4096.Idx → α) (u : Fin 1) (n : Fin 4096) :
    shapeCast S1x4096 b shapeCasts_S4096_S1x4096 (ix2 u n) = b (ix1 n) :=
  shapeCast_a_1a_apply b shapeCasts_S4096_S1x4096 u n

end Cert.KernelIdeal.Blk

end
-- ==== Proof.K0Acc.lean ====
import proofs.«156116_j68702296867130_1_alg».proof.Proof.K0Value
import proofs.«156116_j68702296867130_1_alg».proof.Proof.Pay0
import proofs.«156116_j68702296867130_1_alg».proof.Proof.BlockRead0
import proofs.«156116_j68702296867130_1_alg».proof.Proof.Accum
import proofs.«156116_j68702296867130_1_alg».proof.Proof.SpecArr
import Idealize.ShloMosaic.Lib.Pipeline.Value

/-! # The first region's two projection accumulators over the extended reals

After the body at grid point n = i · 32 + j · 8 + kk the key accumulator holds, at (p, q), the sum over
the contraction blocks 0 … kk of the products of row i · 512 + p of x with row j · 1024 + q of the key
weight, and the value accumulator the same with the value weight: each sum over kk starts from a
cleared accumulator, and every point adds its own block product. -/

set_option maxRecDepth 16384

noncomputable section

open scoped BigOperators

namespace Cert.KernelIdeal.R0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Pay Cert.KernelIdeal.Blk Cert.BlockSums

/-! ## The components of a tuple of contents known as a tuple -/

section
variable {α β γ δ ε ζ : Type} {x : (α × β) × (γ × δ × ε × ζ)} {a : α} {b : β} {c : γ} {d : δ} {e : ε} {f : ζ}
theorem st_o5 (h : x = ((a, b), (c, d, e, f))) : x.1.1 = a := by rw [h]
theorem st_o6 (h : x = ((a, b), (c, d, e, f))) : x.1.2 = b := by rw [h]
theorem st_k (h : x = ((a, b), (c, d, e, f))) : x.2.1 = c := by rw [h]
theorem st_v (h : x = ((a, b), (c, d, e, f))) : x.2.2.1 = d := by rw [h]
theorem st_kv (h : x = ((a, b), (c, d, e, f))) : x.2.2.2.1 = e := by rw [h]
theorem st_ks (h : x = ((a, b), (c, d, e, f))) : x.2.2.2.2 = f := by rw [h]
end

/-- Contraction block s of the product of row r of x with row cc of a weight. -/
def blockTerm0 (x : S8192x4096.Idx → EReal) (W : S4096x4096.Idx → EReal) (r : Fin 8192) (cc : Fin 4096) (s : ℕ) : EReal :=
  ∑ k : Fin 512, ext0 (fun K : Fin 4096 => x (ix2 r K) * W (ix2 cc K)) (s * 512 + k.val)

/-- A block product whose operands are blocks of x and of the weight at contraction block s. -/
theorem addend_pure0 (x : S8192x4096.Idx → EReal) (W : S4096x4096.Idx → EReal)
    (x0 : Vec Ideal S512x512 .f32) (x1 : Vec Ideal S1024x512 .f32) (p : Fin 512) (q : Fin 1024) (r : Fin 8192) (cc : Fin 4096)
    (s : ℕ) (hs : ∀ k : Fin 512, s * 512 + k.val < 4096)
    (h0 : ∀ k : Fin 512, x0 (ix2 p k) = x (ix2 r ⟨s * 512 + k.val, hs k⟩))
    (h1 : ∀ k : Fin 512, x1 (ix2 q k) = W (ix2 cc ⟨s * 512 + k.val, hs k⟩)) :
    ∑ k : Fin 512, x0 (ix2 p k) * x1 (ix2 q k) = blockTerm0 x W r cc s := by
  unfold blockTerm0
  refine Finset.sum_congr rfl fun k _ => ?_
  rw [ext0_of_lt _ (hs k), h0 k, h1 k]

variable (V : (c : Dev nD) → (b : Ref sig .tc) → Buf (Elt Ideal) ((c : Thread nD τ).loc b))

/-- The arrays the region reads, as functions on their index types: x, the key weight, the key bias as a one-row
    matrix, the value weight, the value bias as a one-row matrix. -/
def aX (c : Dev nD) : S8192x4096.Idx → EReal := V c main_arg0
def aWk (c : Dev nD) : S4096x4096.Idx → EReal := V c main_arg3
def aBk (c : Dev nD) : S1x4096.Idx → EReal := V c main_v1
def aWv (c : Dev nD) : S4096x4096.Idx → EReal := V c main_arg5
def aBv (c : Dev nD) : S1x4096.Idx → EReal := V c main_v2

/-! ## The input blocks at a point, read at a block coordinate -/

theorem iblk0_0_apply (c : Dev nD) (t : Fin cfg0.N) (p k : Fin 512) :
    iblk0 V c 0 t (ix2 p k) = aX V c (ix2 ⟨t.val / 32 * 512 + p.val, bRow0 t p⟩ ⟨t.val % 8 * 512 + k.val, bK0 t k⟩) :=
  read0_0 (Val := Elt Ideal) (aX V c) t p k
theorem iblk0_1_apply (c : Dev nD) (t : Fin cfg0.N) (q : Fin 1024) (k : Fin 512) :
    iblk0 V c 1 t (ix2 q k) = aWk V c (ix2 ⟨t.val / 8 % 4 * 1024 + q.val, bCol0 t q⟩ ⟨t.val % 8 * 512 + k.val, bK0 t k⟩) :=
  read0_1 (Val := Elt Ideal) (aWk V c) t q k
theorem iblk0_2_apply (c : Dev nD) (t : Fin cfg0.N) (z : Fin 1) (q : Fin 1024) :
    iblk0 V c 2 t (ix2 z q) = aBk V c (ix2 (0 : Fin 1) ⟨t.val / 8 % 4 * 1024 + q.val, bCol0 t q⟩) :=
  read0_2 (Val := Elt Ideal) (aBk V c) t z q
theorem iblk0_3_apply (c : Dev nD) (t : Fin cfg0.N) (q : Fin 1024) (k : Fin 512) :
    iblk0 V c 3 t (ix2 q k) = aWv V c (ix2 ⟨t.val / 8 % 4 * 1024 + q.val, bCol0 t q⟩ ⟨t.val % 8 * 512 + k.val, bK0 t k⟩) :=
  read0_3 (Val := Elt Ideal) (aWv V c) t q k
theorem iblk0_4_apply (c : Dev nD) (t : Fin cfg0.N) (z : Fin 1) (q : Fin 1024) :
    iblk0 V c 4 t (ix2 z q) = aBv V c (ix2 (0 : Fin 1) ⟨t.val / 8 % 4 * 1024 + q.val, bCol0 t q⟩) :=
  read0_4 (Val := Elt Ideal) (aBv V c) t z q

/-- The block product the body adds to the key accumulator at point t is contraction block t % 8 of the tile's rows. -/
theorem addendK0 (c : Dev nD) (t : Fin cfg0.N) (p : Fin 512) (q : Fin 1024) (r : Fin 8192) (cc : Fin 4096)
    (hr : r.val = t.val / 32 * 512 + p.val) (hc : cc.val = t.val / 8 % 4 * 1024 + q.val)
    (x0 : Vec Ideal S512x512 .f32) (x1 : Vec Ideal S1024x512 .f32) (hx0 : x0 = iblk0 V c 0 t) (hx1 : x1 = iblk0 V c 1 t) :
    ∑ k : Fin 512, x0 (ix2 p k) * x1 (ix2 q k) = blockTerm0 (aX V c) (aWk V c) r cc (t.val % 8) := by
  subst hx0 hx1
  have e0 : (⟨t.val / 32 * 512 + p.val, bRow0 t p⟩ : Fin 8192) = r := Fin.ext hr.symm
  have e1 : (⟨t.val / 8 % 4 * 1024 + q.val, bCol0 t q⟩ : Fin 4096) = cc := Fin.ext hc.symm
  exact addend_pure0 (aX V c) (aWk V c) _ _ p q r cc (t.val % 8) (bK0 t)
    (fun k => (iblk0_0_apply V c t p k).trans (by rw [e0])) (fun k => (iblk0_1_apply V c t q k).trans (by rw [e1]))

/-- The block product the body adds to the value accumulator at point t is contraction block t % 8 of the tile's rows. -/
theorem addendV0 (c : Dev nD) (t : Fin cfg0.N) (p : Fin 512) (q : Fin 1024) (r : Fin 8192) (cc : Fin 4096)
    (hr : r.val = t.val / 32 * 512 + p.val) (hc : cc.val = t.val / 8 % 4 * 1024 + q.val)
    (x0 : Vec Ideal S512x512 .f32) (x1 : Vec Ideal S1024x512 .f32) (hx0 : x0 = iblk0 V c 0 t) (hx1 : x1 = iblk0 V c 3 t) :
    ∑ k : Fin 512, x0 (ix2 p k) * x1 (ix2 q k) = blockTerm0 (aX V c) (aWv V c) r cc (t.val % 8) := by
  subst hx0 hx1
  have e0 : (⟨t.val / 32 * 512 + p.val, bRow0 t p⟩ : Fin 8192) = r := Fin.ext hr.symm
  have e1 : (⟨t.val / 8 % 4 * 1024 + q.val, bCol0 t q⟩ : Fin 4096) = cc := Fin.ext hc.symm
  exact addend_pure0 (aX V c) (aWv V c) _ _ p q r cc (t.val % 8) (bK0 t)
    (fun k => (iblk0_0_apply V c t p k).trans (by rw [e0])) (fun k => (iblk0_3_apply V c t q k).trans (by rw [e1]))

/-! ## The key accumulator -/

/-- At the first point of a sum over kk the key accumulator is cleared and the first block product added. -/
theorem kacc0_start (c : Dev nD) (t : Fin cfg0.N) (h1 : t.val % 8 = 0) (p : Fin 512) (q : Fin 1024) (r : Fin 8192) (cc : Fin 4096)
    (hr : r.val = t.val / 32 * 512 + p.val) (hc : cc.val = t.val / 8 % 4 * 1024 + q.val) :
    (outsAt0 V c t.val t.isLt).2.1 (ix2 p q)
      = ∑ s ∈ Finset.range (t.val % 8 + 1), blockTerm0 (aX V c) (aWk V c) r cc s := by
  have hv : (outsAt0 V c t.val t.isLt).2.1 = k0_pay6 (F := Ideal) (iblk0 V c 0 t) (iblk0 V c 1 t) (k0_pay3 (F := Ideal)) := by
    by_cases h0 : t.val % 32 = 0
    · exact (st_k (outsAt0_A V c t h0)).trans (sout0_A_0_eq (F := Ideal) ..)
    · exact (st_k (outsAt0_B V c t h0 h1)).trans (sout0_B_0_eq (F := Ideal) ..)
  refine (congrFun hv (ix2 p q)).trans ?_
  refine (k0_pay6_apply (iblk0 V c 0 t) (iblk0 V c 1 t) (k0_pay3 (F := Ideal)) p q).trans ?_
  rw [k0_pay3_apply]
  refine (congrArg (0 + ·) (addendK0 V c t p q r cc hr hc (iblk0 V c 0 t) (iblk0 V c 1 t) rfl rfl)).trans ?_
  rw [h1]
  exact range_start _

/-- At a later point of a sum over kk the key accumulator is what the point before left plus the block product. -/
theorem kacc0_step (c : Dev nD) (t : Fin cfg0.N) (h1 : ¬t.val % 8 = 0) (p : Fin 512) (q : Fin 1024) (r : Fin 8192) (cc : Fin 4096)
    (hr : r.val = t.val / 32 * 512 + p.val) (hc : cc.val = t.val / 8 % 4 * 1024 + q.val)
    (ih : (outsAt0 V c (t.val - 1) (Nat.lt_of_le_of_lt (Nat.sub_le _ _) t.isLt)).2.1 (ix2 p q)
      = ∑ s ∈ Finset.range ((t.val - 1) % 8 + 1), blockTerm0 (aX V c) (aWk V c) r cc s) :
    (outsAt0 V c t.val t.isLt).2.1 (ix2 p q)
      = ∑ s ∈ Finset.range (t.val % 8 + 1), blockTerm0 (aX V c) (aWk V c) r cc s := by
  have hv : (outsAt0 V c t.val t.isLt).2.1 = k0_pay6 (F := Ideal) (iblk0 V c 0 t) (iblk0 V c 1 t)
      (outsAt0 V c (t.val - 1) (Nat.lt_of_le_of_lt (Nat.sub_le _ _) t.isLt)).2.1 := by
    by_cases h2 : t.val % 8 = 7
    · by_cases h3 : t.val % 32 = 31
      · exact (st_k (outsAt0_E V c t h3)).trans (sout0_E_0_eq (F := Ideal) ..)
      · exact (st_k (outsAt0_D V c t h2 h3)).trans (sout0_D_0_eq (F := Ideal) ..)
    · exact (st_k (outsAt0_C V c t h1 h2)).trans (sout0_C_0_eq (F := Ideal) ..)
  refine (congrFun hv (ix2 p q)).trans ?_
  refine (k0_pay6_apply (iblk0 V c 0 t) (iblk0 V c 1 t) _ p q).trans ?_
  refine (congrArg₂ (· + ·) ih (addendK0 V c t p q r cc hr hc (iblk0 V c 0 t) (iblk0 V c 1 t) rfl rfl)).trans ?_
  have e : (t.val - 1) % 8 + 1 = t.val % 8 := by omega
  rw [e]
  exact (Finset.sum_range_succ _ _).symm

/-- The key accumulator after the body at point n: the contraction blocks 0 … n % 8 of the products of row
    (n / 32) · 512 + p of x with row (n / 8 % 4) · 1024 + q of the weight. -/
theorem kacc0 (c : Dev nD) : ∀ (n : ℕ) (h : n < cfg0.N) (p : Fin 512) (q : Fin 1024) (r : Fin 8192) (cc : Fin 4096),
    r.val = n / 32 * 512 + p.val → cc.val = n / 8 % 4 * 1024 + q.val →
    (outsAt0 V c n h).2.1 (ix2 p q) = ∑ s ∈ Finset.range (n % 8 + 1), blockTerm0 (aX V c) (aWk V c) r cc s
  | 0, h, p, q, r, cc, hr, hc => kacc0_start V c ⟨0, h⟩ rfl p q r cc hr hc
  | n + 1, h, p, q, r, cc, hr, hc => by
    by_cases h1 : (n + 1) % 8 = 0
    · exact kacc0_start V c ⟨n + 1, h⟩ h1 p q r cc hr hc
    · exact kacc0_step V c ⟨n + 1, h⟩ h1 p q r cc hr hc
        (kacc0 c n (Nat.lt_of_succ_lt h) p q r cc (by omega) (by omega))

/-! ## The value accumulator -/

/-- At the first point of a sum over kk the value accumulator is cleared and the first block product added. -/
theorem vacc0_start (c : Dev nD) (t : Fin cfg0.N) (h1 : t.val % 8 = 0) (p : Fin 512) (q : Fin 1024) (r : Fin 8192) (cc : Fin 4096)
    (hr : r.val = t.val / 32 * 512 + p.val) (hc : cc.val = t.val / 8 % 4 * 1024 + q.val) :
    (outsAt0 V c t.val t.isLt).2.2.1 (ix2 p q)
      = ∑ s ∈ Finset.range (t.val % 8 + 1), blockTerm0 (aX V c) (aWv V c) r cc s := by
  have hv : (outsAt0 V c t.val t.isLt).2.2.1 = k0_pay7 (F := Ideal) (iblk0 V c 0 t) (iblk0 V c 3 t) (k0_pay4 (F := Ideal)) := by
    by_cases h0 : t.val % 32 = 0
    · exact (st_v (outsAt0_A V c t h0)).trans (sout0_A_1_eq (F := Ideal) ..)
    · exact (st_v (outsAt0_B V c t h0 h1)).trans (sout0_B_1_eq (F := Ideal) ..)
  refine (congrFun hv (ix2 p q)).trans ?_
  refine (k0_pay7_apply (iblk0 V c 0 t) (iblk0 V c 3 t) (k0_pay4 (F := Ideal)) p q).trans ?_
  rw [k0_pay4_apply]
  refine (congrArg (0 + ·) (addendV0 V c t p q r cc hr hc (iblk0 V c 0 t) (iblk0 V c 3 t) rfl rfl)).trans ?_
  rw [h1]
  exact range_start _

/-- At a later point of a sum over kk the value accumulator is what the point before left plus the block product. -/
theorem vacc0_step (c : Dev nD) (t : Fin cfg0.N) (h1 : ¬t.val % 8 = 0) (p : Fin 512) (q : Fin 1024) (r : Fin 8192) (cc : Fin 4096)
    (hr : r.val = t.val / 32 * 512 + p.val) (hc : cc.val = t.val / 8 % 4 * 1024 + q.val)
    (ih : (outsAt0 V c (t.val - 1) (Nat.lt_of_le_of_lt (Nat.sub_le _ _) t.isLt)).2.2.1 (ix2 p q)
      = ∑ s ∈ Finset.range ((t.val - 1) % 8 + 1), blockTerm0 (aX V c) (aWv V c) r cc s) :
    (outsAt0 V c t.val t.isLt).2.2.1 (ix2 p q)
      = ∑ s ∈ Finset.range (t.val % 8 + 1), blockTerm0 (aX V c) (aWv V c) r cc s := by
  have hv : (outsAt0 V c t.val t.isLt).2.2.1 = k0_pay7 (F := Ideal) (iblk0 V c 0 t) (iblk0 V c 3 t)
      (outsAt0 V c (t.val - 1) (Nat.lt_of_le_of_lt (Nat.sub_le _ _) t.isLt)).2.2.1 := by
    by_cases h2 : t.val % 8 = 7
    · by_cases h3 : t.val % 32 = 31
      · exact (st_v (outsAt0_E V c t h3)).trans (sout0_E_1_eq (F := Ideal) ..)
      · exact (st_v (outsAt0_D V c t h2 h3)).trans (sout0_D_1_eq (F := Ideal) ..)
    · exact (st_v (outsAt0_C V c t h1 h2)).trans (sout0_C_1_eq (F := Ideal) ..)
  refine (congrFun hv (ix2 p q)).trans ?_
  refine (k0_pay7_apply (iblk0 V c 0 t) (iblk0 V c 3 t) _ p q).trans ?_
  refine (congrArg₂ (· + ·) ih (addendV0 V c t p q r cc hr hc (iblk0 V c 0 t) (iblk0 V c 3 t) rfl rfl)).trans ?_
  have e : (t.val - 1) % 8 + 1 = t.val % 8 := by omega
  rw [e]
  exact (Finset.sum_range_succ _ _).symm

/-- The value accumulator after the body at point n: the contraction blocks 0 … n % 8 of the products of row
    (n / 32) · 512 + p of x with row (n / 8 % 4) · 1024 + q of the weight. -/
theorem vacc0 (c : Dev nD) : ∀ (n : ℕ) (h : n < cfg0.N) (p : Fin 512) (q : Fin 1024) (r : Fin 8192) (cc : Fin 4096),
    r.val = n / 32 * 512 + p.val → cc.val = n / 8 % 4 * 1024 + q.val →
    (outsAt0 V c n h).2.2.1 (ix2 p q) = ∑ s ∈ Finset.range (n % 8 + 1), blockTerm0 (aX V c) (aWv V c) r cc s
  | 0, h, p, q, r, cc, hr, hc => vacc0_start V c ⟨0, h⟩ rfl p q r cc hr hc
  | n + 1, h, p, q, r, cc, hr, hc => by
    by_cases h1 : (n + 1) % 8 = 0
    · exact vacc0_start V c ⟨n + 1, h⟩ h1 p q r cc hr hc
    · exact vacc0_step V c ⟨n + 1, h⟩ h1 p q r cc hr hc
        (vacc0 c n (Nat.lt_of_succ_lt h) p q r cc (by omega) (by omega))

end Cert.KernelIdeal.R0

end
-- ==== Proof.K0Final.lean ====
/- The first kernel's two result columns over the extended reals. After the body at a grid point the two
   projection accumulators hold the contraction blocks met so far of the key and the value projections of the
   tile; at a last contraction block the finished tile, with its bias row, is multiplied (resp. its absolute value
   taken) and summed along the rows into the two one-column accumulators, which therefore hold the sums over the
   column blocks finished so far in the row block; after the last column block they are the row's `kv` and `ks`,
   and the columns written back fill the two result arrays. -/
import proofs.«156116_j68702296867130_1_alg».proof.Proof.K0Acc
import proofs.«156116_j68702296867130_1_alg».proof.Proof.BlockRead0
import proofs.«156116_j68702296867130_1_alg».proof.Proof.Pay0
import proofs.«156116_j68702296867130_1_alg».proof.Proof.SpecBlocks
import proofs.«156116_j68702296867130_1_alg».proof.Proof.SpecArr
import Idealize.ShloMosaic.Lib.Pipeline.Value

set_option maxRecDepth 16384

noncomputable section

open scoped BigOperators

namespace Cert.KernelIdeal.R0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Pay Cert.KernelIdeal.Blk Cert.BlockSums
open Cert.Spec (mat)

/-! ## The finished projection entries and the column-block terms, as pure functions -/

/-- A finished accumulator entry plus its bias entry is the projection's entry. -/
theorem full_pure (X : S8192x4096.Idx → EReal) (W : S4096x4096.Idx → EReal) (B : S1x4096.Idx → EReal)
    (ka : Vec Ideal S512x1024 .f32) (x2 : Vec Ideal S1x1024 .f32) (p : Fin 512) (n : Fin 1024) (r : Fin 8192) (cc : Fin 4096)
    (hka : ka (ix2 p n) = ∑ s ∈ Finset.range 8, blockTerm0 X W r cc s)
    (hx2 : x2 (ix2 (0 : Fin 1) n) = B (ix2 (0 : Fin 1) cc)) :
    ka (ix2 p n) + x2 (ix2 (0 : Fin 1) n)
      = Cert.Spec.proj (mat X) (mat W) (fun C => B (ix2 (0 : Fin 1) C)) r cc := by
  rw [hka, hx2]
  unfold blockTerm0
  rw [sum_range_blocks_8_512]
  rfl

variable (V : (c : Dev nD) → (b : Ref sig .tc) → Buf (Elt Ideal) ((c : Thread nD τ).loc b))

/-- The key and the value projections of the region's entry arrays. -/
def Kf (c : Dev nD) : Fin 8192 → Fin 4096 → EReal :=
  Cert.Spec.proj (mat (aX V c)) (mat (aWk V c)) (fun C => aBk V c (ix2 (0 : Fin 1) C))
def Vf (c : Dev nD) : Fin 8192 → Fin 4096 → EReal :=
  Cert.Spec.proj (mat (aX V c)) (mat (aWv V c)) (fun C => aBv V c (ix2 (0 : Fin 1) C))

/-- Column block `s` of row `r`'s key-times-value sum, and of its absolute-value sum. -/
def colKV (c : Dev nD) (r : Fin 8192) (s : ℕ) : EReal :=
  ∑ n : Fin 1024, ext0 (fun C : Fin 4096 => Kf V c r C * Vf V c r C) (s * 1024 + n.val)
def colKS (c : Dev nD) (r : Fin 8192) (s : ℕ) : EReal :=
  ∑ n : Fin 1024, ext0 (fun C : Fin 4096 => max (Kf V c r C) (-(Kf V c r C))) (s * 1024 + n.val)

/-- The two result columns. -/
def GKv (c : Dev nD) : S8192x1.Idx → EReal := fun i => Cert.Spec.kvOf (Kf V c) (Vf V c) (i 0)
def GKs (c : Dev nD) : S8192x1.Idx → EReal := fun i => Cert.Spec.ksOf (Kf V c) (i 0)

/-- What the point before left. -/
abbrev prev0 (c : Dev nD) (t : Fin cfg0.N) : St0 Ideal :=
  outsAt0 V c (t.val - 1) (Nat.lt_of_le_of_lt (Nat.sub_le _ _) t.isLt)

/-! ## What the two one-column accumulators and the outputs hold after a point, case by case -/

/-- At the first point of a row block both one-column accumulators are reset. -/
theorem kv_reset (c : Dev nD) (t : Fin cfg0.N) (h0 : t.val % 32 = 0) :
    (outsAt0 V c t.val t.isLt).2.2.2.1 = k0_pay1 (F := Ideal) :=
  (st_kv (outsAt0_A V c t h0)).trans (sout0_A_2_eq (F := Ideal) ..)
theorem ks_reset (c : Dev nD) (t : Fin cfg0.N) (h0 : t.val % 32 = 0) :
    (outsAt0 V c t.val t.isLt).2.2.2.2 = k0_pay2 (F := Ideal) :=
  (st_ks (outsAt0_A V c t h0)).trans (sout0_A_3_eq (F := Ideal) ..)

/-- Elsewhere, off a last contraction block, they are left as they were. -/
theorem kv_keep (c : Dev nD) (t : Fin cfg0.N) (h0 : ¬t.val % 32 = 0) (h2 : ¬t.val % 8 = 7) :
    (outsAt0 V c t.val t.isLt).2.2.2.1 = (prev0 V c t).2.2.2.1 := by
  by_cases h1 : t.val % 8 = 0
  · exact st_kv (outsAt0_B V c t h0 h1)
  · exact st_kv (outsAt0_C V c t h1 h2)
theorem ks_keep (c : Dev nD) (t : Fin cfg0.N) (h0 : ¬t.val % 32 = 0) (h2 : ¬t.val % 8 = 7) :
    (outsAt0 V c t.val t.isLt).2.2.2.2 = (prev0 V c t).2.2.2.2 := by
  by_cases h1 : t.val % 8 = 0
  · exact st_ks (outsAt0_B V c t h0 h1)
  · exact st_ks (outsAt0_C V c t h1 h2)

/-- At a last contraction block the two projection accumulators are the block products added to what was there … -/
theorem kacc_last (c : Dev nD) (t : Fin cfg0.N) (h2 : t.val % 8 = 7) :
    (outsAt0 V c t.val t.isLt).2.1 = k0_pay6 (F := Ideal) (iblk0 V c 0 t) (iblk0 V c 1 t) (prev0 V c t).2.1 := by
  by_cases h3 : t.val % 32 = 31
  · exact (st_k (outsAt0_E V c t h3)).trans (sout0_E_0_eq (F := Ideal) ..)
  · exact (st_k (outsAt0_D V c t h2 h3)).trans (sout0_D_0_eq (F := Ideal) ..)
theorem vacc_last (c : Dev nD) (t : Fin cfg0.N) (h2 : t.val % 8 = 7) :
    (outsAt0 V c t.val t.isLt).2.2.1 = k0_pay7 (F := Ideal) (iblk0 V c 0 t) (iblk0 V c 3 t) (prev0 V c t).2.2.1 := by
  by_cases h3 : t.val % 32 = 31
  · exact (st_v (outsAt0_E V c t h3)).trans (sout0_E_1_eq (F := Ideal) ..)
  · exact (st_v (outsAt0_D V c t h2 h3)).trans (sout0_D_1_eq (F := Ideal) ..)

/-- … and the one-column accumulators take the row sums of the finished tile. -/
theorem kv_add (c : Dev nD) (t : Fin cfg0.N) (h2 : t.val % 8 = 7) :
    (outsAt0 V c t.val t.isLt).2.2.2.1 = k0_pay9 (F := Ideal) (outsAt0 V c t.val t.isLt).2.1 (iblk0 V c 2 t)
      (outsAt0 V c t.val t.isLt).2.2.1 (iblk0 V c 4 t) (prev0 V c t).2.2.2.1 := by
  rw [kacc_last V c t h2, vacc_last V c t h2]
  by_cases h3 : t.val % 32 = 31
  · exact (st_kv (outsAt0_E V c t h3)).trans (sout0_E_2_eq (F := Ideal) ..)
  · exact (st_kv (outsAt0_D V c t h2 h3)).trans (sout0_D_2_eq (F := Ideal) ..)
theorem ks_add (c : Dev nD) (t : Fin cfg0.N) (h2 : t.val % 8 = 7) :
    (outsAt0 V c t.val t.isLt).2.2.2.2 = k0_pay10 (F := Ideal) (outsAt0 V c t.val t.isLt).2.1 (iblk0 V c 2 t)
      (prev0 V c t).2.2.2.2 := by
  rw [kacc_last V c t h2]
  by_cases h3 : t.val % 32 = 31
  · exact (st_ks (outsAt0_E V c t h3)).trans (sout0_E_3_eq (F := Ideal) ..)
  · exact (st_ks (outsAt0_D V c t h2 h3)).trans (sout0_D_3_eq (F := Ideal) ..)

/-- At the last point of a row block the outputs' staging buffers hold what the one-column accumulators hold. -/
theorem out5_last (c : Dev nD) (t : Fin cfg0.N) (h3 : t.val % 32 = 31) :
    (outsAt0 V c t.val t.isLt).1.1 = (outsAt0 V c t.val t.isLt).2.2.2.1 :=
  ((st_o5 (outsAt0_E V c t h3)).trans (out0_E_5_eq (F := Ideal) ..)).trans
    ((st_kv (outsAt0_E V c t h3)).trans (sout0_E_2_eq (F := Ideal) ..)).symm
theorem out6_last (c : Dev nD) (t : Fin cfg0.N) (h3 : t.val % 32 = 31) :
    (outsAt0 V c t.val t.isLt).1.2 = (outsAt0 V c t.val t.isLt).2.2.2.2 :=
  ((st_o6 (outsAt0_E V c t h3)).trans (out0_E_6_eq (F := Ideal) ..)).trans
    ((st_ks (outsAt0_E V c t h3)).trans (sout0_E_3_eq (F := Ideal) ..)).symm

/-! ## The finished tile's entries -/

/-- At a last contraction block a key accumulator entry plus its bias entry is the key projection's entry. -/
theorem kfull (c : Dev nD) (t : Fin cfg0.N) (h2 : t.val % 8 = 7) (p : Fin 512) (n : Fin 1024) (r : Fin 8192)
    (hr : r.val = t.val / 32 * 512 + p.val)
    (ka : Vec Ideal S512x1024 .f32) (x2 : Vec Ideal S1x1024 .f32)
    (hka : ka = (outsAt0 V c t.val t.isLt).2.1) (hx2 : x2 = iblk0 V c 2 t) :
    ka (ix2 p n) + x2 (ix2 (0 : Fin 1) n) = Kf V c r ⟨t.val / 8 % 4 * 1024 + n.val, bCol0 t n⟩ := by
  subst hka hx2
  have hacc := kacc0 V c t.val t.isLt p n r ⟨t.val / 8 % 4 * 1024 + n.val, bCol0 t n⟩ hr rfl
  rw [h2] at hacc
  exact full_pure (aX V c) (aWk V c) (aBk V c) _ _ p n r _ hacc (iblk0_2_apply V c t 0 n)
theorem vfull (c : Dev nD) (t : Fin cfg0.N) (h2 : t.val % 8 = 7) (p : Fin 512) (n : Fin 1024) (r : Fin 8192)
    (hr : r.val = t.val / 32 * 512 + p.val)
    (va : Vec Ideal S512x1024 .f32) (x4 : Vec Ideal S1x1024 .f32)
    (hva : va = (outsAt0 V c t.val t.isLt).2.2.1) (hx4 : x4 = iblk0 V c 4 t) :
    va (ix2 p n) + x4 (ix2 (0 : Fin 1) n) = Vf V c r ⟨t.val / 8 % 4 * 1024 + n.val, bCol0 t n⟩ := by
  subst hva hx4
  have hacc := vacc0 V c t.val t.isLt p n r ⟨t.val / 8 % 4 * 1024 + n.val, bCol0 t n⟩ hr rfl
  rw [h2] at hacc
  exact full_pure (aX V c) (aWv V c) (aBv V c) _ _ p n r _ hacc (iblk0_4_apply V c t 0 n)

/-- So at a last contraction block the `kv` accumulator gains column block `j` of the row's sum … -/
theorem kv_add_apply (c : Dev nD) (t : Fin cfg0.N) (h2 : t.val % 8 = 7) (p : Fin 512) (z : Fin 1) (r : Fin 8192)
    (hr : r.val = t.val / 32 * 512 + p.val) :
    (outsAt0 V c t.val t.isLt).2.2.2.1 (ix2 p z)
      = (prev0 V c t).2.2.2.1 (ix2 p z) + colKV V c r (t.val / 8 % 4) := by
  refine (congrFun (kv_add V c t h2) (ix2 p z)).trans ?_
  refine (k0_pay9_apply (outsAt0 V c t.val t.isLt).2.1 (iblk0 V c 2 t) (outsAt0 V c t.val t.isLt).2.2.1 (iblk0 V c 4 t)
    (prev0 V c t).2.2.2.1 p z).trans ?_
  refine congrArg ((prev0 V c t).2.2.2.1 (ix2 p z) + ·) (Finset.sum_congr rfl fun n _ => ?_)
  rw [ext0_of_lt _ (bCol0 t n)]
  exact congrArg₂ (· * ·) (kfull V c t h2 p n r hr _ _ rfl rfl) (vfull V c t h2 p n r hr _ _ rfl rfl)

/-- … and the `ks` accumulator column block `j` of the row's absolute-value sum. -/
theorem ks_add_apply (c : Dev nD) (t : Fin cfg0.N) (h2 : t.val % 8 = 7) (p : Fin 512) (z : Fin 1) (r : Fin 8192)
    (hr : r.val = t.val / 32 * 512 + p.val) :
    (outsAt0 V c t.val t.isLt).2.2.2.2 (ix2 p z)
      = (prev0 V c t).2.2.2.2 (ix2 p z) + colKS V c r (t.val / 8 % 4) := by
  refine (congrFun (ks_add V c t h2) (ix2 p z)).trans ?_
  refine (k0_pay10_apply (outsAt0 V c t.val t.isLt).2.1 (iblk0 V c 2 t) (prev0 V c t).2.2.2.2 p z).trans ?_
  refine congrArg ((prev0 V c t).2.2.2.2 (ix2 p z) + ·) (Finset.sum_congr rfl fun n _ => ?_)
  rw [ext0_of_lt _ (bCol0 t n)]
  have hk := kfull V c t h2 p n r hr _ _ rfl rfl
  exact congrArg₂ max hk (congrArg Neg.neg hk)

/-! ## The one-column accumulators after every point -/

/-- THE `kv` ACCUMULATOR after the body at point `n`: the column blocks finished so far in the row block. -/
theorem kvsum0 (c : Dev nD) : ∀ (n : ℕ) (h : n < cfg0.N) (p : Fin 512) (z : Fin 1) (r : Fin 8192),
    r.val = n / 32 * 512 + p.val →
    (outsAt0 V c n h).2.2.2.1 (ix2 p z) = ∑ s ∈ Finset.range ((n % 32 + 1) / 8), colKV V c r s
  | 0, h, p, z, r, hr => by
    refine (congrFun (kv_reset V c ⟨0, h⟩ rfl) (ix2 p z)).trans ((k0_pay1_apply _).trans ?_)
    rfl
  | n + 1, h, p, z, r, hr => by
    by_cases h0 : (n + 1) % 32 = 0
    · refine (congrFun (kv_reset V c ⟨n + 1, h⟩ h0) (ix2 p z)).trans ((k0_pay1_apply _).trans ?_)
      have e : ((n + 1) % 32 + 1) / 8 = 0 := by omega
      rw [e, Finset.sum_range_zero]
    · have ih := kvsum0 c n (Nat.lt_of_succ_lt h) p z r (by omega)
      by_cases h2 : (n + 1) % 8 = 7
      · refine (kv_add_apply V c ⟨n + 1, h⟩ h2 p z r hr).trans ?_
        refine (congrArg (· + colKV V c r ((n + 1) / 8 % 4)) ih).trans ?_
        have e1 : (n % 32 + 1) / 8 = (n + 1) / 8 % 4 := by omega
        have e2 : ((n + 1) % 32 + 1) / 8 = (n + 1) / 8 % 4 + 1 := by omega
        rw [e1, e2]
        exact (Finset.sum_range_succ _ _).symm
      · refine (congrFun (kv_keep V c ⟨n + 1, h⟩ h0 h2) (ix2 p z)).trans (ih.trans ?_)
        have e : (n % 32 + 1) / 8 = ((n + 1) % 32 + 1) / 8 := by omega
        rw [e]

/-- THE `ks` ACCUMULATOR likewise. -/
theorem kabssum0 (c : Dev nD) : ∀ (n : ℕ) (h : n < cfg0.N) (p : Fin 512) (z : Fin 1) (r : Fin 8192),
    r.val = n / 32 * 512 + p.val →
    (outsAt0 V c n h).2.2.2.2 (ix2 p z) = ∑ s ∈ Finset.range ((n % 32 + 1) / 8), colKS V c r s
  | 0, h, p, z, r, hr => by
    refine (congrFun (ks_reset V c ⟨0, h⟩ rfl) (ix2 p z)).trans ((k0_pay2_apply _).trans ?_)
    rfl
  | n + 1, h, p, z, r, hr => by
    by_cases h0 : (n + 1) % 32 = 0
    · refine (congrFun (ks_reset V c ⟨n + 1, h⟩ h0) (ix2 p z)).trans ((k0_pay2_apply _).trans ?_)
      have e : ((n + 1) % 32 + 1) / 8 = 0 := by omega
      rw [e, Finset.sum_range_zero]
    · have ih := kabssum0 c n (Nat.lt_of_succ_lt h) p z r (by omega)
      by_cases h2 : (n + 1) % 8 = 7
      · refine (ks_add_apply V c ⟨n + 1, h⟩ h2 p z r hr).trans ?_
        refine (congrArg (· + colKS V c r ((n + 1) / 8 % 4)) ih).trans ?_
        have e1 : (n % 32 + 1) / 8 = (n + 1) / 8 % 4 := by omega
        have e2 : ((n + 1) % 32 + 1) / 8 = (n + 1) / 8 % 4 + 1 := by omega
        rw [e1, e2]
        exact (Finset.sum_range_succ _ _).symm
      · refine (congrFun (ks_keep V c ⟨n + 1, h⟩ h0 h2) (ix2 p z)).trans (ih.trans ?_)
        have e : (n % 32 + 1) / 8 = ((n + 1) % 32 + 1) / 8 := by omega
        rw [e]

/-! ## The two result arrays -/

/-- At the last point of a row block the `kv` output block holds the rows' `kv`. -/
theorem out5_apply (c : Dev nD) (t : Fin cfg0.N) (h3 : t.val % 32 = 31) (p : Fin 512) (z : Fin 1) :
    (outsAt0 V c t.val t.isLt).1.1 (ix2 p z) = GKv V c (ix2 ⟨t.val / 32 * 512 + p.val, bRow0 t p⟩ (0 : Fin 1)) := by
  refine (congrFun (out5_last V c t h3) (ix2 p z)).trans ?_
  refine (kvsum0 V c t.val t.isLt p z ⟨t.val / 32 * 512 + p.val, bRow0 t p⟩ rfl).trans ?_
  rw [h3]
  exact Cert.Spec.kvOf_blocks (Kf V c) (Vf V c) _
theorem out6_apply (c : Dev nD) (t : Fin cfg0.N) (h3 : t.val % 32 = 31) (p : Fin 512) (z : Fin 1) :
    (outsAt0 V c t.val t.isLt).1.2 (ix2 p z) = GKs V c (ix2 ⟨t.val / 32 * 512 + p.val, bRow0 t p⟩ (0 : Fin 1)) := by
  refine (congrFun (out6_last V c t h3) (ix2 p z)).trans ?_
  refine (kabssum0 V c t.val t.isLt p z ⟨t.val / 32 * 512 + p.val, bRow0 t p⟩ rfl).trans ?_
  rw [h3]
  exact Cert.Spec.ksOf_blocks (Kf V c) _

/-- What a flushing point writes back is its block of the result column. -/
theorem flushed0_5_eq (c : Dev nD) (t : Fin cfg0.N) (hf : (cfg0.win 5).flush t = true) :
    (dat0 V c).flushed 5 t = ((cfg0.win 5).blk t).view.read (Elt Ideal) (GKv V c) := by
  have h3 : t.val % 32 = 31 := (flush0_5 t).mp hf
  show (cfg0.win 5).cut (grid0.coords t) ((dat0 V c).after 5 t) = _
  rw [after0_5]
  funext y
  obtain ⟨p, z, rfl⟩ : ∃ (p : Fin 512) (z : Fin 1), y = ix2 p z := ⟨y 0, y 1, eq_ix2 y⟩
  show (outsAt0 V c t.val t.isLt).1.1 (ix2 p z) = GKv V c (((cfg0.win 5).blk t).view.emb (ix2 p z))
  rw [emb0_5]
  exact out5_apply V c t h3 p z
theorem flushed0_6_eq (c : Dev nD) (t : Fin cfg0.N) (hf : (cfg0.win 6).flush t = true) :
    (dat0 V c).flushed 6 t = ((cfg0.win 6).blk t).view.read (Elt Ideal) (GKs V c) := by
  have h3 : t.val % 32 = 31 := (flush0_6 t).mp hf
  show (cfg0.win 6).cut (grid0.coords t) ((dat0 V c).after 6 t) = _
  rw [after0_6]
  funext y
  obtain ⟨p, z, rfl⟩ : ∃ (p : Fin 512) (z : Fin 1), y = ix2 p z := ⟨y 0, y 1, eq_ix2 y⟩
  show (outsAt0 V c t.val t.isLt).1.2 (ix2 p z) = GKs V c (((cfg0.win 6).blk t).view.emb (ix2 p z))
  rw [emb0_6]
  exact out6_apply V c t h3 p z

/-- THE TWO RESULT ARRAYS after the region. -/
theorem final0_5 (c : Dev nD) : (dat0 V c).arrAt 5 cfg0.N = GKv V c :=
  (dat0 V c).arrAt_eq_of_cover 5 _ (flushed0_5_eq V c) cover0_5
theorem final0_6 (c : Dev nD) : (dat0 V c).arrAt 6 cfg0.N = GKs V c :=
  (dat0 V c).arrAt_eq_of_cover 6 _ (flushed0_6_eq V c) cover0_6

end Cert.KernelIdeal.R0

end
-- ==== Proof.Compose.lean ====
/- The two kernels composed: the second kernel's result array, fed the first kernel's two result columns and
   the bias vectors viewed as one-row matrices, is the specification's array of the seven arguments. -/
import proofs.«156116_j68702296867130_1_alg».proof.Proof.K1Final

noncomputable section

open scoped BigOperators

namespace Cert.KernelIdeal.Compose

open Cert.KernelIdeal Idealize.ShloMosaic Idealize.ShloMosaic.ValueIdx
open Cert.Spec (mat vec proj kvOf ksOf out result G)

/-- With `bq2, bk2, bv2` the one-row views of the bias vectors, `kv` and `ks` the row statistics of the key and value
    projections as one-column arrays, the second kernel's array is the specification's. -/
theorem G1_eq_G (x : S8192x4096.Idx → EReal) (Wq Wk Wv : S4096x4096.Idx → EReal) (bq bk bv : S4096.Idx → EReal)
    (bq2 bk2 bv2 : S1x4096.Idx → EReal) (kv ks : S8192x1.Idx → EReal)
    (hbq : ∀ n : Fin 4096, bq2 (ix2 (0 : Fin 1) n) = bq (ix1 n))
    (hbk : ∀ n : Fin 4096, bk2 (ix2 (0 : Fin 1) n) = bk (ix1 n))
    (hbv : ∀ n : Fin 4096, bv2 (ix2 (0 : Fin 1) n) = bv (ix1 n))
    (hkv : ∀ r : Fin 8192, kv (ix2 r (0 : Fin 1))
      = kvOf (proj (mat x) (mat Wk) (fun C => bk2 (ix2 (0 : Fin 1) C))) (proj (mat x) (mat Wv) (fun C => bv2 (ix2 (0 : Fin 1) C))) r)
    (hks : ∀ r : Fin 8192, ks (ix2 r (0 : Fin 1)) = ksOf (proj (mat x) (mat Wk) (fun C => bk2 (ix2 (0 : Fin 1) C))) r) :
    R1.G1 x Wq bq2 kv ks = G x Wq bq Wk bk Wv bv := by
  have eq : (fun cc => bq2 (ix2 (0 : Fin 1) cc)) = vec bq := funext hbq
  have ek : (fun C => bk2 (ix2 (0 : Fin 1) C)) = vec bk := funext hbk
  have ev : (fun C => bv2 (ix2 (0 : Fin 1) C)) = vec bv := funext hbv
  rw [ek, ev] at hkv
  rw [ek] at hks
  funext i
  unfold R1.G1 G result
  rw [eq, funext hkv, funext hks]

end Cert.KernelIdeal.Compose

end
-- ==== Proof.Value.lean ====
/- The kernel's result as one function of its argument arrays, over the extended reals: region 1's output array is
   the gain-normalised expression of x, Wq, the reshaped bias row and the two row statistics as it finds them; the
   statistics are what region 0 left (the sums over all 4096 columns of k·v and |k|); the reshapes are the bias vectors
   read as rows; every argument reaches both regions as launched. Composed: the specification. -/
import proofs.«156116_j68702296867130_1_alg».proof.Proof.Run
import proofs.«156116_j68702296867130_1_alg».proof.Proof.K1Final
import proofs.«156116_j68702296867130_1_alg».proof.Proof.K0Final
import proofs.«156116_j68702296867130_1_alg».proof.Proof.Compose
import proofs.«156116_j68702296867130_1_alg».proof.Proof.SpecArr
import proofs.«156116_j68702296867130_1_alg».proof.Proof.BlockRead0
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-! ## The entry contents of region 0: the launch memory after the three reshapes -/

theorem V1_arg0 (c : Dev nD) : V1 m ρ c main_arg0 = m ((c : Thread nD τ).loc main_arg0) := by
  dsimp only [V1, W1, W0, hostOps0]; after_results
theorem V1_arg1 (c : Dev nD) : V1 m ρ c main_arg1 = m ((c : Thread nD τ).loc main_arg1) := by
  dsimp only [V1, W1, W0, hostOps0]; after_results
theorem V1_arg3 (c : Dev nD) : V1 m ρ c main_arg3 = m ((c : Thread nD τ).loc main_arg3) := by
  dsimp only [V1, W1, W0, hostOps0]; after_results
theorem V1_arg5 (c : Dev nD) : V1 m ρ c main_arg5 = m ((c : Thread nD τ).loc main_arg5) := by
  dsimp only [V1, W1, W0, hostOps0]; after_results
theorem V1_v0 (c : Dev nD) : (V1 m ρ c main_v0 : S1x4096.Idx → EReal) = shapeCast S1x4096 (m ((c : Thread nD τ).loc main_arg2)) shapeCasts_S4096_S1x4096 := by
  dsimp only [V1, W1, W0, hostOps0]; after_results; rfl
theorem V1_v1 (c : Dev nD) : (V1 m ρ c main_v1 : S1x4096.Idx → EReal) = shapeCast S1x4096 (m ((c : Thread nD τ).loc main_arg4)) shapeCasts_S4096_S1x4096 := by
  dsimp only [V1, W1, W0, hostOps0]; after_results; rfl
theorem V1_v2 (c : Dev nD) : (V1 m ρ c main_v2 : S1x4096.Idx → EReal) = shapeCast S1x4096 (m ((c : Thread nD τ).loc main_arg6)) shapeCasts_S4096_S1x4096 := by
  dsimp only [V1, W1, W0, hostOps0]; after_results; rfl

/-! ## The entry contents of region 1: region 0 changes only its two output arrays -/

theorem V2_arg0 (c : Dev nD) : V2 m ρ c main_arg0 = m ((c : Thread nD τ).loc main_arg0) :=
  ((W2_arr m ρ c 0).trans (((R0.dat0 (V1 m ρ) c).arrAt_in 0 rfl _).trans (R0.A_eq0 (V1 m ρ) c 0))).trans (V1_arg0 m ρ c)
theorem V2_arg1 (c : Dev nD) : V2 m ρ c main_arg1 = m ((c : Thread nD τ).loc main_arg1) :=
  (W2_of_ne m ρ c main_arg1 (by decide)).trans (V1_arg1 m ρ c)
theorem V2_v0 (c : Dev nD) : (V2 m ρ c main_v0 : S1x4096.Idx → EReal) = shapeCast S1x4096 (m ((c : Thread nD τ).loc main_arg2)) shapeCasts_S4096_S1x4096 :=
  (W2_of_ne m ρ c main_v0 (by decide)).trans (V1_v0 m ρ c)
theorem V2_kv (c : Dev nD) : V2 m ρ c main_v3_0 = (R0.dat0 (V1 m ρ) c).arrAt 5 cfg0.N := W2_arr m ρ c 5
theorem V2_ks (c : Dev nD) : V2 m ρ c main_v3_1 = (R0.dat0 (V1 m ρ) c).arrAt 6 cfg0.N := W2_arr m ρ c 6

/-! ## The result -/

/-- Region 1's output array, as it ends, is the specification of the launch contents of the seven argument arrays. -/
theorem result_eq (c : Dev nD) :
    (R1.dat1 (V2 m ρ) c).arrAt 5 cfg1.N
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [R1.final1' (V2 m ρ) c, V2_arg0, V2_arg1, V2_v0, V2_kv, V2_ks, R0.final0_5, R0.final0_6]
  refine Cert.KernelIdeal.Compose.G1_eq_G _ _ _ _ _ _ _ _
    (shapeCast S1x4096 (m ((c : Thread nD τ).loc main_arg4)) shapeCasts_S4096_S1x4096)
    (shapeCast S1x4096 (m ((c : Thread nD τ).loc main_arg6)) shapeCasts_S4096_S1x4096) _ _
    (fun n => Cert.KernelIdeal.Blk.reshape_row_apply _ 0 n)
    (fun n => Cert.KernelIdeal.Blk.reshape_row_apply _ 0 n)
    (fun n => Cert.KernelIdeal.Blk.reshape_row_apply _ 0 n) ?_ ?_
  · intro r
    show Cert.Spec.kvOf (R0.Kf (V1 m ρ) c) (R0.Vf (V1 m ρ) c) r = _
    unfold R0.Kf R0.Vf R0.aX R0.aWk R0.aBk R0.aWv R0.aBv
    rw [V1_arg0, V1_arg3, V1_arg5, V1_v1, V1_v2]
  · intro r
    show Cert.Spec.ksOf (R0.Kf (V1 m ρ) c) r = _
    unfold R0.Kf R0.aX R0.aWk R0.aBk
    rw [V1_arg0, V1_arg3, V1_v1]

end Cert.KernelIdeal.Hand

end
-- ==== Proof.RefIsSpec.lean ====
/- The reference's result, read index by index, is the specification. Each projection is the host's
   product of `x` with the transposed weight (so row `c` of the weight is contracted) plus the bias
   broadcast along the rows; the two row statistics are host sums from a zero; the last stage divides. -/
import proofs.«156116_j68702296867130_1_alg».proof.Proof.Gen.ReferenceIdeal.Read
import proofs.«156116_j68702296867130_1_alg».proof.Proof.SpecArr

noncomputable section

open scoped BigOperators

namespace Cert.RefSpec

open Cert.ReferenceIdeal Cert.ReferenceIdeal.Gen Cert.ReferenceIdeal.Read Idealize.ShloMosaic Idealize.ShloMosaic.ValueIdx
open Cert.Spec (mat vec proj kvOf ksOf out result G)

variable (x0 : (⟨S8192x4096, .f32⟩ : BufTy).Contents (Elt Ideal))
  (x1 : (⟨S4096x4096, .f32⟩ : BufTy).Contents (Elt Ideal)) (x2 : (⟨S4096, .f32⟩ : BufTy).Contents (Elt Ideal))
  (x3 : (⟨S4096x4096, .f32⟩ : BufTy).Contents (Elt Ideal)) (x4 : (⟨S4096, .f32⟩ : BufTy).Contents (Elt Ideal))
  (x5 : (⟨S4096x4096, .f32⟩ : BufTy).Contents (Elt Ideal)) (x6 : (⟨S4096, .f32⟩ : BufTy).Contents (Elt Ideal))

/-! The index maps of the stages, at an index given by coordinates. -/

theorem lidx_eq (r : Fin 8192) (c k : Fin 4096) : lidx_main_v1 (ix2 r c) k = ix2 r k :=
  funext fun a => Fin.ext (by match a with | ⟨0, _⟩ => rfl | ⟨1, _⟩ => rfl)
theorem ridx_eq (r : Fin 8192) (c k : Fin 4096) : idx_main_v0 (ridx_main_v1 (ix2 r c) k) = ix2 c k :=
  funext fun a => Fin.ext (by match a with | ⟨0, _⟩ => rfl | ⟨1, _⟩ => rfl)
theorem bidx_eq (r : Fin 8192) (c : Fin 4096) : idx_main_v2 (idx_main_v3 (ix2 r c)) = ix1 c :=
  funext fun a => Fin.ext (by match a with | ⟨0, _⟩ => rfl)
theorem sidx_eq (r : Fin 8192) (k : Fin 4096) : idx_main_v16 (ix1 r) k = ix2 r k :=
  funext fun a => Fin.ext (by match a with | ⟨0, _⟩ => rfl | ⟨1, _⟩ => rfl)
theorem kidx_eq (r : Fin 8192) (c : Fin 4096) : idx_main_v17 (idx_main_v21 (ix2 r c)) = ix1 r :=
  funext fun a => Fin.ext (by match a with | ⟨0, _⟩ => rfl)

/-- The query projection. -/
theorem q_apply (r : Fin 8192) (c : Fin 4096) :
    val_main_v4 (F := Ideal) x0 x1 x2 (ix2 r c) = proj (mat x0) (mat x1) (vec x2) r c := by
  rw [val_main_v4_apply, val_main_v1_apply, val_main_v3_apply, val_main_v2_apply]
  simp only [val_main_v0_apply]
  show (∑ k : Fin 4096, x0 (lidx_main_v1 (ix2 r c) k) * x1 (idx_main_v0 (ridx_main_v1 (ix2 r c) k)))
      + x2 (idx_main_v2 (idx_main_v3 (ix2 r c))) = _
  simp only [lidx_eq, ridx_eq, bidx_eq]
  rfl

/-- The key projection. -/
theorem k_apply (r : Fin 8192) (c : Fin 4096) :
    val_main_v9 (F := Ideal) x0 x3 x4 (ix2 r c) = proj (mat x0) (mat x3) (vec x4) r c := by
  rw [val_main_v9_apply, val_main_v6_apply, val_main_v8_apply, val_main_v7_apply]
  simp only [val_main_v5_apply]
  show (∑ k : Fin 4096, x0 (lidx_main_v1 (ix2 r c) k) * x3 (idx_main_v0 (ridx_main_v1 (ix2 r c) k)))
      + x4 (idx_main_v2 (idx_main_v3 (ix2 r c))) = _
  simp only [lidx_eq, ridx_eq, bidx_eq]
  rfl

/-- The value projection. -/
theorem v_apply (r : Fin 8192) (c : Fin 4096) :
    val_main_v14 (F := Ideal) x0 x5 x6 (ix2 r c) = proj (mat x0) (mat x5) (vec x6) r c := by
  rw [val_main_v14_apply, val_main_v11_apply, val_main_v13_apply, val_main_v12_apply]
  simp only [val_main_v10_apply]
  show (∑ k : Fin 4096, x0 (lidx_main_v1 (ix2 r c) k) * x5 (idx_main_v0 (ridx_main_v1 (ix2 r c) k)))
      + x6 (idx_main_v2 (idx_main_v3 (ix2 r c))) = _
  simp only [lidx_eq, ridx_eq, bidx_eq]
  rfl

/-- The row's sum of key times value. -/
theorem kv_apply (r : Fin 8192) :
    val_main_v16 (F := Ideal) x0 x3 x4 x5 x6 (ix1 r)
      = kvOf (proj (mat x0) (mat x3) (vec x4)) (proj (mat x0) (mat x5) (vec x6)) r := by
  rw [val_main_v16_apply]
  simp only [sidx_eq, val_main_v15_apply, k_apply, v_apply]
  show Ideal.ofBits .f32 0x00000000#32 + _ = _
  rw [Ideal.ofBits_zero_f32, zero_add]
  rfl

/-- The row's sum of the key's absolute value. -/
theorem ks_apply (r : Fin 8192) :
    val_main_v19 (F := Ideal) x0 x3 x4 (ix1 r) = ksOf (proj (mat x0) (mat x3) (vec x4)) r := by
  rw [val_main_v19_apply]
  simp only [show ∀ k, idx_main_v19 (ix1 r) k = ix2 r k from sidx_eq r, val_main_v18_apply, k_apply]
  show Ideal.ofBits .f32 0x00000000#32 + _ = _
  rw [Ideal.ofBits_zero_f32, zero_add]
  rfl

/-- The reference's result is the specification's array. -/
theorem ref_is_spec :
    val_main_v28 (F := Ideal) x0 x1 x2 x3 x4 x5 x6 = G x0 x1 x2 x3 x4 x5 x6 := by
  funext i
  obtain ⟨r, c, rfl⟩ : ∃ (r : Fin 8192) (c : Fin 4096), i = ix2 r c := ⟨i 0, i 1, eq_ix2 i⟩
  rw [Cert.Spec.G_ix2, val_main_v28_apply, val_main_v22_apply, val_main_v27_apply, val_main_v25_apply,
    val_main_v23_apply, val_main_v21_apply, val_main_v17_apply, val_main_v24_apply, val_main_v20_apply,
    val_main_v26_apply, q_apply]
  rw [show idx_main_v20 (idx_main_v24 (ix2 r c)) = ix1 r from kidx_eq r c, kidx_eq, kv_apply, ks_apply]
  rfl

end Cert.RefSpec

end
-- ==== Proof.lean ====
/- The proof of `Cert.Claim`. Both programs compute, for x[8192,4096] and three weight matrices with their biases,
   q = x·Wqᵀ + bq, k = x·Wkᵀ + bk, v = x·Wvᵀ + bv, the row statistics kv = Σ k·v and ksum = Σ |k|, and
   out = q·kv / (1 + |q|·ksum). The kernel does it in two grid regions (the statistics, then the output), cutting every
   contraction into eight blocks of 512 and every row sum into four blocks of 1024, accumulated in scratch buffers from
   zero; over the extended reals that is a regrouping of finite sums, so both results are the one function
   `Cert.Spec.G` of the seven argument arrays. The three frames: each kernel program's run through its two regions
   (Proof/Run.lean and its word-level twin), the reference's run with the result dropped. Nothing was rewritten by the
   idealization, so `preserves` is trivial. -/
import proofs.«156116_j68702296867130_1_alg».proof.Defs
import proofs.«156116_j68702296867130_1_alg».proof.Proof.BRun
import proofs.«156116_j68702296867130_1_alg».proof.Proof.Value
import proofs.«156116_j68702296867130_1_alg».proof.Proof.RefIsSpec
import proofs.«156116_j68702296867130_1_alg».proof.Proof.Gen.Kernel
import proofs.«156116_j68702296867130_1_alg».proof.Proof.Gen.KernelIdeal
import proofs.«156116_j68702296867130_1_alg».proof.Proof.Gen.ReferenceIdeal
import proofs.«156116_j68702296867130_1_alg».proof.Proof.Gen.ReferenceIdeal.Run
import proofs.«156116_j68702296867130_1_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel's result array ends at the specification of its argument arrays (the two regions'
    values composed), and so does the reference's (its run read index by index), from memories agreeing on the arguments. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun _ h c => ⟨(h c).1.trans (Cert.KernelIdeal.Hand.result_eq m ρ c), (h c).2⟩)
      (Cert.KernelIdeal.Hand.run_value (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v28_eq, Cert.RefSpec.ref_is_spec,
      (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
